-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S2x262144 32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩

abbrev nBuf : Space → Nat
  | .hbm => 68
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S8192x128, .f32⟩
  | .hbm, ⟨5, _⟩ => ⟨S8192x128, .f32⟩
  | .hbm, ⟨6, _⟩ => ⟨S8192, .i32⟩
  | .hbm, ⟨7, _⟩ => ⟨S1x262144, .i32⟩
  | .hbm, ⟨8, _⟩ => ⟨S262144, .i32⟩
  | .hbm, ⟨9, _⟩ => ⟨S270336, .i32⟩
  | .hbm, ⟨10, _⟩ => ⟨S1x262144, .i32⟩
  | .hbm, ⟨11, _⟩ => ⟨S262144, .i32⟩
  | .hbm, ⟨12, _⟩ => ⟨S270336, .i32⟩
  | .hbm, ⟨13, _⟩ => ⟨S_, .f32⟩
  | .hbm, ⟨14, _⟩ => ⟨S270336, .f32⟩
  | .hbm, ⟨15, _⟩ => ⟨S_, .f32⟩
  | .hbm, ⟨16, _⟩ => ⟨S8192, .f32⟩
  | .hbm, ⟨17, _⟩ => ⟨S270336x1, .i32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .i1⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S270336, .i32⟩
  | .hbm, ⟨31, _⟩ => ⟨S270336, .i1⟩
  | .hbm, ⟨32, _⟩ => ⟨S_, .i32⟩
  | .hbm, ⟨33, _⟩ => ⟨S270336, .i32⟩
  | .hbm, ⟨34, _⟩ => ⟨S270336, .i32⟩
  | .hbm, ⟨35, _⟩ => ⟨S270336, .i32⟩
  | .hbm, ⟨36, _⟩ => ⟨S270336x1, .i32⟩
  | .hbm, ⟨37, _⟩ => ⟨S270336, .f32⟩
  | .hbm, ⟨38, _⟩ => ⟨S_, .i32⟩
  | .hbm, ⟨39, _⟩ => ⟨S270336, .i32⟩
  | .hbm, ⟨40, _⟩ => ⟨S270336, .i1⟩
  | .hbm, ⟨41, _⟩ => ⟨S_, .i32⟩
  | .hbm, ⟨42, _⟩ => ⟨S270336, .i32⟩
  | .hbm, ⟨43, _⟩ => ⟨S270336, .i32⟩
  | .hbm, ⟨44, _⟩ => ⟨S270336, .i32⟩
  | .hbm, ⟨45, _⟩ => ⟨S270336x1, .i32⟩
  | .hbm, ⟨46, _⟩ => ⟨S270336, .f32⟩
  | .hbm, ⟨47, _⟩ => ⟨S270336, .f32⟩
  | .hbm, ⟨48, _⟩ => ⟨S_, .i32⟩
  | .hbm, ⟨49, _⟩ => ⟨S270336, .i32⟩
  | .hbm, ⟨50, _⟩ => ⟨S270336, .i1⟩
  | .hbm, ⟨51, _⟩ => ⟨S_, .i32⟩
  | .hbm, ⟨52, _⟩ => ⟨S270336, .i32⟩
  | .hbm, ⟨53, _⟩ => ⟨S270336, .i32⟩
  | .hbm, ⟨54, _⟩ => ⟨S270336, .i32⟩
  | .hbm, ⟨55, _⟩ => ⟨S270336x1, .i32⟩
  | .hbm, ⟨56, _⟩ => ⟨S270336x128, .f32⟩
  | .hbm, ⟨57, _⟩ => ⟨S270336x1, .f32⟩
  | .hbm, ⟨58, _⟩ => ⟨S270336x128, .f32⟩
  | .hbm, ⟨59, _⟩ => ⟨S270336x128, .f32⟩
  | .hbm, ⟨60, _⟩ => ⟨S_, .f32⟩
  | .hbm, ⟨61, _⟩ => ⟨S8192x128, .f32⟩
  | .hbm, ⟨62, _⟩ => ⟨S270336x1, .i32⟩
  | .hbm, ⟨63, _⟩ => ⟨S8192x128, .f32⟩
  | .hbm, ⟨64, _⟩ => ⟨S1x128, .f32⟩
  | .hbm, ⟨65, _⟩ => ⟨S8192x128, .f32⟩
  | .hbm, ⟨66, _⟩ => ⟨S8192x128, .f32⟩
  | .hbm, ⟨67, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  bitsLt_bf16_f32 : FTy.bits .bf16 < FTy.bits .f32
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  dot_S8192x128_S128x128_S8192x128_1_0_0_1_n_n_wf : DotDims.WF S8192x128 S128x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S1x262144 : Shape := ⟨2, ![1, 262144]⟩
abbrev S262144 : Shape := ⟨1, ![262144]⟩
abbrev S270336 : Shape := ⟨1, ![270336]⟩
abbrev S270336x1 : Shape := ⟨2, ![270336, 1]⟩
abbrev S270336x128 : Shape := ⟨2, ![270336, 128]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S128x8192, .f32⟩
  | .hbm, ⟨17, _⟩ => ⟨S8192x8192, .f32⟩
  | .hbm, ⟨18, _⟩ => ⟨S8192x8192, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192, .i32⟩
  | .hbm, ⟨30, _⟩ => ⟨S1x262144, .i32⟩
  | .hbm, ⟨31, _⟩ => ⟨S262144, .i32⟩
  | .hbm, ⟨32, _⟩ => ⟨S270336, .i32⟩
  | .hbm, ⟨33, _⟩ => ⟨S1x262144, .i32⟩
  | .hbm, ⟨34, _⟩ => ⟨S262144, .i32⟩
  | .hbm, ⟨35, _⟩ => ⟨S270336, .i32⟩
  | .hbm, ⟨36, _⟩ => ⟨S_, .f32⟩
  | .hbm, ⟨37, _⟩ => ⟨S270336, .f32⟩
  | .hbm, ⟨38, _⟩ => ⟨S_, .f32⟩
  | .hbm, ⟨39, _⟩ => ⟨S8192, .f32⟩
  | .hbm, ⟨40, _⟩ => ⟨S270336x1, .i32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .i1⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .i1⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .i32⟩
  | .hbm, ⟨64, _⟩ => ⟨S270336, .i32⟩
  | .hbm, ⟨65, _⟩ => ⟨S270336, .i1⟩
  | .hbm, ⟨66, _⟩ => ⟨S_, .i32⟩
  | .hbm, ⟨67, _⟩ => ⟨S270336, .i32⟩
  | .hbm, ⟨68, _⟩ => ⟨S270336, .i32⟩
  | .hbm, ⟨69, _⟩ => ⟨S270336, .i32⟩
  | .hbm, ⟨70, _⟩ => ⟨S270336x1, .i32⟩
  | .hbm, ⟨71, _⟩ => ⟨S270336, .f32⟩
  | .hbm, ⟨72, _⟩ => ⟨S_, .i32⟩
  | .hbm, ⟨73, _⟩ => ⟨S270336, .i32⟩
  | .hbm, ⟨74, _⟩ => ⟨S270336, .i1⟩
  | .hbm, ⟨75, _⟩ => ⟨S_, .i32⟩
  | .hbm, ⟨76, _⟩ => ⟨S270336, .i32⟩
  | .hbm, ⟨77, _⟩ => ⟨S270336, .i32⟩
  | .hbm, ⟨78, _⟩ => ⟨S270336, .i32⟩
  | .hbm, ⟨79, _⟩ => ⟨S270336x1, .i32⟩
  | .hbm, ⟨80, _⟩ => ⟨S270336, .f32⟩
  | .hbm, ⟨81, _⟩ => ⟨S270336, .f32⟩
  | .hbm, ⟨82, _⟩ => ⟨S_, .i32⟩
  | .hbm, ⟨83, _⟩ => ⟨S270336, .i32⟩
  | .hbm, ⟨84, _⟩ => ⟨S270336, .i1⟩
  | .hbm, ⟨85, _⟩ => ⟨S_, .i32⟩
  | .hbm, ⟨86, _⟩ => ⟨S270336, .i32⟩
  | .hbm, ⟨87, _⟩ => ⟨S270336, .i32⟩
  | .hbm, ⟨88, _⟩ => ⟨S270336, .i32⟩
  | .hbm, ⟨89, _⟩ => ⟨S270336x1, .i32⟩
  | .hbm, ⟨90, _⟩ => ⟨S270336x128, .f32⟩
  | .hbm, ⟨91, _⟩ => ⟨S270336x1, .f32⟩
  | .hbm, ⟨92, _⟩ => ⟨S270336x128, .f32⟩
  | .hbm, ⟨93, _⟩ => ⟨S270336x128, .f32⟩
  | .hbm, ⟨94, _⟩ => ⟨S_, .f32⟩
  | .hbm, ⟨95, _⟩ => ⟨S8192x128, .f32⟩
  | .hbm, ⟨96, _⟩ => ⟨S270336x1, .i32⟩
  | .hbm, ⟨97, _⟩ => ⟨S8192x128, .f32⟩
  | .hbm, ⟨98, _⟩ => ⟨S1x128, .f32⟩
  | .hbm, ⟨99, _⟩ => ⟨S8192x128, .f32⟩
  | .hbm, ⟨100, _⟩ => ⟨S8192x128, .f32⟩
  | .hbm, ⟨101, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_call0_v0 : Ref sig .tc := ⟨.hbm, 50, rfl⟩
abbrev main_call0_v1 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_call1_v0 : Ref sig .tc := ⟨.hbm, 60, rfl⟩
abbrev main_call1_v1 : Ref sig .tc := ⟨.hbm, 61, rfl⟩
abbrev main_v42 : Ref sig .tc := ⟨.hbm, 62, rfl⟩
abbrev main_c : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_c_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x128_S128x8192_1_0 : S8192x128.Transposes [1, 0] S128x8192
  bcast_S_S8192x128 : S_.BroadcastsInDim S8192x128 (![] : Fin 0 → Fin S8192x128.rank)
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf

class Facts : Prop extends Facts₀ where

variable [Facts]
-- ==== Proof.K.Conds.lean ====
import proofs.«130468_j21397527068865_1_alg».proof.Proof.Gen.Kernel.Launch
import proofs.«130468_j21397527068865_1_alg».proof.Proof.Gen.Kernel.Skeleton
import proofs.«130468_j21397527068865_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the 8 × 8 grid

The grid point `t` has coordinates `(t / 8, t % 8)`: the row block and the column block. The accumulator is
reset where the column block is the first, and the output is stored where it is the last. -/

/-- The reset condition: the column block is the first one. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The store condition: the column block is the last one. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-- The input windows are never idle; the output window is idle exactly off the last column block, and is written back
    exactly there. -/
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel

/-- The staging memrefs the pipeline calls the body with at point `t`, and the scratch accumulator. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev scM : Memref sig .tc .vmem S1024x128 .f32 := Memref.whole cc0_scratch0
abbrev VS : View sig .tc .vmem S1024x128 .f32 := scM.view
abbrev VO : View sig .tc .vmem S1024x128 .f32 := (Memref.whole cc0_stg2_0 : Memref sig .tc .vmem S1024x128 .f32).view

end Cert.Kernel.Att

end
-- ==== Proof.K.RunFirst.lean ====
import proofs.«130468_j21397527068865_1_alg».proof.Proof.Gen.Kernel.Launch
import proofs.«130468_j21397527068865_1_alg».proof.Proof.Gen.Kernel.Skeleton
import proofs.«130468_j21397527068865_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.K.Conds

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first column block of a row: the accumulator, at anything, is reset to zero, then the block's contribution is
    added and stored back; the output buffer is not touched. -/
noncomputable def runFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : condFirst i) (hc1 : ¬condLast i) (x0 x1 : Vec F S1024x128 .f32) :
    { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__cos_attn_kernel i arg2 harg2 arg3 harg3 arg4 harg4 arg5 harg5) K } := by
  refine ⟨?_, fun xo E K => ?run⟩
  case run =>
    simp only [cc0__cos_attn_kernel_eq_skeleton]; unfold cc0__cos_attn_kernel_skel
    unfold owns
    iintro ⟨⟨%f0, %hf0, H0⟩, ⟨%f1, %hf1, H1⟩, ⟨%f2, %hf2, H2⟩, ⟨%ds, %fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Att

end
-- ==== Proof.K.RunMid.lean ====
import proofs.«130468_j21397527068865_1_alg».proof.Proof.Gen.Kernel.Launch
import proofs.«130468_j21397527068865_1_alg».proof.Proof.Gen.Kernel.Skeleton
import proofs.«130468_j21397527068865_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.K.Conds

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A point strictly inside a row of column blocks: the accumulator is read, the block's contribution added and the
    sum stored back; the output buffer is not touched. The pieces the accumulator ends with are found by the run. -/
noncomputable def runMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : ¬condLast i) (x0 x1 xs : Vec F S1024x128 .f32) :
    { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__cos_attn_kernel i arg2 harg2 arg3 harg3 arg4 harg4 arg5 harg5) K } := by
  refine ⟨?_, fun xo E K => ?run⟩
  case run =>
    simp only [cc0__cos_attn_kernel_eq_skeleton]; unfold cc0__cos_attn_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Att

end
-- ==== Proof.K.RunLast.lean ====
import proofs.«130468_j21397527068865_1_alg».proof.Proof.Gen.Kernel.Launch
import proofs.«130468_j21397527068865_1_alg».proof.Proof.Gen.Kernel.Skeleton
import proofs.«130468_j21397527068865_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.K.Conds

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last column block of a row: the block's contribution is added to the accumulator and stored back, and the
    logistic of the finished sum is stored into the output buffer, whatever it held. -/
noncomputable def runLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__cos_attn_kernel i arg2 harg2 arg3 harg3 arg4 harg4 arg5 harg5) K } := by
  refine ⟨?_, ?_, fun E K => ?run⟩
  case run =>
    simp only [cc0__cos_attn_kernel_eq_skeleton]; unfold cc0__cos_attn_kernel_skel
    unfold owns
    iintro ⟨⟨%f0, %hf0, H0⟩, ⟨%f1, %hf1, H1⟩, ⟨%d2, %f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Att

end
-- ==== Proof.K.Data.lean ====
import proofs.«130468_j21397527068865_1_alg».proof.Proof.Gen.Kernel.Launch
import proofs.«130468_j21397527068865_1_alg».proof.Proof.Gen.Kernel.Skeleton
import proofs.«130468_j21397527068865_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.K.RunFirst
import proofs.«130468_j21397527068865_1_alg».proof.Proof.K.RunMid
import proofs.«130468_j21397527068865_1_alg».proof.Proof.K.RunLast

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks

The region is the first thing @main runs, so it finds every buffer at its launch contents. Window 0 reads the
row block `t / 8` of `x`, window 1 the column block `t % 8` of the same array, window 2 writes the row block
`t / 8` of the attention output. -/

abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves in the accumulator and in the output buffer -/

theorem scoverFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : condFirst i) (hc1 : ¬condLast i) (x0 x1 : Vec F S1024x128 .f32) (y : S1024x128.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x128.size (by sl_kernel_rfl) y

/-- The accumulator after the first column block of a row. -/
def soutFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : condFirst i) (hc1 : ¬condLast i) (x0 x1 : Vec F S1024x128 .f32) : Vec F S1024x128 .f32 :=
  VS.read (Elt F) (VS.writes (Elt F) VS.junk (runFirst c i arg2 harg2 arg3 harg3 arg4 harg4 arg5 harg5 hc0 hc1 x0 x1).1)

theorem scoverMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : ¬condLast i) (x0 x1 xs : Vec F S1024x128 .f32) (y : S1024x128.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x128.size (by sl_kernel_rfl) y

/-- The accumulator after a column block strictly inside a row, from what the block before left. -/
def soutMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : ¬condLast i) (x0 x1 xs : Vec F S1024x128 .f32) : Vec F S1024x128 .f32 :=
  VS.read (Elt F) (VS.writes (Elt F) VS.junk (runMid c i arg2 harg2 arg3 harg3 arg4 harg4 arg5 harg5 hc0 hc1 x0 x1 xs).1)

theorem scoverLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) (y : S1024x128.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x128.size (by sl_kernel_rfl) y

theorem coverLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) (y : S1024x128.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x128.size (by sl_kernel_rfl) y

/-- The accumulator after the last column block of a row. -/
def soutLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) : Vec F S1024x128 .f32 :=
  VS.read (Elt F) (VS.writes (Elt F) VS.junk (runLast c i arg2 harg2 arg3 harg3 arg4 harg4 arg5 harg5 hc0 hc1 x0 x1 xs).2.1)

/-- The output buffer after the last column block of a row: the logistic of the finished sum. -/
def outLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) : Vec F S1024x128 .f32 :=
  VO.read (Elt F) (VO.writes (Elt F) VO.junk (runLast c i arg2 harg2 arg3 harg3 arg4 harg4 arg5 harg5 hc0 hc1 x0 x1 xs).1)

/-! ## The accumulation, point by point

After point `n` the pair (output buffer, accumulator): the case the closed forms select at `n`, run on the
point's two input blocks and, off the first column block, on what point `n - 1` left in the accumulator. Off the
last column block the output component is a placeholder nothing reads (the window is idle there). -/

def outsAt (c : Dev nD) : (n : ℕ) → n < cfg0.N → Vec F S1024x128 .f32 × Vec F S1024x128 .f32
  | 0, hn => (VO.read (Elt F) VO.junk, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (VO.read (Elt F) VO.junk, soutFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2,
         soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2)
      else
        (VO.read (Elt F) VO.junk, soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (VO.read (Elt F) VO.junk, soutFirst c (grid0.coords t) (ms0 t) (hs0 t) (ms1 t) (hs1 t) (ms2 t) (hs2 t) scM (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = (VO.read (Elt F) VO.junk, soutMid c (grid0.coords t) (ms0 t) (hs0 t) (ms1 t) (hs1 t) (ms2 t) (hs2 t) scM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2,
      soutLast c (grid0.coords t) (ms0 t) (hs0 t) (ms1 t) (hs1 t) (ms2 t) (hs2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before the first point the accumulator holds anything; before point `n + 1` it holds what point `n` left. The
    generator register rides along at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The proof data

The two input windows read ONE array: each holds half of it (the left and the right half of the full share), which
is all a read needs; the output window holds its array whole. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input's current staging buffer holds its block at every point, fetched there or not: where the pipeline does
    not fetch, the block index has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the closed forms say which case the point is in;
    the invariant hands over the accumulator at what the point before left (at anything before the first point) and
    takes it back at this point's contents; off the last column block the output buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  by_cases h0 : t.val % 8 = 0
  · have h1 : ¬t.val % 8 = 7 := by omega
    rw [Dat.leavesExact_idle (dats m 0 c) 2 t (idle2 t (fun h => h1 ((hcondLast t).mp h))) (noFlush2 t (fun h => h1 ((hcondLast t).mp h)))]
    rw [outsAt_first m c t h0 h1]
    unfold soutFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dats m 0 c).leavesExact 2 t = owns (c : Thread nD τ) (ms2 t) fullShare ((dats m 0 c).after 2 t) from by
        unfold Dat.leavesExact; rw [live2 t ((hcondLast t).mpr h1)], after_2]
      rw [outsAt_last m c t h0 h1]
      unfold outLast soutLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((hcondFirst t).mp h)) ((hcondLast t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · rw [Dat.leavesExact_idle (dats m 0 c) 2 t (idle2 t (fun h => h1 ((hcondLast t).mp h))) (noFlush2 t (fun h => h1 ((hcondLast t).mp h)))]
      rw [outsAt_mid m c t h0 h1]
      unfold soutMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ (fun h => h0 ((hcondFirst t).mp h)) (fun h => h1 ((hcondLast t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverMid c _ _ _ _ _ _ _ _ _ _ _ _ _ _)
        iexact Hg
      isplitl [Ho]; · iexact Ho
      isplitl [H0]; · iexact H0
      isplitl [H1]; · iexact H1
      iexists _; iexact H2

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, and after the last point the invariant
    gives it back, the accumulator's contents forgotten. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.Kernel.Att

end
-- ==== Proof.K.Launch.lean ====
import proofs.«130468_j21397527068865_1_alg».proof.Proof.Gen.Kernel.Launch
import proofs.«130468_j21397527068865_1_alg».proof.Proof.Gen.Kernel.Skeleton
import proofs.«130468_j21397527068865_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.K.Data

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at every boundary of @main

@main is the region, then three stretches of host operations (the graph-convolution part and the final product).
`W0` is the launch memory; `W1` has the attention output where the region's write-backs leave it and everything
else as launched; `W2`, `W3`, `W4` follow the three stretches. -/

abbrev W0 (c : Dev nD) : Valuation τ sig (Elt F) := V0 m c

/-- After the region: the output array at what the write-backs leave, every other buffer untouched. -/
def W1 (c : Dev nD) : Valuation τ sig (Elt F) := fun b =>
  if h : Proc.devRef .tc main_v0 = b then cast (congrArg (fun b' : DevRef τ sig => b'.ty.Contents (Elt F)) h) ((dats m 0 c).arrAt 2 cfg0.N)
  else W0 m c b

theorem W1_out (c : Dev nD) : W1 m c (Proc.devRef .tc main_v0) = (dats m 0 c).arrAt 2 cfg0.N := by
  unfold W1; rw [dif_pos rfl]; rfl

theorem W1_of_ne (c : Dev nD) (b : Ref sig .tc) (hb : main_v0 ≠ b) : W1 m c (Proc.devRef .tc b) = W0 m c (Proc.devRef .tc b) := by
  unfold W1; rw [dif_neg]; exact fun e => hb (Proc.devRef_injective _ e)

abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)

/-! ## The proof data family and what rides along -/

abbrev adm : (p : Fin 1) → (pcfgs (F := F) p).Adm := fun p => (cfgs p).toPCfg_adm

def pdats : (p : Fin 1) → (c : Dev nD) → Dat τ (Elt F) Unit ℕ (UR sig nD τ) ℕ (Pipeline.pin (pcfgs (F := F)) adm p) c
  | ⟨0, _⟩ => fun c => dats m 0 c

abbrev 𝒱₀ : Variants := Variants.none
abbrev L : GSem nD τ sig → Finset Unit := fun _ => ∅
abbrev lv : GSem nD τ sig → Unit → ℕ := fun _ _ => 0
/-- The generator register at some state and the core owing nothing ride beside the buffers through every segment. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The two buffers behind the three windows

The query window and the key window read one array, `x`; the third window writes the attention output. Held whole,
`x` splits into a left and a right half share, one per reading window, and the halves join again after the region:
neither window writes, so both end at the contents they were entered with. -/

theorem arrRefs_eq : Finset.univ.image (Pipeline.arrRef spec0) = ([main_arg0, main_v0] : List (Ref sig .tc)).toFinset := by decide

theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_v0) ↦{fullShare} V' main_v0)) := by
  unfold Pipeline.arrBufs
  exact bigSep_eq_bigSepL_of_eq [main_arg0, main_v0] arrRefs_eq (by decide) _

local instance : IsOp fullShare fullShare.left fullShare.right := IsOp.posShare_halves fullShare

/-- The arrays of the proof data at contents `G`, window by window at its share. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  rw [(arr_whole0 0).set_eq_univ, (arr_whole0 2).set_eq_univ]
  rfl

/-- ENTRY: every unscoped buffer at its launch contents is the three windows' arrays at their shares and the rest. -/
theorem entry_split (c : Dev nD) :
    (StableHlo.held (c : Thread nD τ) (Pipeline.ucRefs τ sig) (W0 m c) : sProp 𝕄)
      ⊢ iprop((dats m 0 c).arrays (dats m 0 c).A ∗ Pipeline.unscopedRest (Ix := Unit) (Name := ℕ) (U := UR sig nD τ) (Lvl := ℕ) spec0 c (V m c)) := by
  rw [← Pipeline.unscopedBufs_held, Pipeline.unscopedBufs_split₀ cfgs (0 : Fin 1) winFacts₀0.arr_unscoped c, arrBufs_eq, arrays_eq3]
  iintro ⟨⟨Hx, Hv⟩, Hrest⟩
  ihave Hx2 := (pointsTo_share (PosShare.mem_left_op_right fullShare)).1 $$ Hx
  icases Hx2 with ⟨Hl, Hr⟩
  isplitr [Hrest]
  · isplitl [Hl]; · iexact Hl
    isplitl [Hr]; · iexact Hr
    iexact Hv
  iexact Hrest

/-- Off the windows' arrays the region changes nothing. -/
theorem rest_eq (c : Dev nD) :
    (Pipeline.unscopedRest (Ix := Unit) (Name := ℕ) (U := UR sig nD τ) (Lvl := ℕ) spec0 c (V m c) : sProp 𝕄)
      = Pipeline.unscopedRest spec0 c (fun b => W1 m c (Proc.devRef .tc b)) := by
  unfold Pipeline.unscopedRest
  refine bigSep_congr fun b hb => ?_
  have e : W1 m c (Proc.devRef .tc b) = V m c b :=
    W1_of_ne m c b (fun e => (Finset.mem_sdiff.mp hb).2 (Finset.mem_image.mpr ⟨2, Finset.mem_univ _, e⟩))
  exact congrArg (fun v => ((((c : Thread nD τ).loc b) ↦{fullShare} v) : sProp 𝕄)) e.symm

/-- EXIT: the two halves of `x`, each at the contents it was entered with, are `x` whole again; the output array is at
    what the write-backs left; the rest was never touched. -/
theorem exit_join (c : Dev nD) :
    iprop((dats m 0 c).arrays ((dats m 0 c).arrAt · cfg0.N) ∗ Pipeline.unscopedRest (Ix := Unit) (Name := ℕ) (U := UR sig nD τ) (Lvl := ℕ) spec0 c (V m c))
      ⊢ (StableHlo.held (c : Thread nD τ) (Pipeline.ucRefs τ sig) (W1 m c) : sProp 𝕄) := by
  rw [← Pipeline.unscopedBufs_held, Pipeline.unscopedBufs_split₀ cfgs (0 : Fin 1) winFacts₀0.arr_unscoped c, arrBufs_eq, arrays_eq3]
  rw [(dats m 0 c).arrAt_in 0 rfl, (dats m 0 c).arrAt_in 1 rfl]
  iintro ⟨⟨Hl, Hr, Hv⟩, Hrest⟩
  isplitr [Hrest]
  · isplitl [Hl Hr]
    · rw [W1_of_ne m c main_arg0 (by decide)]
      iapply (pointsTo_share (PosShare.mem_left_op_right fullShare)).2
      isplitl [Hl]; · iexact Hl
      iexact Hr
    · rw [W1_out]; iexact Hv
  · iapply (Entails.of_eq (rest_eq m c))
    iexact Hrest

set_option backward.isDefEq.respectTransparency.types false in
/-- The region as a segment: entered from every unscoped buffer at its launch contents, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hub, Hp, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin m c
    unfold Pipeline.ΦA at h
    refine BIBase.Entails.trans ?_ h
    iintro ⟨Hp, -, Hr⟩
    isplitl [Hr]; · iexact Hr
    iexact Hp
  hout c := by
    rw [Pipeline.ownSems0_none]
    refine (hout m c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m c)
      isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)) ]

theorem main_run (c : Dev nD) : main (F := F) c = Pipeline.Seg.run (segs m) := (main_chain c).trans (by chain_rfl)

set_option backward.isDefEq.respectTransparency.types false in
/-- Every weakly fair execution of @main terminates, and every final state has every unscoped buffer at `W4`: the
    launch memory followed through the region and the three host stretches. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The frame: no host operation and no window writes an argument array -/

theorem notWritten1 (b : Ref sig .tc) (h : b = main_arg0 ∨ b = main_arg1 ∨ b = main_arg2 ∨ b = main_arg3 ∨ b = main_v0) :
    ∀ op ∈ (hostOps1 : List (HloOp τ sig (Elt F))), Proc.devRef .tc b ∉ op.writes := by
  refine List.forall_iff_forall_mem.mp ?_
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  rcases h with rfl | rfl | rfl | rfl | rfl <;> (repeat' apply And.intro) <;> exact StableHlo.devRef_ne_of_ne (by decide)

theorem notWritten2 (b : Ref sig .tc) (h : b = main_arg0 ∨ b = main_arg1 ∨ b = main_arg2 ∨ b = main_arg3 ∨ b = main_v0) :
    ∀ op ∈ (hostOps1_1 : List (HloOp τ sig (Elt F))), Proc.devRef .tc b ∉ op.writes := by
  refine List.forall_iff_forall_mem.mp ?_
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  rcases h with rfl | rfl | rfl | rfl | rfl <;> (repeat' apply And.intro) <;> exact StableHlo.devRef_ne_of_ne (by decide)

theorem notWritten3 (b : Ref sig .tc) (h : b = main_arg0 ∨ b = main_arg1 ∨ b = main_arg2 ∨ b = main_arg3 ∨ b = main_v0) :
    ∀ op ∈ (hostOps1_2 : List (HloOp τ sig (Elt F))), Proc.devRef .tc b ∉ op.writes := by
  refine List.forall_iff_forall_mem.mp ?_
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  rcases h with rfl | rfl | rfl | rfl | rfl <;> (repeat' apply And.intro) <;> exact StableHlo.devRef_ne_of_ne (by decide)

/-- An argument array, and the attention output, are after the three stretches what they were after the region. -/
theorem W4_keep (c : Dev nD) (b : Ref sig .tc) (h : b = main_arg0 ∨ b = main_arg1 ∨ b = main_arg2 ∨ b = main_arg3 ∨ b = main_v0) :
    W4 m c (Proc.devRef .tc b) = W1 m c (Proc.devRef .tc b) :=
  (StableHlo.after_of_forall_not_mem (b := Proc.devRef .tc b) _ _ (notWritten3 b h)).trans
    ((StableHlo.after_of_forall_not_mem (b := Proc.devRef .tc b) _ _ (notWritten2 b h)).trans
      (StableHlo.after_of_forall_not_mem (b := Proc.devRef .tc b) _ _ (notWritten1 b h)))

theorem W4_arg (c : Dev nD) (b : Ref sig .tc) (h : b = main_arg0 ∨ b = main_arg1 ∨ b = main_arg2 ∨ b = main_arg3) (hne : main_v0 ≠ b) :
    W4 m c (Proc.devRef .tc b) = m ((c : Thread nD τ).loc b) :=
  (W4_keep m c b (by rcases h with h | h | h | h <;> simp [h])).trans ((W1_of_ne m c b hne).trans rfl)

/-- The run, read at the result and the arguments. -/
theorem run_result : θ_run defs (onTc (τ := τ) (main (F := F))) ⟨m, fun _ => 0, ρ⟩ (fun r => ∀ c : Dev nD,
      r.2.mem ((c.tc : Thread nD τ).loc main_v49) = W4 m c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v49 (by decide)),
     (h c _ (mem_uc main_arg0 (by decide))).trans (W4_arg m c main_arg0 (by simp) (by decide)),
     (h c _ (mem_uc main_arg1 (by decide))).trans (W4_arg m c main_arg1 (by simp) (by decide)),
     (h c _ (mem_uc main_arg2 (by decide))).trans (W4_arg m c main_arg2 (by simp) (by decide)),
     (h c _ (mem_uc main_arg3 (by decide))).trans (W4_arg m c main_arg3 (by simp) (by decide))⟩) (run_main m ρ)

/-- The frame: @main runs to the end, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Att

end
-- ==== Proof.KI.Conds.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the 8 × 8 grid

The grid point `t` has coordinates `(t / 8, t % 8)`: the row block and the column block. The accumulator is
reset where the column block is the first, and the output is stored where it is the last. -/

/-- The reset condition: the column block is the first one. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The store condition: the column block is the last one. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-- The input windows are never idle; the output window is idle exactly off the last column block, and is written back
    exactly there. -/
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel

/-- The staging memrefs the pipeline calls the body with at point `t`, and the scratch accumulator. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev scM : Memref sig .tc .vmem S1024x128 .f32 := Memref.whole cc0_scratch0
abbrev VS : View sig .tc .vmem S1024x128 .f32 := scM.view
abbrev VO : View sig .tc .vmem S1024x128 .f32 := (Memref.whole cc0_stg2_0 : Memref sig .tc .vmem S1024x128 .f32).view

end Cert.KernelIdeal.Att

end
-- ==== Proof.KI.RunFirst.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.KI.Conds

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first column block of a row: the accumulator, at anything, is reset to zero, then the block's contribution is
    added and stored back; the output buffer is not touched. -/
noncomputable def runFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : condFirst i) (hc1 : ¬condLast i) (x0 x1 : Vec F S1024x128 .f32) :
    { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__cos_attn_kernel i arg2 harg2 arg3 harg3 arg4 harg4 arg5 harg5) K } := by
  refine ⟨?_, fun xo E K => ?run⟩
  case run =>
    simp only [cc0__cos_attn_kernel_eq_skeleton]; unfold cc0__cos_attn_kernel_skel
    unfold owns
    iintro ⟨⟨%f0, %hf0, H0⟩, ⟨%f1, %hf1, H1⟩, ⟨%f2, %hf2, H2⟩, ⟨%ds, %fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Att

end
-- ==== Proof.KI.RunMid.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.KI.Conds

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A point strictly inside a row of column blocks: the accumulator is read, the block's contribution added and the
    sum stored back; the output buffer is not touched. The pieces the accumulator ends with are found by the run. -/
noncomputable def runMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : ¬condLast i) (x0 x1 xs : Vec F S1024x128 .f32) :
    { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__cos_attn_kernel i arg2 harg2 arg3 harg3 arg4 harg4 arg5 harg5) K } := by
  refine ⟨?_, fun xo E K => ?run⟩
  case run =>
    simp only [cc0__cos_attn_kernel_eq_skeleton]; unfold cc0__cos_attn_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Att

end
-- ==== Proof.KI.RunLast.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.KI.Conds

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last column block of a row: the block's contribution is added to the accumulator and stored back, and the
    logistic of the finished sum is stored into the output buffer, whatever it held. -/
noncomputable def runLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__cos_attn_kernel i arg2 harg2 arg3 harg3 arg4 harg4 arg5 harg5) K } := by
  refine ⟨?_, ?_, fun E K => ?run⟩
  case run =>
    simp only [cc0__cos_attn_kernel_eq_skeleton]; unfold cc0__cos_attn_kernel_skel
    unfold owns
    iintro ⟨⟨%f0, %hf0, H0⟩, ⟨%f1, %hf1, H1⟩, ⟨%d2, %f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Att

end
-- ==== Proof.KI.Data.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.KI.RunFirst
import proofs.«130468_j21397527068865_1_alg».proof.Proof.KI.RunMid
import proofs.«130468_j21397527068865_1_alg».proof.Proof.KI.RunLast

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks

The region is the first thing @main runs, so it finds every buffer at its launch contents. Window 0 reads the
row block `t / 8` of `x`, window 1 the column block `t % 8` of the same array, window 2 writes the row block
`t / 8` of the attention output. -/

abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves in the accumulator and in the output buffer -/

theorem scoverFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : condFirst i) (hc1 : ¬condLast i) (x0 x1 : Vec F S1024x128 .f32) (y : S1024x128.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x128.size (by sl_kernel_rfl) y

/-- The accumulator after the first column block of a row. -/
def soutFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : condFirst i) (hc1 : ¬condLast i) (x0 x1 : Vec F S1024x128 .f32) : Vec F S1024x128 .f32 :=
  VS.read (Elt F) (VS.writes (Elt F) VS.junk (runFirst c i arg2 harg2 arg3 harg3 arg4 harg4 arg5 harg5 hc0 hc1 x0 x1).1)

theorem scoverMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : ¬condLast i) (x0 x1 xs : Vec F S1024x128 .f32) (y : S1024x128.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x128.size (by sl_kernel_rfl) y

/-- The accumulator after a column block strictly inside a row, from what the block before left. -/
def soutMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : ¬condLast i) (x0 x1 xs : Vec F S1024x128 .f32) : Vec F S1024x128 .f32 :=
  VS.read (Elt F) (VS.writes (Elt F) VS.junk (runMid c i arg2 harg2 arg3 harg3 arg4 harg4 arg5 harg5 hc0 hc1 x0 x1 xs).1)

theorem scoverLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) (y : S1024x128.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x128.size (by sl_kernel_rfl) y

theorem coverLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) (y : S1024x128.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x128.size (by sl_kernel_rfl) y

/-- The accumulator after the last column block of a row. -/
def soutLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) : Vec F S1024x128 .f32 :=
  VS.read (Elt F) (VS.writes (Elt F) VS.junk (runLast c i arg2 harg2 arg3 harg3 arg4 harg4 arg5 harg5 hc0 hc1 x0 x1 xs).2.1)

/-- The output buffer after the last column block of a row: the logistic of the finished sum. -/
def outLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) : Vec F S1024x128 .f32 :=
  VO.read (Elt F) (VO.writes (Elt F) VO.junk (runLast c i arg2 harg2 arg3 harg3 arg4 harg4 arg5 harg5 hc0 hc1 x0 x1 xs).1)

/-! ## The accumulation, point by point

After point `n` the pair (output buffer, accumulator): the case the closed forms select at `n`, run on the
point's two input blocks and, off the first column block, on what point `n - 1` left in the accumulator. Off the
last column block the output component is a placeholder nothing reads (the window is idle there). -/

def outsAt (c : Dev nD) : (n : ℕ) → n < cfg0.N → Vec F S1024x128 .f32 × Vec F S1024x128 .f32
  | 0, hn => (VO.read (Elt F) VO.junk, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (VO.read (Elt F) VO.junk, soutFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2,
         soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2)
      else
        (VO.read (Elt F) VO.junk, soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (VO.read (Elt F) VO.junk, soutFirst c (grid0.coords t) (ms0 t) (hs0 t) (ms1 t) (hs1 t) (ms2 t) (hs2 t) scM (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = (VO.read (Elt F) VO.junk, soutMid c (grid0.coords t) (ms0 t) (hs0 t) (ms1 t) (hs1 t) (ms2 t) (hs2 t) scM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2,
      soutLast c (grid0.coords t) (ms0 t) (hs0 t) (ms1 t) (hs1 t) (ms2 t) (hs2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before the first point the accumulator holds anything; before point `n + 1` it holds what point `n` left. The
    generator register rides along at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The proof data

The two input windows read ONE array: each holds half of it (the left and the right half of the full share), which
is all a read needs; the output window holds its array whole. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input's current staging buffer holds its block at every point, fetched there or not: where the pipeline does
    not fetch, the block index has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the closed forms say which case the point is in;
    the invariant hands over the accumulator at what the point before left (at anything before the first point) and
    takes it back at this point's contents; off the last column block the output buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  by_cases h0 : t.val % 8 = 0
  · have h1 : ¬t.val % 8 = 7 := by omega
    rw [Dat.leavesExact_idle (dats m 0 c) 2 t (idle2 t (fun h => h1 ((hcondLast t).mp h))) (noFlush2 t (fun h => h1 ((hcondLast t).mp h)))]
    rw [outsAt_first m c t h0 h1]
    unfold soutFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dats m 0 c).leavesExact 2 t = owns (c : Thread nD τ) (ms2 t) fullShare ((dats m 0 c).after 2 t) from by
        unfold Dat.leavesExact; rw [live2 t ((hcondLast t).mpr h1)], after_2]
      rw [outsAt_last m c t h0 h1]
      unfold outLast soutLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((hcondFirst t).mp h)) ((hcondLast t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · rw [Dat.leavesExact_idle (dats m 0 c) 2 t (idle2 t (fun h => h1 ((hcondLast t).mp h))) (noFlush2 t (fun h => h1 ((hcondLast t).mp h)))]
      rw [outsAt_mid m c t h0 h1]
      unfold soutMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ (fun h => h0 ((hcondFirst t).mp h)) (fun h => h1 ((hcondLast t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverMid c _ _ _ _ _ _ _ _ _ _ _ _ _ _)
        iexact Hg
      isplitl [Ho]; · iexact Ho
      isplitl [H0]; · iexact H0
      isplitl [H1]; · iexact H1
      iexists _; iexact H2

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, and after the last point the invariant
    gives it back, the accumulator's contents forgotten. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.KernelIdeal.Att

end
-- ==== Proof.KI.Launch.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«130468_j21397527068865_1_alg».proof.Proof.KI.Data

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at every boundary of @main

@main is the region, then three stretches of host operations (the graph-convolution part and the final product).
`W0` is the launch memory; `W1` has the attention output where the region's write-backs leave it and everything
else as launched; `W2`, `W3`, `W4` follow the three stretches. -/

abbrev W0 (c : Dev nD) : Valuation τ sig (Elt F) := V0 m c

/-- After the region: the output array at what the write-backs leave, every other buffer untouched. -/
def W1 (c : Dev nD) : Valuation τ sig (Elt F) := fun b =>
  if h : Proc.devRef .tc main_v0 = b then cast (congrArg (fun b' : DevRef τ sig => b'.ty.Contents (Elt F)) h) ((dats m 0 c).arrAt 2 cfg0.N)
  else W0 m c b

theorem W1_out (c : Dev nD) : W1 m c (Proc.devRef .tc main_v0) = (dats m 0 c).arrAt 2 cfg0.N := by
  unfold W1; rw [dif_pos rfl]; rfl

theorem W1_of_ne (c : Dev nD) (b : Ref sig .tc) (hb : main_v0 ≠ b) : W1 m c (Proc.devRef .tc b) = W0 m c (Proc.devRef .tc b) := by
  unfold W1; rw [dif_neg]; exact fun e => hb (Proc.devRef_injective _ e)

abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)

/-! ## The proof data family and what rides along -/

abbrev adm : (p : Fin 1) → (pcfgs (F := F) p).Adm := fun p => (cfgs p).toPCfg_adm

def pdats : (p : Fin 1) → (c : Dev nD) → Dat τ (Elt F) Unit ℕ (UR sig nD τ) ℕ (Pipeline.pin (pcfgs (F := F)) adm p) c
  | ⟨0, _⟩ => fun c => dats m 0 c

abbrev 𝒱₀ : Variants := Variants.none
abbrev L : GSem nD τ sig → Finset Unit := fun _ => ∅
abbrev lv : GSem nD τ sig → Unit → ℕ := fun _ _ => 0
/-- The generator register at some state and the core owing nothing ride beside the buffers through every segment. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The two buffers behind the three windows

The query window and the key window read one array, `x`; the third window writes the attention output. Held whole,
`x` splits into a left and a right half share, one per reading window, and the halves join again after the region:
neither window writes, so both end at the contents they were entered with. -/

theorem arrRefs_eq : Finset.univ.image (Pipeline.arrRef spec0) = ([main_arg0, main_v0] : List (Ref sig .tc)).toFinset := by decide

theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_v0) ↦{fullShare} V' main_v0)) := by
  unfold Pipeline.arrBufs
  exact bigSep_eq_bigSepL_of_eq [main_arg0, main_v0] arrRefs_eq (by decide) _

local instance : IsOp fullShare fullShare.left fullShare.right := IsOp.posShare_halves fullShare

/-- The arrays of the proof data at contents `G`, window by window at its share. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  rw [(arr_whole0 0).set_eq_univ, (arr_whole0 2).set_eq_univ]
  rfl

/-- ENTRY: every unscoped buffer at its launch contents is the three windows' arrays at their shares and the rest. -/
theorem entry_split (c : Dev nD) :
    (StableHlo.held (c : Thread nD τ) (Pipeline.ucRefs τ sig) (W0 m c) : sProp 𝕄)
      ⊢ iprop((dats m 0 c).arrays (dats m 0 c).A ∗ Pipeline.unscopedRest (Ix := Unit) (Name := ℕ) (U := UR sig nD τ) (Lvl := ℕ) spec0 c (V m c)) := by
  rw [← Pipeline.unscopedBufs_held, Pipeline.unscopedBufs_split₀ cfgs (0 : Fin 1) winFacts₀0.arr_unscoped c, arrBufs_eq, arrays_eq3]
  iintro ⟨⟨Hx, Hv⟩, Hrest⟩
  ihave Hx2 := (pointsTo_share (PosShare.mem_left_op_right fullShare)).1 $$ Hx
  icases Hx2 with ⟨Hl, Hr⟩
  isplitr [Hrest]
  · isplitl [Hl]; · iexact Hl
    isplitl [Hr]; · iexact Hr
    iexact Hv
  iexact Hrest

/-- Off the windows' arrays the region changes nothing. -/
theorem rest_eq (c : Dev nD) :
    (Pipeline.unscopedRest (Ix := Unit) (Name := ℕ) (U := UR sig nD τ) (Lvl := ℕ) spec0 c (V m c) : sProp 𝕄)
      = Pipeline.unscopedRest spec0 c (fun b => W1 m c (Proc.devRef .tc b)) := by
  unfold Pipeline.unscopedRest
  refine bigSep_congr fun b hb => ?_
  have e : W1 m c (Proc.devRef .tc b) = V m c b :=
    W1_of_ne m c b (fun e => (Finset.mem_sdiff.mp hb).2 (Finset.mem_image.mpr ⟨2, Finset.mem_univ _, e⟩))
  exact congrArg (fun v => ((((c : Thread nD τ).loc b) ↦{fullShare} v) : sProp 𝕄)) e.symm

/-- EXIT: the two halves of `x`, each at the contents it was entered with, are `x` whole again; the output array is at
    what the write-backs left; the rest was never touched. -/
theorem exit_join (c : Dev nD) :
    iprop((dats m 0 c).arrays ((dats m 0 c).arrAt · cfg0.N) ∗ Pipeline.unscopedRest (Ix := Unit) (Name := ℕ) (U := UR sig nD τ) (Lvl := ℕ) spec0 c (V m c))
      ⊢ (StableHlo.held (c : Thread nD τ) (Pipeline.ucRefs τ sig) (W1 m c) : sProp 𝕄) := by
  rw [← Pipeline.unscopedBufs_held, Pipeline.unscopedBufs_split₀ cfgs (0 : Fin 1) winFacts₀0.arr_unscoped c, arrBufs_eq, arrays_eq3]
  rw [(dats m 0 c).arrAt_in 0 rfl, (dats m 0 c).arrAt_in 1 rfl]
  iintro ⟨⟨Hl, Hr, Hv⟩, Hrest⟩
  isplitr [Hrest]
  · isplitl [Hl Hr]
    · rw [W1_of_ne m c main_arg0 (by decide)]
      iapply (pointsTo_share (PosShare.mem_left_op_right fullShare)).2
      isplitl [Hl]; · iexact Hl
      iexact Hr
    · rw [W1_out]; iexact Hv
  · iapply (Entails.of_eq (rest_eq m c))
    iexact Hrest

set_option backward.isDefEq.respectTransparency.types false in
/-- The region as a segment: entered from every unscoped buffer at its launch contents, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hub, Hp, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin m c
    unfold Pipeline.ΦA at h
    refine BIBase.Entails.trans ?_ h
    iintro ⟨Hp, -, Hr⟩
    isplitl [Hr]; · iexact Hr
    iexact Hp
  hout c := by
    rw [Pipeline.ownSems0_none]
    refine (hout m c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m c)
      isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)) ]

theorem main_run (c : Dev nD) : main (F := F) c = Pipeline.Seg.run (segs m) := (main_chain c).trans (by chain_rfl)

set_option backward.isDefEq.respectTransparency.types false in
/-- Every weakly fair execution of @main terminates, and every final state has every unscoped buffer at `W4`: the
    launch memory followed through the region and the three host stretches. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The frame: no host operation and no window writes an argument array -/

theorem notWritten1 (b : Ref sig .tc) (h : b = main_arg0 ∨ b = main_arg1 ∨ b = main_arg2 ∨ b = main_arg3 ∨ b = main_v0) :
    ∀ op ∈ (hostOps1 : List (HloOp τ sig (Elt F))), Proc.devRef .tc b ∉ op.writes := by
  refine List.forall_iff_forall_mem.mp ?_
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  rcases h with rfl | rfl | rfl | rfl | rfl <;> (repeat' apply And.intro) <;> exact StableHlo.devRef_ne_of_ne (by decide)

theorem notWritten2 (b : Ref sig .tc) (h : b = main_arg0 ∨ b = main_arg1 ∨ b = main_arg2 ∨ b = main_arg3 ∨ b = main_v0) :
    ∀ op ∈ (hostOps1_1 : List (HloOp τ sig (Elt F))), Proc.devRef .tc b ∉ op.writes := by
  refine List.forall_iff_forall_mem.mp ?_
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  rcases h with rfl | rfl | rfl | rfl | rfl <;> (repeat' apply And.intro) <;> exact StableHlo.devRef_ne_of_ne (by decide)

theorem notWritten3 (b : Ref sig .tc) (h : b = main_arg0 ∨ b = main_arg1 ∨ b = main_arg2 ∨ b = main_arg3 ∨ b = main_v0) :
    ∀ op ∈ (hostOps1_2 : List (HloOp τ sig (Elt F))), Proc.devRef .tc b ∉ op.writes := by
  refine List.forall_iff_forall_mem.mp ?_
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  rcases h with rfl | rfl | rfl | rfl | rfl <;> (repeat' apply And.intro) <;> exact StableHlo.devRef_ne_of_ne (by decide)

/-- An argument array, and the attention output, are after the three stretches what they were after the region. -/
theorem W4_keep (c : Dev nD) (b : Ref sig .tc) (h : b = main_arg0 ∨ b = main_arg1 ∨ b = main_arg2 ∨ b = main_arg3 ∨ b = main_v0) :
    W4 m c (Proc.devRef .tc b) = W1 m c (Proc.devRef .tc b) :=
  (StableHlo.after_of_forall_not_mem (b := Proc.devRef .tc b) _ _ (notWritten3 b h)).trans
    ((StableHlo.after_of_forall_not_mem (b := Proc.devRef .tc b) _ _ (notWritten2 b h)).trans
      (StableHlo.after_of_forall_not_mem (b := Proc.devRef .tc b) _ _ (notWritten1 b h)))

theorem W4_arg (c : Dev nD) (b : Ref sig .tc) (h : b = main_arg0 ∨ b = main_arg1 ∨ b = main_arg2 ∨ b = main_arg3) (hne : main_v0 ≠ b) :
    W4 m c (Proc.devRef .tc b) = m ((c : Thread nD τ).loc b) :=
  (W4_keep m c b (by rcases h with h | h | h | h <;> simp [h])).trans ((W1_of_ne m c b hne).trans rfl)

/-- The run, read at the result and the arguments. -/
theorem run_result : θ_run defs (onTc (τ := τ) (main (F := F))) ⟨m, fun _ => 0, ρ⟩ (fun r => ∀ c : Dev nD,
      r.2.mem ((c.tc : Thread nD τ).loc main_v49) = W4 m c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v49 (by decide)),
     (h c _ (mem_uc main_arg0 (by decide))).trans (W4_arg m c main_arg0 (by simp) (by decide)),
     (h c _ (mem_uc main_arg1 (by decide))).trans (W4_arg m c main_arg1 (by simp) (by decide)),
     (h c _ (mem_uc main_arg2 (by decide))).trans (W4_arg m c main_arg2 (by simp) (by decide)),
     (h c _ (mem_uc main_arg3 (by decide))).trans (W4_arg m c main_arg3 (by simp) (by decide))⟩) (run_main m ρ)

/-- The frame: @main runs to the end, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Att

end
-- ==== Proof.KI.Pieces.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«130468_j21397527068865_1_alg».proof.Proof.KI.Data

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## What the cases leave, as payloads

Off the first column block the accumulator ends at the accumulate payload of the two input blocks and its previous
contents; at the first column block the previous contents are the zero block just stored; at the last column block
the output buffer ends at the logistic payload of the finished accumulator. -/

theorem soutMid_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : ¬condLast i) (x0 x1 xs : Vec F S1024x128 .f32) :
    soutMid c i arg2 harg2 arg3 harg3 arg4 harg4 arg5 harg5 hc0 hc1 x0 x1 xs = k0_pay2 x0 x1 xs := by
  unfold soutMid
  rw [View.read_writes_eq_canon _ _ _ (scoverMid c i arg2 harg2 arg3 harg3 arg4 harg4 arg5 harg5 hc0 hc1 x0 x1 xs)]
  unfold runMid
  dsimp only
  rw [View.canon_unit_zero hz]
  simp only [View.readAt_eq_ld, harg2.read_unread, harg3.read_unread, harg5.read_unread, View.ld_unit_zero (S := S1024x128) hz]

theorem soutFirst_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : condFirst i) (hc1 : ¬condLast i) (x0 x1 : Vec F S1024x128 .f32) :
    soutFirst c i arg2 harg2 arg3 harg3 arg4 harg4 arg5 harg5 hc0 hc1 x0 x1 = k0_pay2 x0 x1 (k0_pay1 (F := F)) := by
  unfold soutFirst
  rw [View.read_writes_eq_canon _ _ _ (scoverFirst c i arg2 harg2 arg3 harg3 arg4 harg4 arg5 harg5 hc0 hc1 x0 x1)]
  unfold runFirst
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x128) hz]

theorem soutLast_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) :
    soutLast c i arg2 harg2 arg3 harg3 arg4 harg4 arg5 harg5 hc0 hc1 x0 x1 xs = k0_pay2 x0 x1 xs := by
  unfold soutLast
  rw [View.read_writes_eq_canon _ _ _ (scoverLast c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S1024x128) hz]

theorem outLast_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
    (hc0 : ¬condFirst i) (hc1 : condLast i) (x0 x1 xs : Vec F S1024x128 .f32) :
    outLast c i arg2 harg2 arg3 harg3 arg4 harg4 arg5 harg5 hc0 hc1 x0 x1 xs = k0_pay3 (k0_pay2 x0 x1 xs) := by
  unfold outLast
  rw [View.read_writes_eq_canon _ _ _ (coverLast c i arg2 harg2 arg3 harg3 arg4 harg4 arg5 harg5 hc0 hc1 x0 x1 xs)]
  unfold runLast
  dsimp only
  sl_unfold_words
  rw [View.canon_unit_zero hz, View.readCov_unit_zero (S := S1024x128) _ hz]
  simp only [View.readAt_eq_ld, harg2.read_unread, harg3.read_unread, harg5.read_unread, View.ld_unit_zero (S := S1024x128) hz]

end Cert.KernelIdeal.Att

end
-- ==== Proof.KI.Chain.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«130468_j21397527068865_1_alg».proof.Proof.KI.Pieces

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The accumulator as a chain of payloads

After point `n` the accumulator is the accumulate payload of the point's two input blocks over what the point before
left — over the zero block at the first column block of a row. -/

def chain (c : Dev nD) : (n : ℕ) → n < cfg0.N → Vec F S1024x128 .f32
  | 0, h => k0_pay2 (iblk m c 0 ⟨0, h⟩) (iblk m c 1 ⟨0, h⟩) (k0_pay1 (F := F))
  | n + 1, h =>
    if (n + 1) % 8 = 0 then k0_pay2 (iblk m c 0 ⟨n + 1, h⟩) (iblk m c 1 ⟨n + 1, h⟩) (k0_pay1 (F := F))
    else k0_pay2 (iblk m c 0 ⟨n + 1, h⟩) (iblk m c 1 ⟨n + 1, h⟩) (chain c n (Nat.lt_of_succ_lt h))

theorem chain_first (c : Dev nD) (n : ℕ) (h : n < cfg0.N) (h0 : n % 8 = 0) :
    chain m c n h = k0_pay2 (iblk m c 0 ⟨n, h⟩) (iblk m c 1 ⟨n, h⟩) (k0_pay1 (F := F)) := by
  cases n with
  | zero => rfl
  | succ n => rw [chain, if_pos h0]

theorem chain_next (c : Dev nD) (n : ℕ) (h : n + 1 < cfg0.N) (h0 : ¬(n + 1) % 8 = 0) :
    chain m c (n + 1) h = k0_pay2 (iblk m c 0 ⟨n + 1, h⟩) (iblk m c 1 ⟨n + 1, h⟩) (chain m c n (Nat.lt_of_succ_lt h)) := by
  rw [chain, if_neg h0]

set_option maxHeartbeats 2000000 in
/-- What the run found in the accumulator after point `n` is the chain. -/
theorem outsAt_snd (c : Dev nD) : ∀ (n : ℕ) (h : n < cfg0.N), (outsAt m c n h).2 = chain m c n h := by
  intro n
  induction n with
  | zero =>
    intro h
    rw [outsAt_first m c ⟨0, h⟩ (Nat.zero_mod _) (by show ¬(0 : ℕ) % 8 = 7; decide), chain_first m c 0 h (Nat.zero_mod _)]
    dsimp only
    exact soutFirst_eq (F := F) c _ _ _ _ _ _ _ _ _ _ _ _ _
  | succ n ih =>
    intro h
    have hprev : (outsAt m c ((⟨n + 1, h⟩ : Fin cfg0.N).val - 1) (Nat.lt_of_le_of_lt (Nat.sub_le _ _) (⟨n + 1, h⟩ : Fin cfg0.N).isLt)).2
        = chain m c n (Nat.lt_of_succ_lt h) := ih _
    by_cases h0 : (n + 1) % 8 = 0
    · have h1 : ¬(n + 1) % 8 = 7 := by omega
      rw [outsAt_first m c ⟨n + 1, h⟩ h0 h1, chain_first m c (n + 1) h h0]
      dsimp only
      exact soutFirst_eq (F := F) c _ _ _ _ _ _ _ _ _ _ _ _ _
    · rw [chain_next m c n h h0]
      by_cases h1 : (n + 1) % 8 = 7
      · rw [outsAt_last m c ⟨n + 1, h⟩ h0 h1, hprev]
        dsimp only
        exact soutLast_eq (F := F) c _ _ _ _ _ _ _ _ _ _ _ _ _ _
      · rw [outsAt_mid m c ⟨n + 1, h⟩ h0 h1, hprev]
        dsimp only
        exact soutMid_eq (F := F) c _ _ _ _ _ _ _ _ _ _ _ _ _ _

theorem chain_pred (c : Dev nD) (t : Fin cfg0.N) (h0 : ¬t.val % 8 = 0) :
    chain m c t.val t.isLt = k0_pay2 (iblk m c 0 t) (iblk m c 1 t) (chain m c (t.val - 1) (Nat.lt_of_le_of_lt (Nat.sub_le _ _) t.isLt)) := by
  obtain ⟨n, hn⟩ := t
  cases n with
  | zero => exact absurd (Nat.zero_mod _) h0
  | succ n => exact chain_next m c n hn h0

set_option maxHeartbeats 2000000 in
/-- At the last column block of a row the output buffer ends at the logistic payload of the finished chain. -/
theorem outsAt_fst_last (c : Dev nD) (t : Fin cfg0.N) (h1 : t.val % 8 = 7) :
    (outsAt m c t.val t.isLt).1 = k0_pay3 (chain m c t.val t.isLt) := by
  have h0 : ¬t.val % 8 = 0 := by omega
  have hprev := outsAt_snd m c (t.val - 1) (Nat.lt_of_le_of_lt (Nat.sub_le _ _) t.isLt)
  rw [outsAt_last m c t h0 h1, hprev, chain_pred m c t h0]
  dsimp only
  exact outLast_eq (F := F) c _ _ _ _ _ _ _ _ _ _ _ _ _ _

/-- What the write-back at such a point writes. -/
theorem flushed_last (c : Dev nD) (t : Fin cfg0.N) (h1 : t.val % 8 = 7) :
    (dats m 0 c).flushed 2 t = k0_pay3 (chain m c t.val t.isLt) := by
  show (cfg0.win 2).cut (cfg0.grid.coords t) ((dats m 0 c).after 2 t) = _
  rw [after_2]
  exact outsAt_fst_last m c t h1

end Cert.KernelIdeal.Att

end
-- ==== Proof.KI.PayIdx.lean ====
import proofs.«130468_j21397527068865_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Att

open Cert.KernelIdeal Cert.KernelIdeal.Gen
open Idealize.ShloMosaic Idealize.ShloMosaic.ValueIdx

/-! ## The accumulate payload at the extended reals, read at an index

For blocks `a` (1024 query rows) and `b` (1024 key rows) of 128 features and previous accumulator `s`, the payload at
row `p`, feature `d` is `s[p, d] + Σ_q (⟨a_p, b_q⟩ / max(‖a_p‖ ‖b_q‖, eps)) · b[q, d]`: the casts to bf16 are the identity,
each matrix product into a zero accumulator is a plain sum, and the lane sum is a plain sum. -/

/-- A lane sum of a [1024, 128] block at row `p`. -/
theorem rowSum_apply (v : FVec Ideal S1024x128 .f32) (p : Fin 1024) :
    multiReduction .add [1] S1024 v 0x00000000#32 reduces_S1024x128_S1024 (.inl rfl) rfl (ix1 p) = ∑ k : Fin 128, v (ix2 p k) := by
  refine (Ideal.multiReduction_add_single v 0x00000000#32 reduces_S1024x128_S1024 (.inl rfl) rfl (ix1 p)).trans ?_
  refine Finset.sum_congr rfl fun k _ => congrArg v (funext fun a => Fin.ext ?_)
  match a with
  | ⟨0, _⟩ => rfl
  | ⟨1, _⟩ => rfl

/-- A vector of 1024 entries as a column. -/
theorem col_apply (v : FVec Ideal S1024 .f32) (p : Fin 1024) (z : Fin 1) :
    shapeCast S1024x1 v shapeCasts_S1024_S1024x1 (ix2 p z) = v (ix1 p) := by
  refine shapeCast_apply v shapeCasts_S1024_S1024x1 (ix2 p z) (ix1 p) ?_
  rw [Shape.rowMajor_val_one, Shape.rowMajor_val_two]
  show p.val = p.val * 1 + z.val
  have := z.isLt
  omega

/-- A column transposed to a row. -/
theorem rowT_apply (v : FVec Ideal S1024x1 .f32) (q : Fin 1024) (z : Fin 1) :
    transpose S1x1024 [1, 0] v transposes_S1024x1_p1_0_S1x1024 (ix2 z q) = v (ix2 q z) := by
  refine transpose_apply [1, 0] v transposes_S1024x1_p1_0_S1x1024 (ix2 z q) (ix2 q z) (fun b => ?_)
  match b with
  | ⟨0, _⟩ => rfl
  | ⟨1, _⟩ => rfl

/-- A column broadcast along the rows' second axis, and a row broadcast along the first. -/
theorem bcol_apply (v : FVec Ideal S1024x1 .f32) (p q : Fin 1024) :
    broadcastTo S1024x1024 v broadcasts_S1024x1_S1024x1024 (ix2 p q) = v (ix2 p 0) := by
  refine broadcastTo_apply v broadcasts_S1024x1_S1024x1024 (ix2 p q) (ix2 p 0) (fun a => ?_)
  match a with
  | ⟨0, _⟩ => show p.val = if (1024 : Nat) = 1 then 0 else p.val; rw [if_neg (by decide)]
  | ⟨1, _⟩ => show 0 = if (1 : Nat) = 1 then 0 else q.val; rw [if_pos rfl]

theorem brow_apply (v : FVec Ideal S1x1024 .f32) (p q : Fin 1024) :
    broadcastTo S1024x1024 v broadcasts_S1x1024_S1024x1024 (ix2 p q) = v (ix2 0 q) := by
  refine broadcastTo_apply v broadcasts_S1x1024_S1024x1024 (ix2 p q) (ix2 0 q) (fun a => ?_)
  match a with
  | ⟨0, _⟩ => show 0 = if (1 : Nat) = 1 then 0 else p.val; rw [if_pos rfl]
  | ⟨1, _⟩ => show q.val = if (1024 : Nat) = 1 then 0 else q.val; rw [if_neg (by decide)]

/-! ### The two matrix products -/

theorem lhsA_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhsA_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhsA_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhsA_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of a block with the transpose of another, into the zero accumulator: the rows' inner products. -/
theorem mmA_apply (a b : FVec Ideal S1024x128 .bf16) (p q : Fin 1024) :
    matmul dot_S1024x128_S1024x128_S1024x1024_1_1_0_0_n_n none a b (constant S1024x1024 .f32 0x00000000#32) (ix2 p q)
      = ∑ k : Fin 128, a (ix2 p k) * b (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun ax => Fin.ext (by
    match ax with
    | ⟨0, _⟩ => exact lhsA_0 _ _
    | ⟨1, _⟩ => exact (lhsA_1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun ax => Fin.ext (by
    match ax with
    | ⟨0, _⟩ => exact rhsA_0 _ _
    | ⟨1, _⟩ => exact (rhsA_1 _ _).trans hk)
  rw [el, er]

theorem lhsB_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsB_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsB_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsB_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a [1024, 1024] block with a [1024, 128] block, into the zero accumulator. -/
theorem mmB_apply (a : FVec Ideal S1024x1024 .bf16) (b : FVec Ideal S1024x128 .bf16) (p : Fin 1024) (d : Fin 128) :
    matmul dot_S1024x1024_S1024x128_S1024x128_1_0_0_1_n_n none a b (constant S1024x128 .f32 0x00000000#32) (ix2 p d)
      = ∑ q : Fin 1024, a (ix2 p q) * b (ix2 q d) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p d) ((contrEquiv1 dot_S1024x1024_S1024x128_S1024x128_1_0_0_1_n_n 1024 rfl rfl).symm k) = ix2 p k := funext fun ax => Fin.ext (by
    match ax with
    | ⟨0, _⟩ => exact lhsB_0 _ _
    | ⟨1, _⟩ => exact (lhsB_1 _ _).trans hk)
  have er : dot_S1024x1024_S1024x128_S1024x128_1_0_0_1_n_n.rhsIdx (ix2 p d) ((contrEquiv1 dot_S1024x1024_S1024x128_S1024x128_1_0_0_1_n_n 1024 rfl rfl).symm k) = ix2 k d := funext fun ax => Fin.ext (by
    match ax with
    | ⟨0, _⟩ => exact (rhsB_0 _ _).trans hk
    | ⟨1, _⟩ => exact rhsB_1 _ _)
  rw [el, er]

/-! ### The pieces of the payload -/

/-- The rows' norms, as a column. -/
def nrmCol (v : FVec Ideal S1024x128 .f32) : FVec Ideal S1024x1 .f32 :=
  sqrt (shapeCast S1024x1 (multiReduction .add [1] S1024 (mulf v v) 0x00000000#32 reduces_S1024x128_S1024 (.inl rfl) rfl) shapeCasts_S1024_S1024x1)

theorem nrmCol_apply (v : FVec Ideal S1024x128 .f32) (p : Fin 1024) (z : Fin 1) :
    nrmCol v (ix2 p z) = Ideal.sqrt (∑ k : Fin 128, v (ix2 p k) * v (ix2 p k)) := by
  show Ideal.sqrt (shapeCast S1024x1 _ shapeCasts_S1024_S1024x1 (ix2 p z)) = _
  refine congrArg Ideal.sqrt ?_
  refine (col_apply _ p z).trans ?_
  exact rowSum_apply (mulf v v) p

/-- The denominators: the product of the two rows' norms, floored at eps. -/
def denom (a b : FVec Ideal S1024x128 .f32) : FVec Ideal S1024x1024 .f32 :=
  maximumf (mulf (broadcastTo S1024x1024 (nrmCol a) broadcasts_S1024x1_S1024x1024)
      (broadcastTo S1024x1024 (transpose S1x1024 [1, 0] (nrmCol b) transposes_S1024x1_p1_0_S1x1024) broadcasts_S1x1024_S1024x1024))
    (broadcast S1024x1024 (Scalar.ofBits (F := Ideal) .f32 0x322BCC77#32))

theorem denom_apply (a b : FVec Ideal S1024x128 .f32) (p q : Fin 1024) :
    denom a b (ix2 p q) = max (Ideal.sqrt (∑ k : Fin 128, a (ix2 p k) * a (ix2 p k)) * Ideal.sqrt (∑ k : Fin 128, b (ix2 q k) * b (ix2 q k)))
      (Ideal.ofBits .f32 0x322BCC77#32) := by
  show max (broadcastTo S1024x1024 (nrmCol a) broadcasts_S1024x1_S1024x1024 (ix2 p q)
      * broadcastTo S1024x1024 (transpose S1x1024 [1, 0] (nrmCol b) transposes_S1024x1_p1_0_S1x1024) broadcasts_S1x1024_S1024x1024 (ix2 p q)) _ = _
  rw [bcol_apply, brow_apply, rowT_apply, nrmCol_apply, nrmCol_apply]
  rfl

/-- The similarity block. -/
def simBlk (a b : FVec Ideal S1024x128 .f32) : FVec Ideal S1024x1024 .f32 :=
  divf (matmul dot_S1024x128_S1024x128_S1024x1024_1_1_0_0_n_n none (truncf .bf16 a bitsLt_bf16_f32) (truncf .bf16 b bitsLt_bf16_f32)
      (constant S1024x1024 .f32 0x00000000#32)) (denom a b)

theorem simBlk_apply (a b : FVec Ideal S1024x128 .f32) (p q : Fin 1024) :
    simBlk a b (ix2 p q) = Ideal.div (∑ k : Fin 128, a (ix2 p k) * b (ix2 q k))
      (max (Ideal.sqrt (∑ k : Fin 128, a (ix2 p k) * a (ix2 p k)) * Ideal.sqrt (∑ k : Fin 128, b (ix2 q k) * b (ix2 q k)))
        (Ideal.ofBits .f32 0x322BCC77#32)) := by
  show Ideal.div (matmul dot_S1024x128_S1024x128_S1024x1024_1_1_0_0_n_n none (truncf .bf16 a bitsLt_bf16_f32) (truncf .bf16 b bitsLt_bf16_f32)
      (constant S1024x1024 .f32 0x00000000#32) (ix2 p q)) (denom a b (ix2 p q)) = _
  rw [mmA_apply, denom_apply]
  rfl

/-- The accumulate payload is the previous accumulator plus the similarity block times the key block. -/
theorem pay2_eq (a b s : FVec Ideal S1024x128 .f32) :
    k0_pay2 (F := Ideal) a b s = addf s (matmul dot_S1024x1024_S1024x128_S1024x128_1_0_0_1_n_n none
      (truncf .bf16 (simBlk a b) bitsLt_bf16_f32) (truncf .bf16 b bitsLt_bf16_f32) (constant S1024x128 .f32 0x00000000#32)) := by
  unfold k0_pay2 simBlk denom nrmCol
  exact shapeCast_self _ _

theorem pay2_apply (a b s : FVec Ideal S1024x128 .f32) (p : Fin 1024) (d : Fin 128) :
    k0_pay2 (F := Ideal) a b s (ix2 p d)
      = s (ix2 p d) + ∑ q : Fin 1024, Ideal.div (∑ k : Fin 128, a (ix2 p k) * b (ix2 q k))
          (max (Ideal.sqrt (∑ k : Fin 128, a (ix2 p k) * a (ix2 p k)) * Ideal.sqrt (∑ k : Fin 128, b (ix2 q k) * b (ix2 q k)))
            (Ideal.ofBits .f32 0x322BCC77#32)) * b (ix2 q d) := by
  rw [pay2_eq]
  show s (ix2 p d) + matmul dot_S1024x1024_S1024x128_S1024x128_1_0_0_1_n_n none
      (truncf .bf16 (simBlk a b) bitsLt_bf16_f32) (truncf .bf16 b bitsLt_bf16_f32) (constant S1024x128 .f32 0x00000000#32) (ix2 p d) = _
  rw [mmB_apply]
  refine congrArg (s (ix2 p d) + ·) (Finset.sum_congr rfl fun q _ => ?_)
  show simBlk a b (ix2 p q) * b (ix2 q d) = _
  rw [simBlk_apply]

/-- The zero block, and the logistic payload. -/
theorem pay1_apply (i : S1024x128.Idx) : k0_pay1 (F := Ideal) i = 0 := by
  unfold k0_pay1
  refine (congrFun (shapeCast_self _ _) i).trans ?_
  exact Ideal.ofBits_zero_f32

theorem pay3_apply (s : FVec Ideal S1024x128 .f32) (i : S1024x128.Idx) : k0_pay3 (F := Ideal) s i = Ideal.logistic (s i) := rfl

end Cert.KernelIdeal.Att

end
-- ==== Proof.Spec.lean ====
/-
  The attention part as ONE function of the array x : [8192, 128], over the extended reals:

      att(x)[r, d] = logistic( Σ_{j < 8192} sim(r, j) · x[j, d] ),
      sim(r, j)    = ⟨x_r, x_j⟩ / max( sqrt⟨x_r, x_r⟩ · sqrt⟨x_j, x_j⟩, eps ).

  The array is extended by zero to all natural indices so that every sum is a sum over a range and the arithmetic of
  block offsets is arithmetic of natural numbers. The kernel adds the 8192 columns up block by block, 1024 at a time:
  that is the range split `Σ_{j < a + 1024} = Σ_{j < a} + Σ_{q < 1024} f(a + q)`, and nothing else — the commutative-monoid
  law of the extended reals' sum, no cancellation and no distributivity.
-/
import Idealize.ShloMosaic.Lib.ValueIdx
import Idealize.ShloMosaic.PureOps.Ideal.Laws

noncomputable section

namespace Cert.AttSpec

open Idealize.ShloMosaic Idealize.ShloMosaic.ValueIdx
open scoped BigOperators

abbrev SX : Shape := ⟨2, ![8192, 128]⟩

/-- The array read at natural indices, zero outside. -/
def xN (x : SX.Idx → EReal) (r k : ℕ) : EReal := if h : r < 8192 ∧ k < 128 then x (ix2 ⟨r, h.1⟩ ⟨k, h.2⟩) else 0

theorem xN_at (x : SX.Idx → EReal) (j : SX.Idx) : x j = xN x (j 0).val (j 1).val := by
  unfold xN
  rw [dif_pos ⟨(j 0).isLt, (j 1).isLt⟩]
  exact congrArg x (eq_ix2 j)

/-- The floor of the denominator. -/
def eps : EReal := Ideal.ofBits .f32 0x322BCC77#32

/-- The inner product of rows `r` and `j`. -/
def dotN (x : SX.Idx → EReal) (r j : ℕ) : EReal := ∑ k ∈ Finset.range 128, xN x r k * xN x j k

/-- The cosine similarity of rows `r` and `j`, its denominator floored at eps. -/
def simN (x : SX.Idx → EReal) (r j : ℕ) : EReal :=
  Ideal.div (dotN x r j) (max (Ideal.sqrt (dotN x r r) * Ideal.sqrt (dotN x j j)) eps)

/-- Column `j`'s term of the attention sum at row `r`, feature `d`. -/
def termN (x : SX.Idx → EReal) (r d j : ℕ) : EReal := simN x r j * xN x j d

/-- The attention sum. -/
def accN (x : SX.Idx → EReal) (r d : ℕ) : EReal := ∑ j ∈ Finset.range 8192, termN x r d j

/-- The attention output. -/
def att (x : SX.Idx → EReal) : SX.Idx → EReal := fun i => Ideal.logistic (accN x (i 0).val (i 1).val)

/-- A sum over `Fin n` of a function of the value is the sum over the range. -/
theorem sum_fin_range {n : ℕ} (f : ℕ → EReal) : ∑ k : Fin n, f k.val = ∑ k ∈ Finset.range n, f k :=
  (Finset.sum_range f).symm

theorem dot_fin (x : SX.Idx → EReal) (R J : ℕ) : ∑ k : Fin 128, xN x R k.val * xN x J k.val = dotN x R J := by
  unfold dotN
  exact sum_fin_range (fun k => xN x R k * xN x J k)

/-- The first block of a row of column blocks: the prefix sum is the block's sum. -/
theorem pref_first (f : ℕ → EReal) (b : ℕ) (hb : b = 0) :
    (0 : EReal) + ∑ q ∈ Finset.range 1024, f (1024 * b + q) = 0 + ∑ j ∈ Finset.range (1024 * b + 1024), f j := by
  subst hb
  simp only [Nat.mul_zero, Nat.zero_add]

/-- A later block: the prefix sum over the blocks before it plus the block's sum is the next prefix sum. -/
theorem pref_next (f : ℕ → EReal) (b b' : ℕ) (hb : b' = b + 1) :
    ((0 : EReal) + ∑ j ∈ Finset.range (1024 * b + 1024), f j) + ∑ q ∈ Finset.range 1024, f (1024 * b' + q)
      = 0 + ∑ j ∈ Finset.range (1024 * b' + 1024), f j := by
  subst hb
  have e : 1024 * (b + 1) = 1024 * b + 1024 := by ring
  rw [e, add_assoc, Finset.sum_range_add f (1024 * b + 1024) 1024]

end Cert.AttSpec

end
-- ==== Proof.KI.ChainIdx.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«130468_j21397527068865_1_alg».proof.Proof.KI.Chain
import proofs.«130468_j21397527068865_1_alg».proof.Proof.KI.PayIdx
import proofs.«130468_j21397527068865_1_alg».proof.Proof.Spec

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.AttSpec Idealize.ShloMosaic.ValueIdx

variable (m : (ℓ : Loc nD τ sig) → Buf (Elt Ideal) ℓ)

/-! ## The chain at the extended reals, read at an index

Point `t` of the grid is row block `t / 8` and column block `t % 8`. The query window's block is rows
`1024 (t / 8) …` of `x`, the key window's block rows `1024 (t % 8) …`; so the accumulate payload adds to the accumulator
the terms of columns `1024 (t % 8) … 1024 (t % 8) + 1023`, and the chain after point `t` is the sum of the terms of the
columns below `1024 (t % 8) + 1024`. -/

/-- The array `x` as the region finds it. -/
abbrev xOf (c : Dev nD) : SX.Idx → EReal := m ((c : Thread nD τ).loc main_arg0)

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)

theorem iblk0_apply (c : Dev nD) (t : Fin cfg0.N) (p : Fin 1024) (k : Fin 128) :
    (iblk m c 0 t : Vec Ideal S1024x128 .f32) (ix2 p k) = xN (xOf m c) (1024 * (t.val / 8) + p.val) k.val := by
  unfold iblk
  rw [View.read_apply]
  show V m c main_arg0 _ = _
  refine (xN_at (xOf m c) _).trans ?_
  congr 1
  · show win0_0.index t 0 * 1024 + 1 * p.val = _
    rw [(idx0 t).1]; omega
  · show win0_0.index t 1 * 128 + 1 * k.val = _
    rw [(idx0 t).2]; omega

theorem iblk1_apply (c : Dev nD) (t : Fin cfg0.N) (q : Fin 1024) (k : Fin 128) :
    (iblk m c 1 t : Vec Ideal S1024x128 .f32) (ix2 q k) = xN (xOf m c) (1024 * (t.val % 8) + q.val) k.val := by
  unfold iblk
  rw [View.read_apply]
  show V m c main_arg0 _ = _
  refine (xN_at (xOf m c) _).trans ?_
  congr 1
  · show win0_1.index t 0 * 1024 + 1 * q.val = _
    rw [(idx1 t).1]; omega
  · show win0_1.index t 1 * 128 + 1 * k.val = _
    rw [(idx1 t).2]; omega

/-- One point's contribution: the terms of the point's 1024 columns, at the point's rows. -/
theorem block_apply (c : Dev nD) (n : ℕ) (h : n < cfg0.N) (s : FVec Ideal S1024x128 .f32) (p : Fin 1024) (d : Fin 128) :
    k0_pay2 (F := Ideal) (iblk m c 0 ⟨n, h⟩) (iblk m c 1 ⟨n, h⟩) s (ix2 p d)
      = s (ix2 p d) + ∑ q ∈ Finset.range 1024, termN (xOf m c) (1024 * (n / 8) + p.val) d.val (1024 * (n % 8) + q) := by
  rw [pay2_apply]
  refine congrArg (s (ix2 p d) + ·) ?_
  rw [← sum_fin_range (fun q => termN (xOf m c) (1024 * (n / 8) + p.val) d.val (1024 * (n % 8) + q))]
  refine Finset.sum_congr rfl fun q _ => ?_
  simp only [iblk0_apply, iblk1_apply]
  rw [dot_fin, dot_fin, dot_fin]
  rfl

set_option maxHeartbeats 1000000 in
theorem chain_apply (c : Dev nD) (n : ℕ) : ∀ (h : n < cfg0.N) (p : Fin 1024) (d : Fin 128),
    (chain m c n h : Vec Ideal S1024x128 .f32) (ix2 p d)
      = 0 + ∑ j ∈ Finset.range (1024 * (n % 8) + 1024), termN (xOf m c) (1024 * (n / 8) + p.val) d.val j := by
  induction n with
  | zero =>
    intro h p d
    rw [chain_first m c 0 h (Nat.zero_mod _), block_apply m c 0 h _ p d, pay1_apply]
    exact pref_first (fun j => termN (xOf m c) (1024 * (0 / 8) + p.val) d.val j) (0 % 8) (Nat.zero_mod _)
  | succ n ih =>
    intro h p d
    by_cases h0 : (n + 1) % 8 = 0
    · rw [chain_first m c (n + 1) h h0, block_apply m c (n + 1) h _ p d, pay1_apply]
      exact pref_first (fun j => termN (xOf m c) (1024 * ((n + 1) / 8) + p.val) d.val j) ((n + 1) % 8) h0
    · rw [chain_next m c n h h0, block_apply m c (n + 1) h _ p d, ih (Nat.lt_of_succ_lt h) p d]
      have e1 : (n + 1) / 8 = n / 8 := by omega
      have e2 : (n + 1) % 8 = n % 8 + 1 := by omega
      rw [e1]
      exact pref_next (fun j => termN (xOf m c) (1024 * (n / 8) + p.val) d.val j) (n % 8) ((n + 1) % 8) e2

/-- The block written back at the last column block of a row is the attention output at the row block's rows. -/
theorem flushed_apply (c : Dev nD) (t : Fin cfg0.N) (h1 : t.val % 8 = 7) (p : Fin 1024) (d : Fin 128) :
    (dats m 0 c).flushed 2 t (ix2 p d) = Ideal.logistic (accN (xOf m c) (1024 * (t.val / 8) + p.val) d.val) := by
  rw [flushed_last m c t h1, pay3_apply, chain_apply m c t.val t.isLt p d, h1, zero_add]
  rfl

end Cert.KernelIdeal.Att

end
-- ==== Proof.KI.AttValue.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«130468_j21397527068865_1_alg».proof.Proof.KI.ChainIdx

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.AttSpec Idealize.ShloMosaic.ValueIdx

variable (m : (ℓ : Loc nD τ sig) → Buf (Elt Ideal) ℓ)

/-! ## The attention array after the region

Every row block's output block is written back once, at the row's last column block, and the eight row blocks tile
the array: so the array ends holding the attention output of `x`, everywhere. -/

/-- The attention output of the array the region finds, as contents of the output array. -/
abbrev attG (c : Dev nD) : Buf (Elt Ideal) ((cfg0.win 2).arr.view.loc (c : Thread nD τ)) := att (xOf m c)

theorem flushed_at (c : Dev nD) (t : Fin cfg0.N) (h1 : t.val % 8 = 7) (j : S1024x128.Idx) :
    (dats m 0 c).flushed 2 t j = Ideal.logistic (accN (xOf m c) (1024 * (t.val / 8) + (j 0).val) (j 1).val) := by
  exact (congrArg ((dats m 0 c).flushed 2 t) (eq_ix2 j)).trans (flushed_apply m c t h1 (j 0) (j 1))

theorem flushed_eq (c : Dev nD) (t : Fin cfg0.N) (hf : (cfg0.win 2).flush t = true) :
    (dats m 0 c).flushed 2 t = ((cfg0.win 2).blk t).view.read (Elt Ideal) (attG m c) := by
  have h1 : t.val % 8 = 7 := (flush0_2 t).mp hf
  funext j
  rw [View.read_apply]
  refine (flushed_at m c t h1 j).trans ?_
  show Ideal.logistic (accN (xOf m c) _ _) = Ideal.logistic (accN (xOf m c) ((((cfg0.win 2).blk t).view.emb j) 0).val ((((cfg0.win 2).blk t).view.emb j) 1).val)
  congr 2
  · show _ = win0_2.index t 0 * 1024 + 1 * (j 0).val
    rw [(idx2 t).1]; omega
  · show _ = win0_2.index t 1 * 128 + 1 * (j 1).val
    rw [(idx2 t).2]; omega

theorem covered (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 64 := N_0
  have ht : 8 * ((i 0).val / 1024) + 7 < cfg0.N := by omega
  obtain ⟨t0, ht0⟩ : ∃ t0 : Fin cfg0.N, t0.val = 8 * ((i 0).val / 1024) + 7 := ⟨⟨_, ht⟩, rfl⟩
  refine ⟨t0, (flush0_2 t0).mpr (by omega), ?_⟩
  show i ∈ ((View.whole main_v0).slice (win0_2.rect t0)).set
  rw [View.set_slice_whole, Rect.mem_set_unit]
  have e0 := (idx2 t0).1
  have e1 := (idx2 t0).2
  intro a
  match a with
  | ⟨0, _⟩ =>
    show win0_2.index t0 0 * 1024 ≤ (i 0).val ∧ (i 0).val < win0_2.index t0 0 * 1024 + 1024
    rw [e0]; omega
  | ⟨1, _⟩ =>
    show win0_2.index t0 1 * 128 ≤ (i 1).val ∧ (i 1).val < win0_2.index t0 1 * 128 + 128
    rw [e1]; omega

/-- The attention array after the region is the attention output of `x`. -/
theorem att_final (c : Dev nD) : (dats m 0 c).arrAt 2 cfg0.N = attG m c :=
  (dats m 0 c).arrAt_eq_of_cover 2 (attG m c) (flushed_eq m c) (covered)

end Cert.KernelIdeal.Att

end
-- ==== Proof.KI.Gcn.lean ====
import proofs.«130468_j21397527068865_1_alg».proof.Proof.Gen.KernelIdeal.Launch
import proofs.«130468_j21397527068865_1_alg».proof.Proof.Gen.KernelIdeal.Skeleton
import proofs.«130468_j21397527068865_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.StableHlo.Run
import proofs.«130468_j21397527068865_1_alg».proof.Proof.KI.Launch

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ)

/-! ## The host tail: the graph-convolution factor times the attention array

The host operations after the region compute the graph-convolution factor from the four argument arrays alone and
multiply it with what the region left in the attention array. -/

set_option maxRecDepth 8192 in
def gcn (x0 : (⟨S8192x128, .f32⟩ : BufTy).Contents (Elt F)) (x1 : (⟨S2x262144, .i32⟩ : BufTy).Contents (Elt F))
    (x2 : (⟨S128x128, .f32⟩ : BufTy).Contents (Elt F)) (x3 : (⟨S128, .f32⟩ : BufTy).Contents (Elt F)) :
    (⟨S8192x128, .f32⟩ : BufTy).Contents (Elt F) :=
  (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x0 x2) (broadcastInDim S270336x1 ![0] bcast_S270336_S270336x1_0 (select (cmpi .slt (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.powf (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0xBF000000#32))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.powf (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0xBF000000#32))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x3)))

set_option maxRecDepth 8192 in
set_option maxHeartbeats 40000000 in
theorem W4_res (c : Dev nD) :
    W4 m c (Proc.devRef .tc main_v49)
      = mulf (gcn (W1 m c (Proc.devRef .tc main_arg0)) (W1 m c (Proc.devRef .tc main_arg1)) (W1 m c (Proc.devRef .tc main_arg2)) (W1 m c (Proc.devRef .tc main_arg3)))
          (W1 m c (Proc.devRef .tc main_v0)) := by
  show StableHlo.after hostOps1_2 (StableHlo.after hostOps1_1 (StableHlo.after hostOps1 (W1 m c))) (Proc.devRef .tc main_v49) = _
  after_results_simp <;> rfl <;> (unfold gcn; rfl)

/-- The kernel's result: the graph-convolution factor of the arguments times the attention array the region left. -/
theorem W4_result (c : Dev nD) :
    W4 m c (Proc.devRef .tc main_v49)
      = mulf (gcn (m ((c : Thread nD τ).loc main_arg0)) (m ((c : Thread nD τ).loc main_arg1)) (m ((c : Thread nD τ).loc main_arg2)) (m ((c : Thread nD τ).loc main_arg3)))
          ((dats m 0 c).arrAt 2 cfg0.N) := by
  rw [W4_res, W1_of_ne m c main_arg0 (by decide), W1_of_ne m c main_arg1 (by decide), W1_of_ne m c main_arg2 (by decide),
    W1_of_ne m c main_arg3 (by decide), W1_out]
  rfl

end Cert.KernelIdeal.Att

end
-- ==== Proof.RefRun.lean ====
/-
  The reference program's run, read back: its @main is a straight line of host operations, so every weakly fair
  execution ends with the result buffer at the operations' composed pure term of the argument arrays, and the
  arguments unchanged. The term is the product of the graph-convolution part (a degree count by scatter-add,
  its inverse square root gathered along both ends of every edge, the projected rows gathered, scaled, scatter-added
  and shifted by the bias) with the attention part: the logistic, spelt 1 / (1 + exp(-·)), of
  ((x·xᵀ) / max(‖x‖ ‖x‖ᵀ, eps)) · x.
-/
import proofs.«130468_j21397527068865_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 98 operations, in order (a called function's operations stand in its call's place, spelt `TRef.…`). -/
abbrev ops : List (HloOp τ sig (Elt F)) :=
  [ binary main_arg0 main_arg0 main_v0 (mulf : (⟨S8192x128, .f32⟩ : BufTy).Contents (Elt F) → (⟨S8192x128, .f32⟩ : BufTy).Contents (Elt F) → (⟨S8192x128, .f32⟩ : BufTy).Contents (Elt F)),
    nullary main_cst (constant S_ .f32 0x00000000#32),
    binary main_v0 main_cst main_v1 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v1 main_v2 (Host.sqrt : (⟨S8192, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    unary main_v2 main_v4 (broadcastInDim S1x8192 ![1] bcast_S8192_S1x8192_1 : (⟨S8192, .f32⟩ : BufTy).Contents (Elt F) → (⟨S1x8192, .f32⟩ : BufTy).Contents (Elt F)),
    unary main_v3 main_v5 (broadcastInDim S8192x8192 ![0, 1] bcast_S8192x1_S8192x8192_0_1 : (⟨S8192x1, .f32⟩ : BufTy).Contents (Elt F) → (⟨S8192x8192, .f32⟩ : BufTy).Contents (Elt F)),
    unary main_v4 main_v6 (broadcastInDim S8192x8192 ![0, 1] bcast_S1x8192_S8192x8192_0_1 : (⟨S1x8192, .f32⟩ : BufTy).Contents (Elt F) → (⟨S8192x8192, .f32⟩ : BufTy).Contents (Elt F)),
    binary main_v5 main_v6 main_v7 (mulf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x322BCC77#32),
    unary main_cst_0 main_v8 (broadcastInDim S8192x8192 ![] bcast_S_S8192x8192 : (⟨S_, .f32⟩ : BufTy).Contents (Elt F) → (⟨S8192x8192, .f32⟩ : BufTy).Contents (Elt F)),
    binary main_v7 main_v8 main_v9 (maximumf : (⟨S8192x8192, .f32⟩ : BufTy).Contents (Elt F) → (⟨S8192x8192, .f32⟩ : BufTy).Contents (Elt F) → (⟨S8192x8192, .f32⟩ : BufTy).Contents (Elt F)),
    unary main_arg0 main_v10 ((transpose S128x8192 [1, 0] · transposes_S8192x128_S128x8192_1_0) : (⟨S8192x128, .f32⟩ : BufTy).Contents (Elt F) → (⟨S128x8192, .f32⟩ : BufTy).Contents (Elt F)),
    binary main_arg0 main_v10 main_v11 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    binary main_v11 main_v9 main_v12 (Host.divf : (⟨S8192x8192, .f32⟩ : BufTy).Contents (Elt F) → (⟨S8192x8192, .f32⟩ : BufTy).Contents (Elt F) → (⟨S8192x8192, .f32⟩ : BufTy).Contents (Elt F)),
    binary main_v12 main_arg0 main_v13 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_v13 main_v14 (Host.negf : (⟨S8192x128, .f32⟩ : BufTy).Contents (Elt F) → (⟨S8192x128, .f32⟩ : BufTy).Contents (Elt F)),
    unary main_v14 main_v15 (Host.exp : (⟨S8192x128, .f32⟩ : BufTy).Contents (Elt F) → (⟨S8192x128, .f32⟩ : BufTy).Contents (Elt F)),
    nullary main_cst_1 (constant S_ .f32 0x3F800000#32),
    unary main_cst_1 main_v16 (broadcastInDim S8192x128 ![] bcast_S_S8192x128 : (⟨S_, .f32⟩ : BufTy).Contents (Elt F) → (⟨S8192x128, .f32⟩ : BufTy).Contents (Elt F)),
    binary main_v16 main_v15 main_v17 (addf : (⟨S8192x128, .f32⟩ : BufTy).Contents (Elt F) → (⟨S8192x128, .f32⟩ : BufTy).Contents (Elt F) → (⟨S8192x128, .f32⟩ : BufTy).Contents (Elt F)),
    nullary main_cst_2 (constant S_ .f32 0x3F800000#32),
    unary main_cst_2 main_v18 (broadcastInDim S8192x128 ![] bcast_S_S8192x128 : (⟨S_, .f32⟩ : BufTy).Contents (Elt F) → (⟨S8192x128, .f32⟩ : BufTy).Contents (Elt F)),
    binary main_v18 main_v17 main_v19 (Host.divf : (⟨S8192x128, .f32⟩ : BufTy).Contents (Elt F) → (⟨S8192x128, .f32⟩ : BufTy).Contents (Elt F) → (⟨S8192x128, .f32⟩ : BufTy).Contents (Elt F)),
    binary main_arg0 main_arg2 main_v20 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_v21 (iotaInDim S8192 32 0),
    unary main_arg1 main_v22 ((extractStridedSlice S1x262144 ![0, 0] · slices_S2x262144_S1x262144_0_0) : (⟨S2x262144, .i32⟩ : BufTy).Contents (Elt F) → (⟨S1x262144, .i32⟩ : BufTy).Contents (Elt F)),
    reshape main_v22 main_v23 rfl shapeCasts_S1x262144_S262144,
    binary main_v23 main_v21 main_v24 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v25 ((extractStridedSlice S1x262144 ![1, 0] · slices_S2x262144_S1x262144_1_0) : (⟨S2x262144, .i32⟩ : BufTy).Contents (Elt F) → (⟨S1x262144, .i32⟩ : BufTy).Contents (Elt F)),
    reshape main_v25 main_v26 rfl shapeCasts_S1x262144_S262144,
    binary main_v26 main_v21 main_v27 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_3 (constant S_ .f32 0x3F800000#32),
    unary main_cst_3 main_v28 (broadcastInDim S270336 ![] bcast_S_S270336 : (⟨S_, .f32⟩ : BufTy).Contents (Elt F) → (⟨S270336, .f32⟩ : BufTy).Contents (Elt F)),
    nullary main_cst_4 (constant S_ .f32 0x00000000#32),
    unary main_cst_4 main_v29 (broadcastInDim S8192 ![] bcast_S_S8192 : (⟨S_, .f32⟩ : BufTy).Contents (Elt F) → (⟨S8192, .f32⟩ : BufTy).Contents (Elt F)),
    unary main_v27 main_v30 (broadcastInDim S270336x1 ![0] bcast_S270336_S270336x1_0 : (⟨S270336, .i32⟩ : BufTy).Contents (Elt F) → (⟨S270336x1, .i32⟩ : BufTy).Contents (Elt F)),
    ternary main_v29 main_v30 main_v28 main_v31 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_5 (constant S_ .f32 0x00000000#32),
    unary main_cst_5 main_v32 (broadcastInDim S8192 ![] bcast_S_S8192 : (⟨S_, .f32⟩ : BufTy).Contents (Elt F) → (⟨S8192, .f32⟩ : BufTy).Contents (Elt F)),
    binary main_v31 main_v32 main_v33 (cmpf (F := F) .ogt : (⟨S8192, .f32⟩ : BufTy).Contents (Elt F) → (⟨S8192, .f32⟩ : BufTy).Contents (Elt F) → (⟨S8192, .i1⟩ : BufTy).Contents (Elt F)),
    nullary main_cst_6 (constant S_ .f32 0x3F800000#32),
    unary main_cst_6 main_v34 (broadcastInDim S8192 ![] bcast_S_S8192 : (⟨S_, .f32⟩ : BufTy).Contents (Elt F) → (⟨S8192, .f32⟩ : BufTy).Contents (Elt F)),
    binary main_v31 main_v34 main_v35 (maximumf : (⟨S8192, .f32⟩ : BufTy).Contents (Elt F) → (⟨S8192, .f32⟩ : BufTy).Contents (Elt F) → (⟨S8192, .f32⟩ : BufTy).Contents (Elt F)),
    unary main_v35 main_v36 (Host.rsqrt : (⟨S8192, .f32⟩ : BufTy).Contents (Elt F) → (⟨S8192, .f32⟩ : BufTy).Contents (Elt F)),
    nullary main_cst_7 (constant S_ .f32 0x00000000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v33) (TRef.of (T := ⟨S8192, .f32⟩) main_v36) (TRef.of (T := ⟨S8192, .f32⟩) main_call0_v1) (TRef.of (T := ⟨S8192, .f32⟩) main_v37) select,
    nullary main_cst_8 (constant S_ .f32 0x00000000#32),
    unary main_cst_8 main_v38 (broadcastInDim S8192 ![] bcast_S_S8192 : (⟨S_, .f32⟩ : BufTy).Contents (Elt F) → (⟨S8192, .f32⟩ : BufTy).Contents (Elt F)),
    binary main_v31 main_v38 main_v39 (cmpf (F := F) .ogt : (⟨S8192, .f32⟩ : BufTy).Contents (Elt F) → (⟨S8192, .f32⟩ : BufTy).Contents (Elt F) → (⟨S8192, .i1⟩ : BufTy).Contents (Elt F)),
    nullary main_cst_9 (constant S_ .f32 0xBF000000#32),
    unary main_cst_9 main_v40 (broadcastInDim S8192 ![] bcast_S_S8192 : (⟨S_, .f32⟩ : BufTy).Contents (Elt F) → (⟨S8192, .f32⟩ : BufTy).Contents (Elt F)),
    binary main_v31 main_v40 main_v41 (Host.powf : (⟨S8192, .f32⟩ : BufTy).Contents (Elt F) → (⟨S8192, .f32⟩ : BufTy).Contents (Elt F) → (⟨S8192, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S8192, .f32⟩) main_call1_v1) (broadcastInDim S8192 ![] bcast_S_S8192),
    TRef.ternary (TRef.of (T := ⟨S8192, .i1⟩) main_v39) (TRef.of (T := ⟨S8192, .f32⟩) main_v41) (TRef.of (T := ⟨S8192, .f32⟩) main_call1_v1) (TRef.of (T := ⟨S8192, .f32⟩) main_v42) select,
    nullary main_c (constantI S_ 32 0#32),
    unary main_c main_v43 (broadcastInDim S270336 ![] bcast_S_S270336 : (⟨S_, .i32⟩ : BufTy).Contents (Elt F) → (⟨S270336, .i32⟩ : BufTy).Contents (Elt F)),
    binary main_v24 main_v43 main_v44 (cmpi .slt : (⟨S270336, .i32⟩ : BufTy).Contents (Elt F) → (⟨S270336, .i32⟩ : BufTy).Contents (Elt F) → (⟨S270336, .i1⟩ : BufTy).Contents (Elt F)),
    nullary main_c_11 (constantI S_ 32 8192#32),
    unary main_c_11 main_v45 (broadcastInDim S270336 ![] bcast_S_S270336 : (⟨S_, .i32⟩ : BufTy).Contents (Elt F) → (⟨S270336, .i32⟩ : BufTy).Contents (Elt F)),
    binary main_v24 main_v45 main_v46 (addi : (⟨S270336, .i32⟩ : BufTy).Contents (Elt F) → (⟨S270336, .i32⟩ : BufTy).Contents (Elt F) → (⟨S270336, .i32⟩ : BufTy).Contents (Elt F)),
    ternary main_v44 main_v46 main_v24 main_v47 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v47 main_v48 (broadcastInDim S270336x1 ![0] bcast_S270336_S270336x1_0 : (⟨S270336, .i32⟩ : BufTy).Contents (Elt F) → (⟨S270336x1, .i32⟩ : BufTy).Contents (Elt F)),
    binary main_v42 main_v48 main_v49 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_12 (constantI S_ 32 0#32),
    unary main_c_12 main_v50 (broadcastInDim S270336 ![] bcast_S_S270336 : (⟨S_, .i32⟩ : BufTy).Contents (Elt F) → (⟨S270336, .i32⟩ : BufTy).Contents (Elt F)),
    binary main_v27 main_v50 main_v51 (cmpi .slt : (⟨S270336, .i32⟩ : BufTy).Contents (Elt F) → (⟨S270336, .i32⟩ : BufTy).Contents (Elt F) → (⟨S270336, .i1⟩ : BufTy).Contents (Elt F)),
    nullary main_c_13 (constantI S_ 32 8192#32),
    unary main_c_13 main_v52 (broadcastInDim S270336 ![] bcast_S_S270336 : (⟨S_, .i32⟩ : BufTy).Contents (Elt F) → (⟨S270336, .i32⟩ : BufTy).Contents (Elt F)),
    binary main_v27 main_v52 main_v53 (addi : (⟨S270336, .i32⟩ : BufTy).Contents (Elt F) → (⟨S270336, .i32⟩ : BufTy).Contents (Elt F) → (⟨S270336, .i32⟩ : BufTy).Contents (Elt F)),
    ternary main_v51 main_v53 main_v27 main_v54 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v54 main_v55 (broadcastInDim S270336x1 ![0] bcast_S270336_S270336x1_0 : (⟨S270336, .i32⟩ : BufTy).Contents (Elt F) → (⟨S270336x1, .i32⟩ : BufTy).Contents (Elt F)),
    binary main_v42 main_v55 main_v56 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v49 main_v56 main_v57 (mulf : (⟨S270336, .f32⟩ : BufTy).Contents (Elt F) → (⟨S270336, .f32⟩ : BufTy).Contents (Elt F) → (⟨S270336, .f32⟩ : BufTy).Contents (Elt F)),
    nullary main_c_14 (constantI S_ 32 0#32),
    unary main_c_14 main_v58 (broadcastInDim S270336 ![] bcast_S_S270336 : (⟨S_, .i32⟩ : BufTy).Contents (Elt F) → (⟨S270336, .i32⟩ : BufTy).Contents (Elt F)),
    binary main_v24 main_v58 main_v59 (cmpi .slt : (⟨S270336, .i32⟩ : BufTy).Contents (Elt F) → (⟨S270336, .i32⟩ : BufTy).Contents (Elt F) → (⟨S270336, .i1⟩ : BufTy).Contents (Elt F)),
    nullary main_c_15 (constantI S_ 32 8192#32),
    unary main_c_15 main_v60 (broadcastInDim S270336 ![] bcast_S_S270336 : (⟨S_, .i32⟩ : BufTy).Contents (Elt F) → (⟨S270336, .i32⟩ : BufTy).Contents (Elt F)),
    binary main_v24 main_v60 main_v61 (addi : (⟨S270336, .i32⟩ : BufTy).Contents (Elt F) → (⟨S270336, .i32⟩ : BufTy).Contents (Elt F) → (⟨S270336, .i32⟩ : BufTy).Contents (Elt F)),
    ternary main_v59 main_v61 main_v24 main_v62 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v62 main_v63 (broadcastInDim S270336x1 ![0] bcast_S270336_S270336x1_0 : (⟨S270336, .i32⟩ : BufTy).Contents (Elt F) → (⟨S270336x1, .i32⟩ : BufTy).Contents (Elt F)),
    binary main_v20 main_v63 main_v64 ((fun x i => Host.gather gather_S8192x128_S270336x1_S270336x128_1_0_n_n_0_1_1128 x i) : (⟨S8192x128, .f32⟩ : BufTy).Contents (Elt F) → (⟨S270336x1, .i32⟩ : BufTy).Contents (Elt F) → (⟨S270336x128, .f32⟩ : BufTy).Contents (Elt F)),
    unary main_v57 main_v65 (broadcastInDim S270336x1 ![0] bcast_S270336_S270336x1_0 : (⟨S270336, .f32⟩ : BufTy).Contents (Elt F) → (⟨S270336x1, .f32⟩ : BufTy).Contents (Elt F)),
    unary main_v65 main_v66 (broadcastInDim S270336x128 ![0, 1] bcast_S270336x1_S270336x128_0_1 : (⟨S270336x1, .f32⟩ : BufTy).Contents (Elt F) → (⟨S270336x128, .f32⟩ : BufTy).Contents (Elt F)),
    binary main_v64 main_v66 main_v67 (mulf : (⟨S270336x128, .f32⟩ : BufTy).Contents (Elt F) → (⟨S270336x128, .f32⟩ : BufTy).Contents (Elt F) → (⟨S270336x128, .f32⟩ : BufTy).Contents (Elt F)),
    nullary main_cst_16 (constant S_ .f32 0x00000000#32),
    unary main_cst_16 main_v68 (broadcastInDim S8192x128 ![] bcast_S_S8192x128 : (⟨S_, .f32⟩ : BufTy).Contents (Elt F) → (⟨S8192x128, .f32⟩ : BufTy).Contents (Elt F)),
    unary main_v27 main_v69 (broadcastInDim S270336x1 ![0] bcast_S270336_S270336x1_0 : (⟨S270336, .i32⟩ : BufTy).Contents (Elt F) → (⟨S270336x1, .i32⟩ : BufTy).Contents (Elt F)),
    ternary main_v68 main_v69 main_v67 main_v70 ((fun x i u => Host.scatterAdd scatter_S8192x128_S270336x1_S270336x128_1_0_0_1 x i u) : (⟨S8192x128, .f32⟩ : BufTy).Contents (Elt F) → (⟨S270336x1, .i32⟩ : BufTy).Contents (Elt F) → (⟨S270336x128, .f32⟩ : BufTy).Contents (Elt F) → (⟨S8192x128, .f32⟩ : BufTy).Contents (Elt F)),
    unary main_arg3 main_v71 (broadcastInDim S1x128 ![1] bcast_S128_S1x128_1 : (⟨S128, .f32⟩ : BufTy).Contents (Elt F) → (⟨S1x128, .f32⟩ : BufTy).Contents (Elt F)),
    unary main_v71 main_v72 (broadcastInDim S8192x128 ![0, 1] bcast_S1x128_S8192x128_0_1 : (⟨S1x128, .f32⟩ : BufTy).Contents (Elt F) → (⟨S8192x128, .f32⟩ : BufTy).Contents (Elt F)),
    binary main_v70 main_v72 main_v73 (addf : (⟨S8192x128, .f32⟩ : BufTy).Contents (Elt F) → (⟨S8192x128, .f32⟩ : BufTy).Contents (Elt F) → (⟨S8192x128, .f32⟩ : BufTy).Contents (Elt F)),
    binary main_v73 main_v19 main_v74 (mulf : (⟨S8192x128, .f32⟩ : BufTy).Contents (Elt F) → (⟨S8192x128, .f32⟩ : BufTy).Contents (Elt F) → (⟨S8192x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., unary_bufs_sub .., binary_bufs_sub .., nullary_bufs_sub .., unary_bufs_sub .., binary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub ..⟩

set_option maxRecDepth 8192 in
/-- `main_v74`'s composed term of the arguments (named: it is long). -/
def res_main_v74 (m : (ℓ : Loc nD τ sig) → Buf (Elt F) ℓ) (c : Dev nD) : Buf (Elt F) ((c.tc : Thread nD τ).loc main_v74) :=
  mulf (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] (m ((c.tc : Thread nD τ).loc main_arg1)) slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none (m ((c.tc : Thread nD τ).loc main_arg0)) (m ((c.tc : Thread nD τ).loc main_arg2))) (broadcastInDim S270336x1 ![0] bcast_S270336_S270336x1_0 (select (cmpi .slt (concatenate S270336 0 [⟨S262144, (shapeCast _ (extractStridedSlice S1x262144 ![0, 0] (m ((c.tc : Thread nD τ).loc main_arg1)) slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] (m ((c.tc : Thread nD τ).loc main_arg1)) slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] (m ((c.tc : Thread nD τ).loc main_arg1)) slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] (m ((c.tc : Thread nD τ).loc main_arg1)) slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.powf (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] (m ((c.tc : Thread nD τ).loc main_arg1)) slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0xBF000000#32))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] (m ((c.tc : Thread nD τ).loc main_arg1)) slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] (m ((c.tc : Thread nD τ).loc main_arg1)) slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] (m ((c.tc : Thread nD τ).loc main_arg1)) slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] (m ((c.tc : Thread nD τ).loc main_arg1)) slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.powf (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] (m ((c.tc : Thread nD τ).loc main_arg1)) slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0xBF000000#32))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] (m ((c.tc : Thread nD τ).loc main_arg1)) slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] (m ((c.tc : Thread nD τ).loc main_arg1)) slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] (m ((c.tc : Thread nD τ).loc main_arg1)) slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 (m ((c.tc : Thread nD τ).loc main_arg3))))) (Host.divf (broadcastInDim S8192x128 ![] bcast_S_S8192x128 (constant S_ .f32 0x3F800000#32)) (addf (broadcastInDim S8192x128 ![] bcast_S_S8192x128 (constant S_ .f32 0x3F800000#32)) (Host.exp (Host.negf (Host.dotGeneral dot_S8192x8192_S8192x128_S8192x128_1_0_0_1_n_n none (Host.divf (Host.dotGeneral dot_S8192x128_S128x8192_S8192x8192_1_0_0_1_n_n none (m ((c.tc : Thread nD τ).loc main_arg0)) (transpose S128x8192 [1, 0] (m ((c.tc : Thread nD τ).loc main_arg0)) transposes_S8192x128_S128x8192_1_0)) (maximumf (mulf (broadcastInDim S8192x8192 ![0, 1] bcast_S8192x1_S8192x8192_0_1 (broadcastInDim S8192x1 ![0] bcast_S8192_S8192x1_0 (Host.sqrt (Host.reduceAdd (mulf (m ((c.tc : Thread nD τ).loc main_arg0)) (m ((c.tc : Thread nD τ).loc main_arg0))) (constant S_ .f32 0x00000000#32) reducesTo_S8192x128_S8192_d1 h_S_)))) (broadcastInDim S8192x8192 ![0, 1] bcast_S1x8192_S8192x8192_0_1 (broadcastInDim S1x8192 ![1] bcast_S8192_S1x8192_1 (Host.sqrt (Host.reduceAdd (mulf (m ((c.tc : Thread nD τ).loc main_arg0)) (m ((c.tc : Thread nD τ).loc main_arg0))) (constant S_ .f32 0x00000000#32) reducesTo_S8192x128_S8192_d1 h_S_))))) (broadcastInDim S8192x8192 ![] bcast_S_S8192x8192 (constant S_ .f32 0x322BCC77#32)))) (m ((c.tc : Thread nD τ).loc main_arg0)))))))

/-- The first (and only) returned value's term, under a second name. -/
abbrev res_out0 (m : (ℓ : Loc nD τ sig) → Buf (Elt F) ℓ) (c : Dev nD) : Buf (Elt F) ((c.tc : Thread nD τ).loc main_v74) := res_main_v74 m c

set_option maxRecDepth 8192 in
set_option maxHeartbeats 39200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = res_main_v74 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v74).trans (by after_results_simp <;> rfl <;> (unfold res_main_v74; rfl)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.RefRead.lean ====
/-
  The reference program read one operation at a time: each host operation's result as a function of the argument
  arrays (a stage), and, for an operation whose result element depends on one element of each operand, the stage read
  at an index — at the extended reals a `dot_general` with one contracted axis is the sum over that axis of the
  operands' products, and a float sum is its initial value plus the sum over the reduced axis. The last stage is the
  run's result term.
-/
import proofs.«130468_j21397527068865_1_alg».proof.Proof.RefRun
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.multiply %arg0, %arg0 : tensor<8192x128xf32>
def val_main_v0 (x0 : (⟨S8192x128, .f32⟩ : BufTy).Contents (Elt F)) : (⟨S8192x128, .f32⟩ : BufTy).Contents (Elt F) :=
  mulf (x0) (x0)
theorem val_main_v0_apply (x0 : (⟨S8192x128, .f32⟩ : BufTy).Contents (Elt F)) (i : S8192x128.Idx) :
    val_main_v0 (F := F) x0 i = FloatOps.mulf (x0 i) (x0 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %1 = stablehlo.reduce(%0 init: %cst) applies stablehlo.add across dimensions = [1] : (tensor<8192x128xf32>, tensor<f32>) -> tensor<8192xf32> {
def val_main_v1 (x0 : (⟨S8192x128, .f32⟩ : BufTy).Contents (Elt F)) : (⟨S8192, .f32⟩ : BufTy).Contents (Elt F) :=
  Host.reduceAdd (val_main_v0 (F := F) x0) (val_main_cst (F := F)) reducesTo_S8192x128_S8192_d1 h_S_
abbrev idx_main_v1 (i : S8192.Idx) (k : Fin 128) : S8192x128.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v1_apply (x0 : (⟨S8192x128, .f32⟩ : BufTy).Contents (Elt Ideal)) (i : S8192.Idx) :
    val_main_v1 (F := Ideal) x0 i = (val_main_cst (F := Ideal)) (Shape.Idx.first h_S_) + ∑ k : Fin 128, (val_main_v0 (F := Ideal) x0) (idx_main_v1 i k) := by
  unfold val_main_v1
  generalize val_main_v0 (F := Ideal) x0 = y0
  simp only [Host.reduceAdd, Ideal.hostReduceAdd_def]
  rw [Ideal.hostReduceAdd_single reducesTo_S8192x128_S8192_d1 (by decide)]
  refine congrArg (_ + ·) (Finset.sum_congr rfl fun k _ => ?_)
  exact congrArg y0 (funext fun a => Fin.ext (by match a with | ⟨0, _⟩ => rfl | ⟨1, _⟩ => rfl))

-- %2 = stablehlo.sqrt %1 : tensor<8192xf32>
def val_main_v2 (x0 : (⟨S8192x128, .f32⟩ : BufTy).Contents (Elt F)) : (⟨S8192, .f32⟩ : BufTy).Contents (Elt F) :=
  Host.sqrt (val_main_v1 (F := F) x0)
theorem val_main_v2_apply (x0 : (⟨S8192x128, .f32⟩ : BufTy).Contents (Elt F)) (i : S8192.Idx) :
    val_main_v2 (F := F) x0 i = FloatOps.hostUnary .sqrt (val_main_v1 (F := F) x0 i) := rfl

-- %3 = stablehlo.broadcast_in_dim %2, dims = [0] : (tensor<8192xf32>) -> tensor<8192x1xf32>
def val_main_v3 (x0 : (⟨S8192x128, .f32⟩ : BufTy).Contents (Elt F)) : (⟨S8192x1, .f32⟩ : BufTy).Contents (Elt F) :=
  broadcastInDim S8192x1 ![0] bcast_S8192_S8192x1_0 (val_main_v2 (F := F) x0)
abbrev idx_main_v3 (i : S8192x1.Idx) : S8192.Idx := fun a => match a with
  | ⟨0, _⟩ => ⟨(i 0).val, (i 0).isLt⟩
theorem val_main_v3_apply (x0 : (⟨S8192x128, .f32⟩ : BufTy).Contents (Elt F)) (i : S8192x1.Idx) :
    val_main_v3 (F := F) x0 i = val_main_v2 (F := F) x0 (idx_main_v3 i) := by
  unfold val_main_v3
  generalize val_main_v2 (F := F) x0 = y
  exact broadcastInDim_apply _ bcast_S8192_S8192x1_0 y i (idx_main_v3 i) (fun a => match a with
    | ⟨0, _⟩ => by show (i 0).val = if (8192 : Nat) = 1 then 0 else (i 0).val; rw [if_neg (by decide)])

-- %4 = stablehlo.broadcast_in_dim %2, dims = [1] : (tensor<8192xf32>) -> tensor<1x8192xf32>
def val_main_v4 (x0 : (⟨S8192x128, .f32⟩ : BufTy).Contents (Elt F)) : (⟨S1x8192, .f32⟩ : BufTy).Contents (Elt F) :=
  broadcastInDim S1x8192 ![1] bcast_S8192_S1x8192_1 (val_main_v2 (F := F) x0)
abbrev idx_main_v4 (i : S1x8192.Idx) : S8192.Idx := fun a => match a with
  | ⟨0, _⟩ => ⟨(i 1).val, (i 1).isLt⟩
theorem val_main_v4_apply (x0 : (⟨S8192x128, .f32⟩ : BufTy).Contents (Elt F)) (i : S1x8192.Idx) :
    val_main_v4 (F := F) x0 i = val_main_v2 (F := F) x0 (idx_main_v4 i) := by
  unfold val_main_v4
  generalize val_main_v2 (F := F) x0 = y
  exact broadcastInDim_apply _ bcast_S8192_S1x8192_1 y i (idx_main_v4 i) (fun a => match a with
    | ⟨0, _⟩ => by show (i 1).val = if (8192 : Nat) = 1 then 0 else (i 1).val; rw [if_neg (by decide)])

-- %5 = stablehlo.broadcast_in_dim %3, dims = [0, 1] : (tensor<8192x1xf32>) -> tensor<8192x8192xf32>
def val_main_v5 (x0 : (⟨S8192x128, .f32⟩ : BufTy).Contents (Elt F)) : (⟨S8192x8192, .f32⟩ : BufTy).Contents (Elt F) :=
  broadcastInDim S8192x8192 ![0, 1] bcast_S8192x1_S8192x8192_0_1 (val_main_v3 (F := F) x0)
abbrev idx_main_v5 (i : S8192x8192.Idx) : S8192x1.Idx := fun a => match a with
  | ⟨0, _⟩ => ⟨(i 0).val, (i 0).isLt⟩
  | ⟨1, _⟩ => ⟨0, Nat.one_pos⟩
theorem val_main_v5_apply (x0 : (⟨S8192x128, .f32⟩ : BufTy).Contents (Elt F)) (i : S8192x8192.Idx) :
    val_main_v5 (F := F) x0 i = val_main_v3 (F := F) x0 (idx_main_v5 i) := by
  unfold val_main_v5
  generalize val_main_v3 (F := F) x0 = y
  exact broadcastInDim_apply _ bcast_S8192x1_S8192x8192_0_1 y i (idx_main_v5 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %6 = stablehlo.broadcast_in_dim %4, dims = [0, 1] : (tensor<1x8192xf32>) -> tensor<8192x8192xf32>
def val_main_v6 (x0 : (⟨S8192x128, .f32⟩ : BufTy).Contents (Elt F)) : (⟨S8192x8192, .f32⟩ : BufTy).Contents (Elt F) :=
  broadcastInDim S8192x8192 ![0, 1] bcast_S1x8192_S8192x8192_0_1 (val_main_v4 (F := F) x0)
abbrev idx_main_v6 (i : S8192x8192.Idx) : S1x8192.Idx := fun a => match a with
  | ⟨0, _⟩ => ⟨0, Nat.one_pos⟩
  | ⟨1, _⟩ => ⟨(i 1).val, (i 1).isLt⟩
theorem val_main_v6_apply (x0 : (⟨S8192x128, .f32⟩ : BufTy).Contents (Elt F)) (i : S8192x8192.Idx) :
    val_main_v6 (F := F) x0 i = val_main_v4 (F := F) x0 (idx_main_v6 i) := by
  unfold val_main_v6
  generalize val_main_v4 (F := F) x0 = y
  exact broadcastInDim_apply _ bcast_S1x8192_S8192x8192_0_1 y i (idx_main_v6 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

-- %7 = stablehlo.multiply %5, %6 : tensor<8192x8192xf32>
def val_main_v7 (x0 : (⟨S8192x128, .f32⟩ : BufTy).Contents (Elt F)) : (⟨S8192x8192, .f32⟩ : BufTy).Contents (Elt F) :=
  mulf (val_main_v5 (F := F) x0) (val_main_v6 (F := F) x0)
theorem val_main_v7_apply (x0 : (⟨S8192x128, .f32⟩ : BufTy).Contents (Elt F)) (i : S8192x8192.Idx) :
    val_main_v7 (F := F) x0 i = FloatOps.mulf (val_main_v5 (F := F) x0 i) (val_main_v6 (F := F) x0 i) := rfl

-- %cst_0 = stablehlo.constant dense<9.99999993E-9> : tensor<f32>
def val_main_cst_0 : (⟨S_, .f32⟩ : BufTy).Contents (Elt F) :=
  constant S_ .f32 0x322BCC77#32
theorem val_main_cst_0_apply (i : S_.Idx) :
    val_main_cst_0 (F := F) i = FloatOps.ofBits .f32 0x322BCC77#32 := rfl

-- %8 = stablehlo.broadcast_in_dim %cst_0, dims = [] : (tensor<f32>) -> tensor<8192x8192xf32>
def val_main_v8 : (⟨S8192x8192, .f32⟩ : BufTy).Contents (Elt F) :=
  broadcastInDim S8192x8192 ![] bcast_S_S8192x8192 (val_main_cst_0 (F := F))
abbrev idx_main_v8 (i : S8192x8192.Idx) : S_.Idx := fun a => a.elim0
theorem val_main_v8_apply (i : S8192x8192.Idx) :
    val_main_v8 (F := F) i = val_main_cst_0 (F := F) (idx_main_v8 i) := by
  unfold val_main_v8
  generalize val_main_cst_0 (F := F) = y
  exact broadcastInDim_apply _ bcast_S_S8192x8192 y i (idx_main_v8 i) (fun a => a.elim0)

-- %9 = stablehlo.maximum %7, %8 : tensor<8192x8192xf32>
def val_main_v9 (x0 : (⟨S8192x128, .f32⟩ : BufTy).Contents (Elt F)) : (⟨S8192x8192, .f32⟩ : BufTy).Contents (Elt F) :=
  maximumf (val_main_v7 (F := F) x0) (val_main_v8 (F := F))
theorem val_main_v9_apply (x0 : (⟨S8192x128, .f32⟩ : BufTy).Contents (Elt F)) (i : S8192x8192.Idx) :
    val_main_v9 (F := F) x0 i = FloatOps.maximumf (val_main_v7 (F := F) x0 i) (val_main_v8 (F := F) i) := rfl

-- %10 = stablehlo.transpose %arg0, dims = [1, 0] : (tensor<8192x128xf32>) -> tensor<128x8192xf32>
def val_main_v10 (x0 : (⟨S8192x128, .f32⟩ : BufTy).Contents (Elt F)) : (⟨S128x8192, .f32⟩ : BufTy).Contents (Elt F) :=
  transpose S128x8192 [1, 0] (x0) transposes_S8192x128_S128x8192_1_0
abbrev idx_main_v10 (i : S128x8192.Idx) : S8192x128.Idx := fun a => match a with
  | ⟨0, _⟩ => ⟨(i 1).val, (i 1).isLt⟩
  | ⟨1, _⟩ => ⟨(i 0).val, (i 0).isLt⟩
theorem val_main_v10_apply (x0 : (⟨S8192x128, .f32⟩ : BufTy).Contents (Elt F)) (i : S128x8192.Idx) :
    val_main_v10 (F := F) x0 i = x0 (idx_main_v10 i) := by
  unfold val_main_v10
  exact transpose_apply [1, 0] x0 transposes_S8192x128_S128x8192_1_0 i (idx_main_v10 i) (fun b => match b with
    | ⟨0, _⟩ => rfl
    | ⟨1, _⟩ => rfl)

-- %11 = stablehlo.dot_general %arg0, %10, contracting_dims = [1] x [0], precision = [DEFAULT, DEFAULT] : (tensor<8192x128xf32>, tensor<128x8192xf32>) -> tensor<8192x8192xf32>
def val_main_v11 (x0 : (⟨S8192x128, .f32⟩ : BufTy).Contents (Elt F)) : (⟨S8192x8192, .f32⟩ : BufTy).Contents (Elt F) :=
  Host.dotGeneral dot_S8192x128_S128x8192_S8192x8192_1_0_0_1_n_n none (x0) (val_main_v10 (F := F) x0)
theorem lhs_main_v11_0 (i : S8192x8192.Idx) (q : dot_S8192x128_S128x8192_S8192x8192_1_0_0_1_n_n.contr.Idx) :
    (dot_S8192x128_S128x8192_S8192x8192_1_0_0_1_n_n.lhsIdx i q 0).val = (i 0).val := by
  unfold DotDims.lhsIdx
  rw [dif_neg (show ¬(0 : Fin S8192x128.rank) ∈ dot_S8192x128_S128x8192_S8192x8192_1_0_0_1_n_n.lhsBatch by decide), dif_pos (show (0 : Fin S8192x128.rank) ∈ dot_S8192x128_S128x8192_S8192x8192_1_0_0_1_n_n.lhsNonContracting by decide)]
  rfl
theorem lhs_main_v11_1 (i : S8192x8192.Idx) (q : dot_S8192x128_S128x8192_S8192x8192_1_0_0_1_n_n.contr.Idx) :
    (dot_S8192x128_S128x8192_S8192x8192_1_0_0_1_n_n.lhsIdx i q 1).val = (q ⟨0, by decide⟩).val :=
  dot_S8192x128_S128x8192_S8192x8192_1_0_0_1_n_n.lhsIdx_val_of_single rfl i q
theorem rhs_main_v11_0 (i : S8192x8192.Idx) (q : dot_S8192x128_S128x8192_S8192x8192_1_0_0_1_n_n.contr.Idx) :
    (dot_S8192x128_S128x8192_S8192x8192_1_0_0_1_n_n.rhsIdx i q 0).val = (q ⟨0, by decide⟩).val :=
  dot_S8192x128_S128x8192_S8192x8192_1_0_0_1_n_n.rhsIdx_val_of_single rfl i q
theorem rhs_main_v11_1 (i : S8192x8192.Idx) (q : dot_S8192x128_S128x8192_S8192x8192_1_0_0_1_n_n.contr.Idx) :
    (dot_S8192x128_S128x8192_S8192x8192_1_0_0_1_n_n.rhsIdx i q 1).val = (i 1).val := by
  unfold DotDims.rhsIdx
  rw [dif_neg (show ¬(1 : Fin S128x8192.rank) ∈ dot_S8192x128_S128x8192_S8192x8192_1_0_0_1_n_n.rhsBatch by decide), dif_pos (show (1 : Fin S128x8192.rank) ∈ dot_S8192x128_S128x8192_S8192x8192_1_0_0_1_n_n.rhsNonContracting by decide)]
  rfl
abbrev lidx_main_v11 (i : S8192x8192.Idx) (k : Fin 128) : S8192x128.Idx := fun a => match a with
  | ⟨0, _⟩ => ⟨(i 0).val, (i 0).isLt⟩
  | ⟨1, _⟩ => ⟨k.val, k.isLt⟩
abbrev ridx_main_v11 (i : S8192x8192.Idx) (k : Fin 128) : S128x8192.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v11_apply (x0 : (⟨S8192x128, .f32⟩ : BufTy).Contents (Elt Ideal)) (i : S8192x8192.Idx) :
    val_main_v11 (F := Ideal) x0 i = ∑ k : Fin 128, x0 (lidx_main_v11 i k) * (val_main_v10 (F := Ideal) x0) (ridx_main_v11 i k) := by
  unfold val_main_v11
  generalize val_main_v10 (F := Ideal) x0 = y0
  simp only [Host.dotGeneral]
  rw [Ideal.dotGeneral_apply, ← Equiv.sum_comp (ValueIdx.contrEquiv1 dot_S8192x128_S128x8192_S8192x8192_1_0_0_1_n_n 128 rfl rfl).symm]
  refine Finset.sum_congr rfl fun k _ => ?_
  have hk := ValueIdx.contrEquiv1_symm_val dot_S8192x128_S128x8192_S8192x8192_1_0_0_1_n_n 128 rfl rfl k
  have el : dot_S8192x128_S128x8192_S8192x8192_1_0_0_1_n_n.lhsIdx i ((ValueIdx.contrEquiv1 dot_S8192x128_S128x8192_S8192x8192_1_0_0_1_n_n 128 rfl rfl).symm k) = lidx_main_v11 i k := funext fun a => Fin.ext (by
    match a with
    | ⟨0, _⟩ => exact lhs_main_v11_0 _ _
    | ⟨1, _⟩ => exact (lhs_main_v11_1 _ _).trans hk)
  have er : dot_S8192x128_S128x8192_S8192x8192_1_0_0_1_n_n.rhsIdx i ((ValueIdx.contrEquiv1 dot_S8192x128_S128x8192_S8192x8192_1_0_0_1_n_n 128 rfl rfl).symm k) = ridx_main_v11 i k := funext fun a => Fin.ext (by
    match a with
    | ⟨0, _⟩ => exact (rhs_main_v11_0 _ _).trans hk
    | ⟨1, _⟩ => exact rhs_main_v11_1 _ _)
  rw [el, er]

-- %12 = stablehlo.divide %11, %9 : tensor<8192x8192xf32>
def val_main_v12 (x0 : (⟨S8192x128, .f32⟩ : BufTy).Contents (Elt F)) : (⟨S8192x8192, .f32⟩ : BufTy).Contents (Elt F) :=
  Host.divf (val_main_v11 (F := F) x0) (val_main_v9 (F := F) x0)
theorem val_main_v12_apply (x0 : (⟨S8192x128, .f32⟩ : BufTy).Contents (Elt F)) (i : S8192x8192.Idx) :
    val_main_v12 (F := F) x0 i = FloatOps.hostDivf (val_main_v11 (F := F) x0 i) (val_main_v9 (F := F) x0 i) := rfl

-- %13 = stablehlo.dot_general %12, %arg0, contracting_dims = [1] x [0], precision = [DEFAULT, DEFAULT] : (tensor<8192x8192xf32>, tensor<8192x128xf32>) -> tensor<8192x128xf32>
def val_main_v13 (x0 : (⟨S8192x128, .f32⟩ : BufTy).Contents (Elt F)) : (⟨S8192x128, .f32⟩ : BufTy).Contents (Elt F) :=
  Host.dotGeneral dot_S8192x8192_S8192x128_S8192x128_1_0_0_1_n_n none (val_main_v12 (F := F) x0) (x0)
theorem lhs_main_v13_0 (i : S8192x128.Idx) (q : dot_S8192x8192_S8192x128_S8192x128_1_0_0_1_n_n.contr.Idx) :
    (dot_S8192x8192_S8192x128_S8192x128_1_0_0_1_n_n.lhsIdx i q 0).val = (i 0).val := by
  unfold DotDims.lhsIdx
  rw [dif_neg (show ¬(0 : Fin S8192x8192.rank) ∈ dot_S8192x8192_S8192x128_S8192x128_1_0_0_1_n_n.lhsBatch by decide), dif_pos (show (0 : Fin S8192x8192.rank) ∈ dot_S8192x8192_S8192x128_S8192x128_1_0_0_1_n_n.lhsNonContracting by decide)]
  rfl
theorem lhs_main_v13_1 (i : S8192x128.Idx) (q : dot_S8192x8192_S8192x128_S8192x128_1_0_0_1_n_n.contr.Idx) :
    (dot_S8192x8192_S8192x128_S8192x128_1_0_0_1_n_n.lhsIdx i q 1).val = (q ⟨0, by decide⟩).val :=
  dot_S8192x8192_S8192x128_S8192x128_1_0_0_1_n_n.lhsIdx_val_of_single rfl i q
theorem rhs_main_v13_0 (i : S8192x128.Idx) (q : dot_S8192x8192_S8192x128_S8192x128_1_0_0_1_n_n.contr.Idx) :
    (dot_S8192x8192_S8192x128_S8192x128_1_0_0_1_n_n.rhsIdx i q 0).val = (q ⟨0, by decide⟩).val :=
  dot_S8192x8192_S8192x128_S8192x128_1_0_0_1_n_n.rhsIdx_val_of_single rfl i q
theorem rhs_main_v13_1 (i : S8192x128.Idx) (q : dot_S8192x8192_S8192x128_S8192x128_1_0_0_1_n_n.contr.Idx) :
    (dot_S8192x8192_S8192x128_S8192x128_1_0_0_1_n_n.rhsIdx i q 1).val = (i 1).val := by
  unfold DotDims.rhsIdx
  rw [dif_neg (show ¬(1 : Fin S8192x128.rank) ∈ dot_S8192x8192_S8192x128_S8192x128_1_0_0_1_n_n.rhsBatch by decide), dif_pos (show (1 : Fin S8192x128.rank) ∈ dot_S8192x8192_S8192x128_S8192x128_1_0_0_1_n_n.rhsNonContracting by decide)]
  rfl
abbrev lidx_main_v13 (i : S8192x128.Idx) (k : Fin 8192) : S8192x8192.Idx := fun a => match a with
  | ⟨0, _⟩ => ⟨(i 0).val, (i 0).isLt⟩
  | ⟨1, _⟩ => ⟨k.val, k.isLt⟩
abbrev ridx_main_v13 (i : S8192x128.Idx) (k : Fin 8192) : S8192x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v13_apply (x0 : (⟨S8192x128, .f32⟩ : BufTy).Contents (Elt Ideal)) (i : S8192x128.Idx) :
    val_main_v13 (F := Ideal) x0 i = ∑ k : Fin 8192, (val_main_v12 (F := Ideal) x0) (lidx_main_v13 i k) * x0 (ridx_main_v13 i k) := by
  unfold val_main_v13
  generalize val_main_v12 (F := Ideal) x0 = y0
  simp only [Host.dotGeneral]
  rw [Ideal.dotGeneral_apply, ← Equiv.sum_comp (ValueIdx.contrEquiv1 dot_S8192x8192_S8192x128_S8192x128_1_0_0_1_n_n 8192 rfl rfl).symm]
  refine Finset.sum_congr rfl fun k _ => ?_
  have hk := ValueIdx.contrEquiv1_symm_val dot_S8192x8192_S8192x128_S8192x128_1_0_0_1_n_n 8192 rfl rfl k
  have el : dot_S8192x8192_S8192x128_S8192x128_1_0_0_1_n_n.lhsIdx i ((ValueIdx.contrEquiv1 dot_S8192x8192_S8192x128_S8192x128_1_0_0_1_n_n 8192 rfl rfl).symm k) = lidx_main_v13 i k := funext fun a => Fin.ext (by
    match a with
    | ⟨0, _⟩ => exact lhs_main_v13_0 _ _
    | ⟨1, _⟩ => exact (lhs_main_v13_1 _ _).trans hk)
  have er : dot_S8192x8192_S8192x128_S8192x128_1_0_0_1_n_n.rhsIdx i ((ValueIdx.contrEquiv1 dot_S8192x8192_S8192x128_S8192x128_1_0_0_1_n_n 8192 rfl rfl).symm k) = ridx_main_v13 i k := funext fun a => Fin.ext (by
    match a with
    | ⟨0, _⟩ => exact (rhs_main_v13_0 _ _).trans hk
    | ⟨1, _⟩ => exact rhs_main_v13_1 _ _)
  rw [el, er]

-- %14 = stablehlo.negate %13 : tensor<8192x128xf32>
def val_main_v14 (x0 : (⟨S8192x128, .f32⟩ : BufTy).Contents (Elt F)) : (⟨S8192x128, .f32⟩ : BufTy).Contents (Elt F) :=
  Host.negf (val_main_v13 (F := F) x0)
theorem val_main_v14_apply (x0 : (⟨S8192x128, .f32⟩ : BufTy).Contents (Elt F)) (i : S8192x128.Idx) :
    val_main_v14 (F := F) x0 i = FloatOps.hostNegf (val_main_v13 (F := F) x0 i) := rfl

-- %15 = stablehlo.exponential %14 : tensor<8192x128xf32>
def val_main_v15 (x0 : (⟨S8192x128, .f32⟩ : BufTy).Contents (Elt F)) : (⟨S8192x128, .f32⟩ : BufTy).Contents (Elt F) :=
  Host.exp (val_main_v14 (F := F) x0)
theorem val_main_v15_apply (x0 : (⟨S8192x128, .f32⟩ : BufTy).Contents (Elt F)) (i : S8192x128.Idx) :
    val_main_v15 (F := F) x0 i = FloatOps.hostUnary .exp (val_main_v14 (F := F) x0 i) := rfl

-- %cst_1 = stablehlo.constant dense<1.000000e+00> : tensor<f32>
def val_main_cst_1 : (⟨S_, .f32⟩ : BufTy).Contents (Elt F) :=
  constant S_ .f32 0x3F800000#32
theorem val_main_cst_1_apply (i : S_.Idx) :
    val_main_cst_1 (F := F) i = FloatOps.ofBits .f32 0x3F800000#32 := rfl

-- %16 = stablehlo.broadcast_in_dim %cst_1, dims = [] : (tensor<f32>) -> tensor<8192x128xf32>
def val_main_v16 : (⟨S8192x128, .f32⟩ : BufTy).Contents (Elt F) :=
  broadcastInDim S8192x128 ![] bcast_S_S8192x128 (val_main_cst_1 (F := F))
abbrev idx_main_v16 (i : S8192x128.Idx) : S_.Idx := fun a => a.elim0
theorem val_main_v16_apply (i : S8192x128.Idx) :
    val_main_v16 (F := F) i = val_main_cst_1 (F := F) (idx_main_v16 i) := by
  unfold val_main_v16
  generalize val_main_cst_1 (F := F) = y
  exact broadcastInDim_apply _ bcast_S_S8192x128 y i (idx_main_v16 i) (fun a => a.elim0)

-- %17 = stablehlo.add %16, %15 : tensor<8192x128xf32>
def val_main_v17 (x0 : (⟨S8192x128, .f32⟩ : BufTy).Contents (Elt F)) : (⟨S8192x128, .f32⟩ : BufTy).Contents (Elt F) :=
  addf (val_main_v16 (F := F)) (val_main_v15 (F := F) x0)
theorem val_main_v17_apply (x0 : (⟨S8192x128, .f32⟩ : BufTy).Contents (Elt F)) (i : S8192x128.Idx) :
    val_main_v17 (F := F) x0 i = FloatOps.addf (val_main_v16 (F := F) i) (val_main_v15 (F := F) x0 i) := rfl

-- %cst_2 = stablehlo.constant dense<1.000000e+00> : tensor<f32>
def val_main_cst_2 : (⟨S_, .f32⟩ : BufTy).Contents (Elt F) :=
  constant S_ .f32 0x3F800000#32
theorem val_main_cst_2_apply (i : S_.Idx) :
    val_main_cst_2 (F := F) i = FloatOps.ofBits .f32 0x3F800000#32 := rfl

-- %18 = stablehlo.broadcast_in_dim %cst_2, dims = [] : (tensor<f32>) -> tensor<8192x128xf32>
def val_main_v18 : (⟨S8192x128, .f32⟩ : BufTy).Contents (Elt F) :=
  broadcastInDim S8192x128 ![] bcast_S_S8192x128 (val_main_cst_2 (F := F))
abbrev idx_main_v18 (i : S8192x128.Idx) : S_.Idx := fun a => a.elim0
theorem val_main_v18_apply (i : S8192x128.Idx) :
    val_main_v18 (F := F) i = val_main_cst_2 (F := F) (idx_main_v18 i) := by
  unfold val_main_v18
  generalize val_main_cst_2 (F := F) = y
  exact broadcastInDim_apply _ bcast_S_S8192x128 y i (idx_main_v18 i) (fun a => a.elim0)

-- %19 = stablehlo.divide %18, %17 : tensor<8192x128xf32>
def val_main_v19 (x0 : (⟨S8192x128, .f32⟩ : BufTy).Contents (Elt F)) : (⟨S8192x128, .f32⟩ : BufTy).Contents (Elt F) :=
  Host.divf (val_main_v18 (F := F)) (val_main_v17 (F := F) x0)
theorem val_main_v19_apply (x0 : (⟨S8192x128, .f32⟩ : BufTy).Contents (Elt F)) (i : S8192x128.Idx) :
    val_main_v19 (F := F) x0 i = FloatOps.hostDivf (val_main_v18 (F := F) i) (val_main_v17 (F := F) x0 i) := rfl

-- %20 = stablehlo.dot_general %arg0, %arg2, contracting_dims = [1] x [0], precision = [DEFAULT, DEFAULT] : (tensor<8192x128xf32>, tensor<128x128xf32>) -> tensor<8192x128xf32>
def val_main_v20 (x0 : (⟨S8192x128, .f32⟩ : BufTy).Contents (Elt F)) (x2 : (⟨S128x128, .f32⟩ : BufTy).Contents (Elt F)) : (⟨S8192x128, .f32⟩ : BufTy).Contents (Elt F) :=
  Host.dotGeneral dot_S8192x128_S128x128_S8192x128_1_0_0_1_n_n none (x0) (x2)
theorem lhs_main_v20_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_main_v20_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_main_v20_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_main_v20_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl
abbrev lidx_main_v20 (i : S8192x128.Idx) (k : Fin 128) : S8192x128.Idx := fun a => match a with
  | ⟨0, _⟩ => ⟨(i 0).val, (i 0).isLt⟩
  | ⟨1, _⟩ => ⟨k.val, k.isLt⟩
abbrev ridx_main_v20 (i : S8192x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v20_apply (x0 : (⟨S8192x128, .f32⟩ : BufTy).Contents (Elt Ideal)) (x2 : (⟨S128x128, .f32⟩ : BufTy).Contents (Elt Ideal)) (i : S8192x128.Idx) :
    val_main_v20 (F := Ideal) x0 x2 i = ∑ k : Fin 128, x0 (lidx_main_v20 i k) * x2 (ridx_main_v20 i k) := by
  unfold val_main_v20
  simp only [Host.dotGeneral]
  rw [Ideal.dotGeneral_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx i ((ValueIdx.contrEquiv1 dot_S8192x128_S128x128_S8192x128_1_0_0_1_n_n 128 rfl rfl).symm k) = lidx_main_v20 i k := funext fun a => Fin.ext (by
    match a with
    | ⟨0, _⟩ => exact lhs_main_v20_0 _ _
    | ⟨1, _⟩ => exact (lhs_main_v20_1 _ _).trans hk)
  have er : dot_S8192x128_S128x128_S8192x128_1_0_0_1_n_n.rhsIdx i ((ValueIdx.contrEquiv1 dot_S8192x128_S128x128_S8192x128_1_0_0_1_n_n 128 rfl rfl).symm k) = ridx_main_v20 i k := funext fun a => Fin.ext (by
    match a with
    | ⟨0, _⟩ => exact (rhs_main_v20_0 _ _).trans hk
    | ⟨1, _⟩ => exact rhs_main_v20_1 _ _)
  rw [el, er]

-- %21 = stablehlo.iota dim = 0 : tensor<8192xi32>
def val_main_v21 : (⟨S8192, .i32⟩ : BufTy).Contents (Elt F) :=
  iotaInDim S8192 32 0
theorem val_main_v21_apply (i : S8192.Idx) :
    val_main_v21 (F := F) i = BitVec.ofNat 32 (i 0).val := rfl

-- %22 = stablehlo.slice %arg1 [0:1, 0:262144] : (tensor<2x262144xi32>) -> tensor<1x262144xi32>
def val_main_v22 (x1 : (⟨S2x262144, .i32⟩ : BufTy).Contents (Elt F)) : (⟨S1x262144, .i32⟩ : BufTy).Contents (Elt F) :=
  extractStridedSlice S1x262144 ![0, 0] (x1) slices_S2x262144_S1x262144_0_0
abbrev idx_main_v22 (i : S1x262144.Idx) : S2x262144.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v22_apply (x1 : (⟨S2x262144, .i32⟩ : BufTy).Contents (Elt F)) (i : S1x262144.Idx) :
    val_main_v22 (F := F) x1 i = x1 (idx_main_v22 i) := by
  unfold val_main_v22
  exact extractStridedSlice_apply ![0, 0] x1 slices_S2x262144_S1x262144_0_0 i (idx_main_v22 i) (fun a => match a with
    | ⟨0, _⟩ => by show (i 0).val = 0 + (i 0).val; omega
    | ⟨1, _⟩ => by show (i 1).val = 0 + (i 1).val; omega)

-- %23 = stablehlo.reshape %22 : (tensor<1x262144xi32>) -> tensor<262144xi32>
def val_main_v23 (x1 : (⟨S2x262144, .i32⟩ : BufTy).Contents (Elt F)) : (⟨S262144, .i32⟩ : BufTy).Contents (Elt F) :=
  shapeCast _ (val_main_v22 (F := F) x1) shapeCasts_S1x262144_S262144
abbrev idx_main_v23 (i : S262144.Idx) : S1x262144.Idx := fun a => match a with
  | ⟨0, _⟩ => ⟨0, Nat.one_pos⟩
  | ⟨1, _⟩ => ⟨((i 0).val) % 262144, by have h0 : (i 0).val < 262144 := (i 0).isLt; show ((i 0).val) % 262144 < 262144; omega⟩
theorem val_main_v23_apply (x1 : (⟨S2x262144, .i32⟩ : BufTy).Contents (Elt F)) (i : S262144.Idx) :
    val_main_v23 (F := F) x1 i = val_main_v22 (F := F) x1 (idx_main_v23 i) := by
  unfold val_main_v23
  generalize val_main_v22 (F := F) x1 = y
  exact shapeCast_apply y shapeCasts_S1x262144_S262144 i (idx_main_v23 i)
    (by rewrite [Shape.rowMajor_val_two, Shape.rowMajor_val_one]; have h0 : (i 0).val < 262144 := (i 0).isLt; show 0 * 262144 + ((i 0).val) % 262144 = (i 0).val; omega)

-- %24 = stablehlo.concatenate %23, %21, dim = 0 : (tensor<262144xi32>, tensor<8192xi32>) -> tensor<270336xi32>
def val_main_v24 (x1 : (⟨S2x262144, .i32⟩ : BufTy).Contents (Elt F)) : (⟨S270336, .i32⟩ : BufTy).Contents (Elt F) :=
  concatenate S270336 0 [⟨S262144, (val_main_v23 (F := F) x1)⟩, ⟨S8192, (val_main_v21 (F := F))⟩] concatenates_S262144_S8192_S270336_d0

-- %25 = stablehlo.slice %arg1 [1:2, 0:262144] : (tensor<2x262144xi32>) -> tensor<1x262144xi32>
def val_main_v25 (x1 : (⟨S2x262144, .i32⟩ : BufTy).Contents (Elt F)) : (⟨S1x262144, .i32⟩ : BufTy).Contents (Elt F) :=
  extractStridedSlice S1x262144 ![1, 0] (x1) slices_S2x262144_S1x262144_1_0
abbrev idx_main_v25 (i : S1x262144.Idx) : S2x262144.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v25_apply (x1 : (⟨S2x262144, .i32⟩ : BufTy).Contents (Elt F)) (i : S1x262144.Idx) :
    val_main_v25 (F := F) x1 i = x1 (idx_main_v25 i) := by
  unfold val_main_v25
  exact extractStridedSlice_apply ![1, 0] x1 slices_S2x262144_S1x262144_1_0 i (idx_main_v25 i) (fun a => match a with
    | ⟨0, _⟩ => by show 1 + (i 0).val = 1 + (i 0).val; omega
    | ⟨1, _⟩ => by show (i 1).val = 0 + (i 1).val; omega)

-- %26 = stablehlo.reshape %25 : (tensor<1x262144xi32>) -> tensor<262144xi32>
def val_main_v26 (x1 : (⟨S2x262144, .i32⟩ : BufTy).Contents (Elt F)) : (⟨S262144, .i32⟩ : BufTy).Contents (Elt F) :=
  shapeCast _ (val_main_v25 (F := F) x1) shapeCasts_S1x262144_S262144
abbrev idx_main_v26 (i : S262144.Idx) : S1x262144.Idx := fun a => match a with
  | ⟨0, _⟩ => ⟨0, Nat.one_pos⟩
  | ⟨1, _⟩ => ⟨((i 0).val) % 262144, by have h0 : (i 0).val < 262144 := (i 0).isLt; show ((i 0).val) % 262144 < 262144; omega⟩
theorem val_main_v26_apply (x1 : (⟨S2x262144, .i32⟩ : BufTy).Contents (Elt F)) (i : S262144.Idx) :
    val_main_v26 (F := F) x1 i = val_main_v25 (F := F) x1 (idx_main_v26 i) := by
  unfold val_main_v26
  generalize val_main_v25 (F := F) x1 = y
  exact shapeCast_apply y shapeCasts_S1x262144_S262144 i (idx_main_v26 i)
    (by rewrite [Shape.rowMajor_val_two, Shape.rowMajor_val_one]; have h0 : (i 0).val < 262144 := (i 0).isLt; show 0 * 262144 + ((i 0).val) % 262144 = (i 0).val; omega)

-- %27 = stablehlo.concatenate %26, %21, dim = 0 : (tensor<262144xi32>, tensor<8192xi32>) -> tensor<270336xi32>
def val_main_v27 (x1 : (⟨S2x262144, .i32⟩ : BufTy).Contents (Elt F)) : (⟨S270336, .i32⟩ : BufTy).Contents (Elt F) :=
  concatenate S270336 0 [⟨S262144, (val_main_v26 (F := F) x1)⟩, ⟨S8192, (val_main_v21 (F := F))⟩] concatenates_S262144_S8192_S270336_d0

-- %cst_3 = stablehlo.constant dense<1.000000e+00> : tensor<f32>
def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl

-- %28 = stablehlo.broadcast_in_dim %cst_3, dims = [] : (tensor<f32>) -> tensor<270336xf32>
def val_main_v28 : (⟨S270336, .f32⟩ : BufTy).Contents (Elt F) :=
  broadcastInDim S270336 ![] bcast_S_S270336 (val_main_cst_3 (F := F))
abbrev idx_main_v28 (i : S270336.Idx) : S_.Idx := fun a => a.elim0
theorem val_main_v28_apply (i : S270336.Idx) :
    val_main_v28 (F := F) i = val_main_cst_3 (F := F) (idx_main_v28 i) := by
  unfold val_main_v28
  generalize val_main_cst_3 (F := F) = y
  exact broadcastInDim_apply _ bcast_S_S270336 y i (idx_main_v28 i) (fun a => a.elim0)

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %29 = stablehlo.broadcast_in_dim %cst_4, dims = [] : (tensor<f32>) -> tensor<8192xf32>
def val_main_v29 : (⟨S8192, .f32⟩ : BufTy).Contents (Elt F) :=
  broadcastInDim S8192 ![] bcast_S_S8192 (val_main_cst_4 (F := F))
abbrev idx_main_v29 (i : S8192.Idx) : S_.Idx := fun a => a.elim0
theorem val_main_v29_apply (i : S8192.Idx) :
    val_main_v29 (F := F) i = val_main_cst_4 (F := F) (idx_main_v29 i) := by
  unfold val_main_v29
  generalize val_main_cst_4 (F := F) = y
  exact broadcastInDim_apply _ bcast_S_S8192 y i (idx_main_v29 i) (fun a => a.elim0)

-- %30 = stablehlo.broadcast_in_dim %27, dims = [0] : (tensor<270336xi32>) -> tensor<270336x1xi32>
def val_main_v30 (x1 : (⟨S2x262144, .i32⟩ : BufTy).Contents (Elt F)) : (⟨S270336x1, .i32⟩ : BufTy).Contents (Elt F) :=
  broadcastInDim S270336x1 ![0] bcast_S270336_S270336x1_0 (val_main_v27 (F := F) x1)
abbrev idx_main_v30 (i : S270336x1.Idx) : S270336.Idx := fun a => match a with
  | ⟨0, _⟩ => ⟨(i 0).val, (i 0).isLt⟩
theorem val_main_v30_apply (x1 : (⟨S2x262144, .i32⟩ : BufTy).Contents (Elt F)) (i : S270336x1.Idx) :
    val_main_v30 (F := F) x1 i = val_main_v27 (F := F) x1 (idx_main_v30 i) := by
  unfold val_main_v30
  generalize val_main_v27 (F := F) x1 = y
  exact broadcastInDim_apply _ bcast_S270336_S270336x1_0 y i (idx_main_v30 i) (fun a => match a with
    | ⟨0, _⟩ => by show (i 0).val = if (270336 : Nat) = 1 then 0 else (i 0).val; rw [if_neg (by decide)])

-- %31 = "stablehlo.scatter"(%29, %30, %28) <{indices_are_sorted = false, scatter_dimension_numbers = #stablehlo.scatter<inserted_window_dims = [0], scatter_dims_to_operand_dims = [0], index_vector_dim = 1>, unique_indices = false}> ( {
def val_main_v31 (x1 : (⟨S2x262144, .i32⟩ : BufTy).Contents (Elt F)) : (⟨S8192, .f32⟩ : BufTy).Contents (Elt F) :=
  Host.scatterAdd scatter_S8192_S270336x1_S270336_n_0_0_1 (val_main_v29 (F := F)) (val_main_v30 (F := F) x1) (val_main_v28 (F := F))

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %32 = stablehlo.broadcast_in_dim %cst_5, dims = [] : (tensor<f32>) -> tensor<8192xf32>
def val_main_v32 : (⟨S8192, .f32⟩ : BufTy).Contents (Elt F) :=
  broadcastInDim S8192 ![] bcast_S_S8192 (val_main_cst_5 (F := F))
abbrev idx_main_v32 (i : S8192.Idx) : S_.Idx := fun a => a.elim0
theorem val_main_v32_apply (i : S8192.Idx) :
    val_main_v32 (F := F) i = val_main_cst_5 (F := F) (idx_main_v32 i) := by
  unfold val_main_v32
  generalize val_main_cst_5 (F := F) = y
  exact broadcastInDim_apply _ bcast_S_S8192 y i (idx_main_v32 i) (fun a => a.elim0)

-- %33 = stablehlo.compare GT, %31, %32, FLOAT : (tensor<8192xf32>, tensor<8192xf32>) -> tensor<8192xi1>
def val_main_v33 (x1 : (⟨S2x262144, .i32⟩ : BufTy).Contents (Elt F)) : (⟨S8192, .i1⟩ : BufTy).Contents (Elt F) :=
  cmpf .ogt (val_main_v31 (F := F) x1) (val_main_v32 (F := F))
theorem val_main_v33_apply (x1 : (⟨S2x262144, .i32⟩ : BufTy).Contents (Elt F)) (i : S8192.Idx) :
    val_main_v33 (F := F) x1 i = FloatOps.cmpf .ogt (val_main_v31 (F := F) x1 i) (val_main_v32 (F := F) i) := rfl

-- %cst_6 = stablehlo.constant dense<1.000000e+00> : tensor<f32>
def val_main_cst_6 : (⟨S_, .f32⟩ : BufTy).Contents (Elt F) :=
  constant S_ .f32 0x3F800000#32
theorem val_main_cst_6_apply (i : S_.Idx) :
    val_main_cst_6 (F := F) i = FloatOps.ofBits .f32 0x3F800000#32 := rfl

-- %34 = stablehlo.broadcast_in_dim %cst_6, dims = [] : (tensor<f32>) -> tensor<8192xf32>
def val_main_v34 : (⟨S8192, .f32⟩ : BufTy).Contents (Elt F) :=
  broadcastInDim S8192 ![] bcast_S_S8192 (val_main_cst_6 (F := F))
abbrev idx_main_v34 (i : S8192.Idx) : S_.Idx := fun a => a.elim0
theorem val_main_v34_apply (i : S8192.Idx) :
    val_main_v34 (F := F) i = val_main_cst_6 (F := F) (idx_main_v34 i) := by
  unfold val_main_v34
  generalize val_main_cst_6 (F := F) = y
  exact broadcastInDim_apply _ bcast_S_S8192 y i (idx_main_v34 i) (fun a => a.elim0)

-- %35 = stablehlo.maximum %31, %34 : tensor<8192xf32>
def val_main_v35 (x1 : (⟨S2x262144, .i32⟩ : BufTy).Contents (Elt F)) : (⟨S8192, .f32⟩ : BufTy).Contents (Elt F) :=
  maximumf (val_main_v31 (F := F) x1) (val_main_v34 (F := F))
theorem val_main_v35_apply (x1 : (⟨S2x262144, .i32⟩ : BufTy).Contents (Elt F)) (i : S8192.Idx) :
    val_main_v35 (F := F) x1 i = FloatOps.maximumf (val_main_v31 (F := F) x1 i) (val_main_v34 (F := F) i) := rfl

-- %36 = stablehlo.rsqrt %35 : tensor<8192xf32>
def val_main_v36 (x1 : (⟨S2x262144, .i32⟩ : BufTy).Contents (Elt F)) : (⟨S8192, .f32⟩ : BufTy).Contents (Elt F) :=
  Host.rsqrt (val_main_v35 (F := F) x1)
theorem val_main_v36_apply (x1 : (⟨S2x262144, .i32⟩ : BufTy).Contents (Elt F)) (i : S8192.Idx) :
    val_main_v36 (F := F) x1 i = FloatOps.hostUnary .rsqrt (val_main_v35 (F := F) x1 i) := rfl

-- %cst_7 = stablehlo.constant dense<0.000000e+00> : tensor<f32>
def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

-- @_where's %0 = stablehlo.convert %arg2 : tensor<f32>, in %37 = func.call @_where(…) (record main_call0)
def val_main_call0_v0 : (⟨S_, .f32⟩ : BufTy).Contents (Elt F) :=
  id (val_main_cst_7 (F := F))
theorem val_main_call0_v0_apply (i : S_.Idx) :
    val_main_call0_v0 (F := F) i = (val_main_cst_7 (F := F) i) := rfl

-- @_where's %1 = stablehlo.broadcast_in_dim %0, dims = [] : (tensor<f32>) -> tensor<8192xf32>, in %37 = func.call @_where(…) (record main_call0)
def val_main_call0_v1 : (⟨S8192, .f32⟩ : BufTy).Contents (Elt F) :=
  broadcastInDim S8192 ![] bcast_S_S8192 (val_main_call0_v0 (F := F))
abbrev idx_main_call0_v1 (i : S8192.Idx) : S_.Idx := fun a => a.elim0
theorem val_main_call0_v1_apply (i : S8192.Idx) :
    val_main_call0_v1 (F := F) i = val_main_call0_v0 (F := F) (idx_main_call0_v1 i) := by
  unfold val_main_call0_v1
  generalize val_main_call0_v0 (F := F) = y
  exact broadcastInDim_apply _ bcast_S_S8192 y i (idx_main_call0_v1 i) (fun a => a.elim0)

-- %37 = func.call @_where(…) (record main_call0) result 0: @_where's %2 = stablehlo.select %arg0, %arg1, %1 : tensor<8192xi1>, tensor<8192xf32>
def val_main_v37 (x1 : (⟨S2x262144, .i32⟩ : BufTy).Contents (Elt F)) : (⟨S8192, .f32⟩ : BufTy).Contents (Elt F) :=
  select (val_main_v33 (F := F) x1) (val_main_v36 (F := F) x1) (val_main_call0_v1 (F := F))
theorem val_main_v37_apply (x1 : (⟨S2x262144, .i32⟩ : BufTy).Contents (Elt F)) (i : S8192.Idx) :
    val_main_v37 (F := F) x1 i = Scalar.select (val_main_v33 (F := F) x1 i) (val_main_v36 (F := F) x1 i) (val_main_call0_v1 (F := F) i) := rfl

-- %cst_8 = stablehlo.constant dense<0.000000e+00> : tensor<f32>
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %38 = stablehlo.broadcast_in_dim %cst_8, dims = [] : (tensor<f32>) -> tensor<8192xf32>
def val_main_v38 : (⟨S8192, .f32⟩ : BufTy).Contents (Elt F) :=
  broadcastInDim S8192 ![] bcast_S_S8192 (val_main_cst_8 (F := F))
abbrev idx_main_v38 (i : S8192.Idx) : S_.Idx := fun a => a.elim0
theorem val_main_v38_apply (i : S8192.Idx) :
    val_main_v38 (F := F) i = val_main_cst_8 (F := F) (idx_main_v38 i) := by
  unfold val_main_v38
  generalize val_main_cst_8 (F := F) = y
  exact broadcastInDim_apply _ bcast_S_S8192 y i (idx_main_v38 i) (fun a => a.elim0)

-- %39 = stablehlo.compare GT, %31, %38, FLOAT : (tensor<8192xf32>, tensor<8192xf32>) -> tensor<8192xi1>
def val_main_v39 (x1 : (⟨S2x262144, .i32⟩ : BufTy).Contents (Elt F)) : (⟨S8192, .i1⟩ : BufTy).Contents (Elt F) :=
  cmpf .ogt (val_main_v31 (F := F) x1) (val_main_v38 (F := F))
theorem val_main_v39_apply (x1 : (⟨S2x262144, .i32⟩ : BufTy).Contents (Elt F)) (i : S8192.Idx) :
    val_main_v39 (F := F) x1 i = FloatOps.cmpf .ogt (val_main_v31 (F := F) x1 i) (val_main_v38 (F := F) i) := rfl

-- %cst_9 = stablehlo.constant dense<-5.000000e-01> : tensor<f32>
def val_main_cst_9 : (⟨S_, .f32⟩ : BufTy).Contents (Elt F) :=
  constant S_ .f32 0xBF000000#32
theorem val_main_cst_9_apply (i : S_.Idx) :
    val_main_cst_9 (F := F) i = FloatOps.ofBits .f32 0xBF000000#32 := rfl

-- %40 = stablehlo.broadcast_in_dim %cst_9, dims = [] : (tensor<f32>) -> tensor<8192xf32>
def val_main_v40 : (⟨S8192, .f32⟩ : BufTy).Contents (Elt F) :=
  broadcastInDim S8192 ![] bcast_S_S8192 (val_main_cst_9 (F := F))
abbrev idx_main_v40 (i : S8192.Idx) : S_.Idx := fun a => a.elim0
theorem val_main_v40_apply (i : S8192.Idx) :
    val_main_v40 (F := F) i = val_main_cst_9 (F := F) (idx_main_v40 i) := by
  unfold val_main_v40
  generalize val_main_cst_9 (F := F) = y
  exact broadcastInDim_apply _ bcast_S_S8192 y i (idx_main_v40 i) (fun a => a.elim0)

-- %41 = stablehlo.power %31, %40 : tensor<8192xf32>
def val_main_v41 (x1 : (⟨S2x262144, .i32⟩ : BufTy).Contents (Elt F)) : (⟨S8192, .f32⟩ : BufTy).Contents (Elt F) :=
  Host.powf (val_main_v31 (F := F) x1) (val_main_v40 (F := F))
theorem val_main_v41_apply (x1 : (⟨S2x262144, .i32⟩ : BufTy).Contents (Elt F)) (i : S8192.Idx) :
    val_main_v41 (F := F) x1 i = FloatOps.hostPowf (val_main_v31 (F := F) x1 i) (val_main_v40 (F := F) i) := rfl

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- @_where's %0 = stablehlo.convert %arg2 : tensor<f32>, in %42 = func.call @_where(…) (record main_call1)
def val_main_call1_v0 : (⟨S_, .f32⟩ : BufTy).Contents (Elt F) :=
  id (val_main_cst_10 (F := F))
theorem val_main_call1_v0_apply (i : S_.Idx) :
    val_main_call1_v0 (F := F) i = (val_main_cst_10 (F := F) i) := rfl

-- @_where's %1 = stablehlo.broadcast_in_dim %0, dims = [] : (tensor<f32>) -> tensor<8192xf32>, in %42 = func.call @_where(…) (record main_call1)
def val_main_call1_v1 : (⟨S8192, .f32⟩ : BufTy).Contents (Elt F) :=
  broadcastInDim S8192 ![] bcast_S_S8192 (val_main_call1_v0 (F := F))
abbrev idx_main_call1_v1 (i : S8192.Idx) : S_.Idx := fun a => a.elim0
theorem val_main_call1_v1_apply (i : S8192.Idx) :
    val_main_call1_v1 (F := F) i = val_main_call1_v0 (F := F) (idx_main_call1_v1 i) := by
  unfold val_main_call1_v1
  generalize val_main_call1_v0 (F := F) = y
  exact broadcastInDim_apply _ bcast_S_S8192 y i (idx_main_call1_v1 i) (fun a => a.elim0)

-- %42 = func.call @_where(…) (record main_call1) result 0: @_where's %2 = stablehlo.select %arg0, %arg1, %1 : tensor<8192xi1>, tensor<8192xf32>
def val_main_v42 (x1 : (⟨S2x262144, .i32⟩ : BufTy).Contents (Elt F)) : (⟨S8192, .f32⟩ : BufTy).Contents (Elt F) :=
  select (val_main_v39 (F := F) x1) (val_main_v41 (F := F) x1) (val_main_call1_v1 (F := F))
theorem val_main_v42_apply (x1 : (⟨S2x262144, .i32⟩ : BufTy).Contents (Elt F)) (i : S8192.Idx) :
    val_main_v42 (F := F) x1 i = Scalar.select (val_main_v39 (F := F) x1 i) (val_main_v41 (F := F) x1 i) (val_main_call1_v1 (F := F) i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %43 = stablehlo.broadcast_in_dim %c, dims = [] : (tensor<i32>) -> tensor<270336xi32>
def val_main_v43 : (⟨S270336, .i32⟩ : BufTy).Contents (Elt F) :=
  broadcastInDim S270336 ![] bcast_S_S270336 (val_main_c (F := F))
abbrev idx_main_v43 (i : S270336.Idx) : S_.Idx := fun a => a.elim0
theorem val_main_v43_apply (i : S270336.Idx) :
    val_main_v43 (F := F) i = val_main_c (F := F) (idx_main_v43 i) := by
  unfold val_main_v43
  generalize val_main_c (F := F) = y
  exact broadcastInDim_apply _ bcast_S_S270336 y i (idx_main_v43 i) (fun a => a.elim0)

-- %44 = stablehlo.compare LT, %24, %43, SIGNED : (tensor<270336xi32>, tensor<270336xi32>) -> tensor<270336xi1>
def val_main_v44 (x1 : (⟨S2x262144, .i32⟩ : BufTy).Contents (Elt F)) : (⟨S270336, .i1⟩ : BufTy).Contents (Elt F) :=
  cmpi .slt (val_main_v24 (F := F) x1) (val_main_v43 (F := F))
theorem val_main_v44_apply (x1 : (⟨S2x262144, .i32⟩ : BufTy).Contents (Elt F)) (i : S270336.Idx) :
    val_main_v44 (F := F) x1 i = IntOp.cmpi .slt (val_main_v24 (F := F) x1 i) (val_main_v43 (F := F) i) := rfl

-- %c_11 = stablehlo.constant dense<8192> : tensor<i32>
def val_main_c_11 : (⟨S_, .i32⟩ : BufTy).Contents (Elt F) :=
  constantI S_ 32 8192#32
theorem val_main_c_11_apply (i : S_.Idx) :
    val_main_c_11 (F := F) i = 8192#32 := rfl

-- %45 = stablehlo.broadcast_in_dim %c_11, dims = [] : (tensor<i32>) -> tensor<270336xi32>
def val_main_v45 : (⟨S270336, .i32⟩ : BufTy).Contents (Elt F) :=
  broadcastInDim S270336 ![] bcast_S_S270336 (val_main_c_11 (F := F))
abbrev idx_main_v45 (i : S270336.Idx) : S_.Idx := fun a => a.elim0
theorem val_main_v45_apply (i : S270336.Idx) :
    val_main_v45 (F := F) i = val_main_c_11 (F := F) (idx_main_v45 i) := by
  unfold val_main_v45
  generalize val_main_c_11 (F := F) = y
  exact broadcastInDim_apply _ bcast_S_S270336 y i (idx_main_v45 i) (fun a => a.elim0)

-- %46 = stablehlo.add %24, %45 : tensor<270336xi32>
def val_main_v46 (x1 : (⟨S2x262144, .i32⟩ : BufTy).Contents (Elt F)) : (⟨S270336, .i32⟩ : BufTy).Contents (Elt F) :=
  addi (val_main_v24 (F := F) x1) (val_main_v45 (F := F))
theorem val_main_v46_apply (x1 : (⟨S2x262144, .i32⟩ : BufTy).Contents (Elt F)) (i : S270336.Idx) :
    val_main_v46 (F := F) x1 i = IntOp.addi (val_main_v24 (F := F) x1 i) (val_main_v45 (F := F) i) := rfl

-- %47 = stablehlo.select %44, %46, %24 : tensor<270336xi1>, tensor<270336xi32>
def val_main_v47 (x1 : (⟨S2x262144, .i32⟩ : BufTy).Contents (Elt F)) : (⟨S270336, .i32⟩ : BufTy).Contents (Elt F) :=
  select (val_main_v44 (F := F) x1) (val_main_v46 (F := F) x1) (val_main_v24 (F := F) x1)
theorem val_main_v47_apply (x1 : (⟨S2x262144, .i32⟩ : BufTy).Contents (Elt F)) (i : S270336.Idx) :
    val_main_v47 (F := F) x1 i = Scalar.select (val_main_v44 (F := F) x1 i) (val_main_v46 (F := F) x1 i) (val_main_v24 (F := F) x1 i) := rfl

-- %48 = stablehlo.broadcast_in_dim %47, dims = [0] : (tensor<270336xi32>) -> tensor<270336x1xi32>
def val_main_v48 (x1 : (⟨S2x262144, .i32⟩ : BufTy).Contents (Elt F)) : (⟨S270336x1, .i32⟩ : BufTy).Contents (Elt F) :=
  broadcastInDim S270336x1 ![0] bcast_S270336_S270336x1_0 (val_main_v47 (F := F) x1)
abbrev idx_main_v48 (i : S270336x1.Idx) : S270336.Idx := fun a => match a with
  | ⟨0, _⟩ => ⟨(i 0).val, (i 0).isLt⟩
theorem val_main_v48_apply (x1 : (⟨S2x262144, .i32⟩ : BufTy).Contents (Elt F)) (i : S270336x1.Idx) :
    val_main_v48 (F := F) x1 i = val_main_v47 (F := F) x1 (idx_main_v48 i) := by
  unfold val_main_v48
  generalize val_main_v47 (F := F) x1 = y
  exact broadcastInDim_apply _ bcast_S270336_S270336x1_0 y i (idx_main_v48 i) (fun a => match a with
    | ⟨0, _⟩ => by show (i 0).val = if (270336 : Nat) = 1 then 0 else (i 0).val; rw [if_neg (by decide)])

-- %49 = "stablehlo.gather"(%42, %48) <{dimension_numbers = #stablehlo.gather<collapsed_slice_dims = [0], start_index_map = [0], index_vector_dim = 1>, indices_are_sorted = false, slice_sizes = array<i64: 1>}> : (tensor<8192xf32>, tensor<270336x1xi32>) -> tensor<270336xf32>
def val_main_v49 (x1 : (⟨S2x262144, .i32⟩ : BufTy).Contents (Elt F)) : (⟨S270336, .f32⟩ : BufTy).Contents (Elt F) :=
  Host.gather gather_S8192_S270336x1_S270336_n_0_n_n_0_1_1 (val_main_v42 (F := F) x1) (val_main_v48 (F := F) x1)

-- %c_12 = stablehlo.constant dense<0> : tensor<i32>
def val_main_c_12 : (⟨S_, .i32⟩ : BufTy).Contents (Elt F) :=
  constantI S_ 32 0#32
theorem val_main_c_12_apply (i : S_.Idx) :
    val_main_c_12 (F := F) i = 0#32 := rfl

-- %50 = stablehlo.broadcast_in_dim %c_12, dims = [] : (tensor<i32>) -> tensor<270336xi32>
def val_main_v50 : (⟨S270336, .i32⟩ : BufTy).Contents (Elt F) :=
  broadcastInDim S270336 ![] bcast_S_S270336 (val_main_c_12 (F := F))
abbrev idx_main_v50 (i : S270336.Idx) : S_.Idx := fun a => a.elim0
theorem val_main_v50_apply (i : S270336.Idx) :
    val_main_v50 (F := F) i = val_main_c_12 (F := F) (idx_main_v50 i) := by
  unfold val_main_v50
  generalize val_main_c_12 (F := F) = y
  exact broadcastInDim_apply _ bcast_S_S270336 y i (idx_main_v50 i) (fun a => a.elim0)

-- %51 = stablehlo.compare LT, %27, %50, SIGNED : (tensor<270336xi32>, tensor<270336xi32>) -> tensor<270336xi1>
def val_main_v51 (x1 : (⟨S2x262144, .i32⟩ : BufTy).Contents (Elt F)) : (⟨S270336, .i1⟩ : BufTy).Contents (Elt F) :=
  cmpi .slt (val_main_v27 (F := F) x1) (val_main_v50 (F := F))
theorem val_main_v51_apply (x1 : (⟨S2x262144, .i32⟩ : BufTy).Contents (Elt F)) (i : S270336.Idx) :
    val_main_v51 (F := F) x1 i = IntOp.cmpi .slt (val_main_v27 (F := F) x1 i) (val_main_v50 (F := F) i) := rfl

-- %c_13 = stablehlo.constant dense<8192> : tensor<i32>
def val_main_c_13 : (⟨S_, .i32⟩ : BufTy).Contents (Elt F) :=
  constantI S_ 32 8192#32
theorem val_main_c_13_apply (i : S_.Idx) :
    val_main_c_13 (F := F) i = 8192#32 := rfl

-- %52 = stablehlo.broadcast_in_dim %c_13, dims = [] : (tensor<i32>) -> tensor<270336xi32>
def val_main_v52 : (⟨S270336, .i32⟩ : BufTy).Contents (Elt F) :=
  broadcastInDim S270336 ![] bcast_S_S270336 (val_main_c_13 (F := F))
abbrev idx_main_v52 (i : S270336.Idx) : S_.Idx := fun a => a.elim0
theorem val_main_v52_apply (i : S270336.Idx) :
    val_main_v52 (F := F) i = val_main_c_13 (F := F) (idx_main_v52 i) := by
  unfold val_main_v52
  generalize val_main_c_13 (F := F) = y
  exact broadcastInDim_apply _ bcast_S_S270336 y i (idx_main_v52 i) (fun a => a.elim0)

-- %53 = stablehlo.add %27, %52 : tensor<270336xi32>
def val_main_v53 (x1 : (⟨S2x262144, .i32⟩ : BufTy).Contents (Elt F)) : (⟨S270336, .i32⟩ : BufTy).Contents (Elt F) :=
  addi (val_main_v27 (F := F) x1) (val_main_v52 (F := F))
theorem val_main_v53_apply (x1 : (⟨S2x262144, .i32⟩ : BufTy).Contents (Elt F)) (i : S270336.Idx) :
    val_main_v53 (F := F) x1 i = IntOp.addi (val_main_v27 (F := F) x1 i) (val_main_v52 (F := F) i) := rfl

-- %54 = stablehlo.select %51, %53, %27 : tensor<270336xi1>, tensor<270336xi32>
def val_main_v54 (x1 : (⟨S2x262144, .i32⟩ : BufTy).Contents (Elt F)) : (⟨S270336, .i32⟩ : BufTy).Contents (Elt F) :=
  select (val_main_v51 (F := F) x1) (val_main_v53 (F := F) x1) (val_main_v27 (F := F) x1)
theorem val_main_v54_apply (x1 : (⟨S2x262144, .i32⟩ : BufTy).Contents (Elt F)) (i : S270336.Idx) :
    val_main_v54 (F := F) x1 i = Scalar.select (val_main_v51 (F := F) x1 i) (val_main_v53 (F := F) x1 i) (val_main_v27 (F := F) x1 i) := rfl

-- %55 = stablehlo.broadcast_in_dim %54, dims = [0] : (tensor<270336xi32>) -> tensor<270336x1xi32>
def val_main_v55 (x1 : (⟨S2x262144, .i32⟩ : BufTy).Contents (Elt F)) : (⟨S270336x1, .i32⟩ : BufTy).Contents (Elt F) :=
  broadcastInDim S270336x1 ![0] bcast_S270336_S270336x1_0 (val_main_v54 (F := F) x1)
abbrev idx_main_v55 (i : S270336x1.Idx) : S270336.Idx := fun a => match a with
  | ⟨0, _⟩ => ⟨(i 0).val, (i 0).isLt⟩
theorem val_main_v55_apply (x1 : (⟨S2x262144, .i32⟩ : BufTy).Contents (Elt F)) (i : S270336x1.Idx) :
    val_main_v55 (F := F) x1 i = val_main_v54 (F := F) x1 (idx_main_v55 i) := by
  unfold val_main_v55
  generalize val_main_v54 (F := F) x1 = y
  exact broadcastInDim_apply _ bcast_S270336_S270336x1_0 y i (idx_main_v55 i) (fun a => match a with
    | ⟨0, _⟩ => by show (i 0).val = if (270336 : Nat) = 1 then 0 else (i 0).val; rw [if_neg (by decide)])

-- %56 = "stablehlo.gather"(%42, %55) <{dimension_numbers = #stablehlo.gather<collapsed_slice_dims = [0], start_index_map = [0], index_vector_dim = 1>, indices_are_sorted = false, slice_sizes = array<i64: 1>}> : (tensor<8192xf32>, tensor<270336x1xi32>) -> tensor<270336xf32>
def val_main_v56 (x1 : (⟨S2x262144, .i32⟩ : BufTy).Contents (Elt F)) : (⟨S270336, .f32⟩ : BufTy).Contents (Elt F) :=
  Host.gather gather_S8192_S270336x1_S270336_n_0_n_n_0_1_1 (val_main_v42 (F := F) x1) (val_main_v55 (F := F) x1)

-- %57 = stablehlo.multiply %49, %56 : tensor<270336xf32>
def val_main_v57 (x1 : (⟨S2x262144, .i32⟩ : BufTy).Contents (Elt F)) : (⟨S270336, .f32⟩ : BufTy).Contents (Elt F) :=
  mulf (val_main_v49 (F := F) x1) (val_main_v56 (F := F) x1)
theorem val_main_v57_apply (x1 : (⟨S2x262144, .i32⟩ : BufTy).Contents (Elt F)) (i : S270336.Idx) :
    val_main_v57 (F := F) x1 i = FloatOps.mulf (val_main_v49 (F := F) x1 i) (val_main_v56 (F := F) x1 i) := rfl

-- %c_14 = stablehlo.constant dense<0> : tensor<i32>
def val_main_c_14 : (⟨S_, .i32⟩ : BufTy).Contents (Elt F) :=
  constantI S_ 32 0#32
theorem val_main_c_14_apply (i : S_.Idx) :
    val_main_c_14 (F := F) i = 0#32 := rfl

-- %58 = stablehlo.broadcast_in_dim %c_14, dims = [] : (tensor<i32>) -> tensor<270336xi32>
def val_main_v58 : (⟨S270336, .i32⟩ : BufTy).Contents (Elt F) :=
  broadcastInDim S270336 ![] bcast_S_S270336 (val_main_c_14 (F := F))
abbrev idx_main_v58 (i : S270336.Idx) : S_.Idx := fun a => a.elim0
theorem val_main_v58_apply (i : S270336.Idx) :
    val_main_v58 (F := F) i = val_main_c_14 (F := F) (idx_main_v58 i) := by
  unfold val_main_v58
  generalize val_main_c_14 (F := F) = y
  exact broadcastInDim_apply _ bcast_S_S270336 y i (idx_main_v58 i) (fun a => a.elim0)

-- %59 = stablehlo.compare LT, %24, %58, SIGNED : (tensor<270336xi32>, tensor<270336xi32>) -> tensor<270336xi1>
def val_main_v59 (x1 : (⟨S2x262144, .i32⟩ : BufTy).Contents (Elt F)) : (⟨S270336, .i1⟩ : BufTy).Contents (Elt F) :=
  cmpi .slt (val_main_v24 (F := F) x1) (val_main_v58 (F := F))
theorem val_main_v59_apply (x1 : (⟨S2x262144, .i32⟩ : BufTy).Contents (Elt F)) (i : S270336.Idx) :
    val_main_v59 (F := F) x1 i = IntOp.cmpi .slt (val_main_v24 (F := F) x1 i) (val_main_v58 (F := F) i) := rfl

-- %c_15 = stablehlo.constant dense<8192> : tensor<i32>
def val_main_c_15 : (⟨S_, .i32⟩ : BufTy).Contents (Elt F) :=
  constantI S_ 32 8192#32
theorem val_main_c_15_apply (i : S_.Idx) :
    val_main_c_15 (F := F) i = 8192#32 := rfl

-- %60 = stablehlo.broadcast_in_dim %c_15, dims = [] : (tensor<i32>) -> tensor<270336xi32>
def val_main_v60 : (⟨S270336, .i32⟩ : BufTy).Contents (Elt F) :=
  broadcastInDim S270336 ![] bcast_S_S270336 (val_main_c_15 (F := F))
abbrev idx_main_v60 (i : S270336.Idx) : S_.Idx := fun a => a.elim0
theorem val_main_v60_apply (i : S270336.Idx) :
    val_main_v60 (F := F) i = val_main_c_15 (F := F) (idx_main_v60 i) := by
  unfold val_main_v60
  generalize val_main_c_15 (F := F) = y
  exact broadcastInDim_apply _ bcast_S_S270336 y i (idx_main_v60 i) (fun a => a.elim0)

-- %61 = stablehlo.add %24, %60 : tensor<270336xi32>
def val_main_v61 (x1 : (⟨S2x262144, .i32⟩ : BufTy).Contents (Elt F)) : (⟨S270336, .i32⟩ : BufTy).Contents (Elt F) :=
  addi (val_main_v24 (F := F) x1) (val_main_v60 (F := F))
theorem val_main_v61_apply (x1 : (⟨S2x262144, .i32⟩ : BufTy).Contents (Elt F)) (i : S270336.Idx) :
    val_main_v61 (F := F) x1 i = IntOp.addi (val_main_v24 (F := F) x1 i) (val_main_v60 (F := F) i) := rfl

-- %62 = stablehlo.select %59, %61, %24 : tensor<270336xi1>, tensor<270336xi32>
def val_main_v62 (x1 : (⟨S2x262144, .i32⟩ : BufTy).Contents (Elt F)) : (⟨S270336, .i32⟩ : BufTy).Contents (Elt F) :=
  select (val_main_v59 (F := F) x1) (val_main_v61 (F := F) x1) (val_main_v24 (F := F) x1)
theorem val_main_v62_apply (x1 : (⟨S2x262144, .i32⟩ : BufTy).Contents (Elt F)) (i : S270336.Idx) :
    val_main_v62 (F := F) x1 i = Scalar.select (val_main_v59 (F := F) x1 i) (val_main_v61 (F := F) x1 i) (val_main_v24 (F := F) x1 i) := rfl

-- %63 = stablehlo.broadcast_in_dim %62, dims = [0] : (tensor<270336xi32>) -> tensor<270336x1xi32>
def val_main_v63 (x1 : (⟨S2x262144, .i32⟩ : BufTy).Contents (Elt F)) : (⟨S270336x1, .i32⟩ : BufTy).Contents (Elt F) :=
  broadcastInDim S270336x1 ![0] bcast_S270336_S270336x1_0 (val_main_v62 (F := F) x1)
abbrev idx_main_v63 (i : S270336x1.Idx) : S270336.Idx := fun a => match a with
  | ⟨0, _⟩ => ⟨(i 0).val, (i 0).isLt⟩
theorem val_main_v63_apply (x1 : (⟨S2x262144, .i32⟩ : BufTy).Contents (Elt F)) (i : S270336x1.Idx) :
    val_main_v63 (F := F) x1 i = val_main_v62 (F := F) x1 (idx_main_v63 i) := by
  unfold val_main_v63
  generalize val_main_v62 (F := F) x1 = y
  exact broadcastInDim_apply _ bcast_S270336_S270336x1_0 y i (idx_main_v63 i) (fun a => match a with
    | ⟨0, _⟩ => by show (i 0).val = if (270336 : Nat) = 1 then 0 else (i 0).val; rw [if_neg (by decide)])

-- %64 = "stablehlo.gather"(%20, %63) <{dimension_numbers = #stablehlo.gather<offset_dims = [1], collapsed_slice_dims = [0], start_index_map = [0], index_vector_dim = 1>, indices_are_sorted = false, slice_sizes = array<i64: 1, 128>}> : (tensor<8192x128xf32>, tensor<270336x1xi32>) -> tensor<270336x128xf32>
def val_main_v64 (x0 : (⟨S8192x128, .f32⟩ : BufTy).Contents (Elt F)) (x1 : (⟨S2x262144, .i32⟩ : BufTy).Contents (Elt F)) (x2 : (⟨S128x128, .f32⟩ : BufTy).Contents (Elt F)) : (⟨S270336x128, .f32⟩ : BufTy).Contents (Elt F) :=
  Host.gather gather_S8192x128_S270336x1_S270336x128_1_0_n_n_0_1_1128 (val_main_v20 (F := F) x0 x2) (val_main_v63 (F := F) x1)

-- %65 = stablehlo.broadcast_in_dim %57, dims = [0] : (tensor<270336xf32>) -> tensor<270336x1xf32>
def val_main_v65 (x1 : (⟨S2x262144, .i32⟩ : BufTy).Contents (Elt F)) : (⟨S270336x1, .f32⟩ : BufTy).Contents (Elt F) :=
  broadcastInDim S270336x1 ![0] bcast_S270336_S270336x1_0 (val_main_v57 (F := F) x1)
abbrev idx_main_v65 (i : S270336x1.Idx) : S270336.Idx := fun a => match a with
  | ⟨0, _⟩ => ⟨(i 0).val, (i 0).isLt⟩
theorem val_main_v65_apply (x1 : (⟨S2x262144, .i32⟩ : BufTy).Contents (Elt F)) (i : S270336x1.Idx) :
    val_main_v65 (F := F) x1 i = val_main_v57 (F := F) x1 (idx_main_v65 i) := by
  unfold val_main_v65
  generalize val_main_v57 (F := F) x1 = y
  exact broadcastInDim_apply _ bcast_S270336_S270336x1_0 y i (idx_main_v65 i) (fun a => match a with
    | ⟨0, _⟩ => by show (i 0).val = if (270336 : Nat) = 1 then 0 else (i 0).val; rw [if_neg (by decide)])

-- %66 = stablehlo.broadcast_in_dim %65, dims = [0, 1] : (tensor<270336x1xf32>) -> tensor<270336x128xf32>
def val_main_v66 (x1 : (⟨S2x262144, .i32⟩ : BufTy).Contents (Elt F)) : (⟨S270336x128, .f32⟩ : BufTy).Contents (Elt F) :=
  broadcastInDim S270336x128 ![0, 1] bcast_S270336x1_S270336x128_0_1 (val_main_v65 (F := F) x1)
abbrev idx_main_v66 (i : S270336x128.Idx) : S270336x1.Idx := fun a => match a with
  | ⟨0, _⟩ => ⟨(i 0).val, (i 0).isLt⟩
  | ⟨1, _⟩ => ⟨0, Nat.one_pos⟩
theorem val_main_v66_apply (x1 : (⟨S2x262144, .i32⟩ : BufTy).Contents (Elt F)) (i : S270336x128.Idx) :
    val_main_v66 (F := F) x1 i = val_main_v65 (F := F) x1 (idx_main_v66 i) := by
  unfold val_main_v66
  generalize val_main_v65 (F := F) x1 = y
  exact broadcastInDim_apply _ bcast_S270336x1_S270336x128_0_1 y i (idx_main_v66 i) (fun a => match a with
    | ⟨0, _⟩ => by show (i 0).val = if (270336 : Nat) = 1 then 0 else (i 0).val; rw [if_neg (by decide)]
    | ⟨1, _⟩ => by show 0 = if (1 : Nat) = 1 then 0 else (i 1).val; rw [if_pos rfl])

-- %67 = stablehlo.multiply %64, %66 : tensor<270336x128xf32>
def val_main_v67 (x0 : (⟨S8192x128, .f32⟩ : BufTy).Contents (Elt F)) (x1 : (⟨S2x262144, .i32⟩ : BufTy).Contents (Elt F)) (x2 : (⟨S128x128, .f32⟩ : BufTy).Contents (Elt F)) : (⟨S270336x128, .f32⟩ : BufTy).Contents (Elt F) :=
  mulf (val_main_v64 (F := F) x0 x1 x2) (val_main_v66 (F := F) x1)
theorem val_main_v67_apply (x0 : (⟨S8192x128, .f32⟩ : BufTy).Contents (Elt F)) (x1 : (⟨S2x262144, .i32⟩ : BufTy).Contents (Elt F)) (x2 : (⟨S128x128, .f32⟩ : BufTy).Contents (Elt F)) (i : S270336x128.Idx) :
    val_main_v67 (F := F) x0 x1 x2 i = FloatOps.mulf (val_main_v64 (F := F) x0 x1 x2 i) (val_main_v66 (F := F) x1 i) := rfl

-- %cst_16 = stablehlo.constant dense<0.000000e+00> : tensor<f32>
def val_main_cst_16 : (⟨S_, .f32⟩ : BufTy).Contents (Elt F) :=
  constant S_ .f32 0x00000000#32
theorem val_main_cst_16_apply (i : S_.Idx) :
    val_main_cst_16 (F := F) i = FloatOps.ofBits .f32 0x00000000#32 := rfl

-- %68 = stablehlo.broadcast_in_dim %cst_16, dims = [] : (tensor<f32>) -> tensor<8192x128xf32>
def val_main_v68 : (⟨S8192x128, .f32⟩ : BufTy).Contents (Elt F) :=
  broadcastInDim S8192x128 ![] bcast_S_S8192x128 (val_main_cst_16 (F := F))
abbrev idx_main_v68 (i : S8192x128.Idx) : S_.Idx := fun a => a.elim0
theorem val_main_v68_apply (i : S8192x128.Idx) :
    val_main_v68 (F := F) i = val_main_cst_16 (F := F) (idx_main_v68 i) := by
  unfold val_main_v68
  generalize val_main_cst_16 (F := F) = y
  exact broadcastInDim_apply _ bcast_S_S8192x128 y i (idx_main_v68 i) (fun a => a.elim0)

-- %69 = stablehlo.broadcast_in_dim %27, dims = [0] : (tensor<270336xi32>) -> tensor<270336x1xi32>
def val_main_v69 (x1 : (⟨S2x262144, .i32⟩ : BufTy).Contents (Elt F)) : (⟨S270336x1, .i32⟩ : BufTy).Contents (Elt F) :=
  broadcastInDim S270336x1 ![0] bcast_S270336_S270336x1_0 (val_main_v27 (F := F) x1)
abbrev idx_main_v69 (i : S270336x1.Idx) : S270336.Idx := fun a => match a with
  | ⟨0, _⟩ => ⟨(i 0).val, (i 0).isLt⟩
theorem val_main_v69_apply (x1 : (⟨S2x262144, .i32⟩ : BufTy).Contents (Elt F)) (i : S270336x1.Idx) :
    val_main_v69 (F := F) x1 i = val_main_v27 (F := F) x1 (idx_main_v69 i) := by
  unfold val_main_v69
  generalize val_main_v27 (F := F) x1 = y
  exact broadcastInDim_apply _ bcast_S270336_S270336x1_0 y i (idx_main_v69 i) (fun a => match a with
    | ⟨0, _⟩ => by show (i 0).val = if (270336 : Nat) = 1 then 0 else (i 0).val; rw [if_neg (by decide)])

-- %70 = "stablehlo.scatter"(%68, %69, %67) <{indices_are_sorted = false, scatter_dimension_numbers = #stablehlo.scatter<update_window_dims = [1], inserted_window_dims = [0], scatter_dims_to_operand_dims = [0], index_vector_dim = 1>, unique_indices = false}> ( {
def val_main_v70 (x0 : (⟨S8192x128, .f32⟩ : BufTy).Contents (Elt F)) (x1 : (⟨S2x262144, .i32⟩ : BufTy).Contents (Elt F)) (x2 : (⟨S128x128, .f32⟩ : BufTy).Contents (Elt F)) : (⟨S8192x128, .f32⟩ : BufTy).Contents (Elt F) :=
  Host.scatterAdd scatter_S8192x128_S270336x1_S270336x128_1_0_0_1 (val_main_v68 (F := F)) (val_main_v69 (F := F) x1) (val_main_v67 (F := F) x0 x1 x2)

-- %71 = stablehlo.broadcast_in_dim %arg3, dims = [1] : (tensor<128xf32>) -> tensor<1x128xf32>
def val_main_v71 (x3 : (⟨S128, .f32⟩ : BufTy).Contents (Elt F)) : (⟨S1x128, .f32⟩ : BufTy).Contents (Elt F) :=
  broadcastInDim S1x128 ![1] bcast_S128_S1x128_1 (x3)
abbrev idx_main_v71 (i : S1x128.Idx) : S128.Idx := fun a => match a with
  | ⟨0, _⟩ => ⟨(i 1).val, (i 1).isLt⟩
theorem val_main_v71_apply (x3 : (⟨S128, .f32⟩ : BufTy).Contents (Elt F)) (i : S1x128.Idx) :
    val_main_v71 (F := F) x3 i = x3 (idx_main_v71 i) := by
  unfold val_main_v71
  exact broadcastInDim_apply _ bcast_S128_S1x128_1 x3 i (idx_main_v71 i) (fun a => match a with
    | ⟨0, _⟩ => by show (i 1).val = if (128 : Nat) = 1 then 0 else (i 1).val; rw [if_neg (by decide)])

-- %72 = stablehlo.broadcast_in_dim %71, dims = [0, 1] : (tensor<1x128xf32>) -> tensor<8192x128xf32>
def val_main_v72 (x3 : (⟨S128, .f32⟩ : BufTy).Contents (Elt F)) : (⟨S8192x128, .f32⟩ : BufTy).Contents (Elt F) :=
  broadcastInDim S8192x128 ![0, 1] bcast_S1x128_S8192x128_0_1 (val_main_v71 (F := F) x3)
abbrev idx_main_v72 (i : S8192x128.Idx) : S1x128.Idx := fun a => match a with
  | ⟨0, _⟩ => ⟨0, Nat.one_pos⟩
  | ⟨1, _⟩ => ⟨(i 1).val, (i 1).isLt⟩
theorem val_main_v72_apply (x3 : (⟨S128, .f32⟩ : BufTy).Contents (Elt F)) (i : S8192x128.Idx) :
    val_main_v72 (F := F) x3 i = val_main_v71 (F := F) x3 (idx_main_v72 i) := by
  unfold val_main_v72
  generalize val_main_v71 (F := F) x3 = y
  exact broadcastInDim_apply _ bcast_S1x128_S8192x128_0_1 y i (idx_main_v72 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %73 = stablehlo.add %70, %72 : tensor<8192x128xf32>
def val_main_v73 (x0 : (⟨S8192x128, .f32⟩ : BufTy).Contents (Elt F)) (x1 : (⟨S2x262144, .i32⟩ : BufTy).Contents (Elt F)) (x2 : (⟨S128x128, .f32⟩ : BufTy).Contents (Elt F)) (x3 : (⟨S128, .f32⟩ : BufTy).Contents (Elt F)) : (⟨S8192x128, .f32⟩ : BufTy).Contents (Elt F) :=
  addf (val_main_v70 (F := F) x0 x1 x2) (val_main_v72 (F := F) x3)
theorem val_main_v73_apply (x0 : (⟨S8192x128, .f32⟩ : BufTy).Contents (Elt F)) (x1 : (⟨S2x262144, .i32⟩ : BufTy).Contents (Elt F)) (x2 : (⟨S128x128, .f32⟩ : BufTy).Contents (Elt F)) (x3 : (⟨S128, .f32⟩ : BufTy).Contents (Elt F)) (i : S8192x128.Idx) :
    val_main_v73 (F := F) x0 x1 x2 x3 i = FloatOps.addf (val_main_v70 (F := F) x0 x1 x2 i) (val_main_v72 (F := F) x3 i) := rfl

-- %74 = stablehlo.multiply %73, %19 : tensor<8192x128xf32>
def val_main_v74 (x0 : (⟨S8192x128, .f32⟩ : BufTy).Contents (Elt F)) (x1 : (⟨S2x262144, .i32⟩ : BufTy).Contents (Elt F)) (x2 : (⟨S128x128, .f32⟩ : BufTy).Contents (Elt F)) (x3 : (⟨S128, .f32⟩ : BufTy).Contents (Elt F)) : (⟨S8192x128, .f32⟩ : BufTy).Contents (Elt F) :=
  mulf (val_main_v73 (F := F) x0 x1 x2 x3) (val_main_v19 (F := F) x0)
theorem val_main_v74_apply (x0 : (⟨S8192x128, .f32⟩ : BufTy).Contents (Elt F)) (x1 : (⟨S2x262144, .i32⟩ : BufTy).Contents (Elt F)) (x2 : (⟨S128x128, .f32⟩ : BufTy).Contents (Elt F)) (x3 : (⟨S128, .f32⟩ : BufTy).Contents (Elt F)) (i : S8192x128.Idx) :
    val_main_v74 (F := F) x0 x1 x2 x3 i = FloatOps.mulf (val_main_v73 (F := F) x0 x1 x2 x3 i) (val_main_v19 (F := F) x0 i) := rfl

/-- The run's result term is the last stage. -/
theorem val_main_v74_eq (m : (ℓ : Loc nD τ sig) → Buf (Elt F) ℓ) (c : Dev nD) :
    Cert.ReferenceIdeal.RefRun.res_main_v74 m c = val_main_v74 (F := F) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.RefRun.res_main_v74; rfl

end Cert.ReferenceIdeal.RefRead

end
-- ==== Proof.RefAtt.lean ====
/-
  The reference's attention part is the specification: reading its operations at an index, the row sums of squares
  are the rows' inner products with themselves, the two broadcasts of their square roots meet as the product of the
  two rows' norms, `x · xᵀ` is the rows' inner products, the second matrix product is the sum over the 8192 columns
  of similarity times value, and 1 / (1 + exp(-s)) is the logistic of s.
-/
import proofs.«130468_j21397527068865_1_alg».proof.Proof.RefRead
import proofs.«130468_j21397527068865_1_alg».proof.Proof.Spec
import Idealize.ShloMosaic.Lib.IdealHost

set_option maxRecDepth 16384

noncomputable section

namespace Cert.ReferenceIdeal.RefAtt

open Cert.ReferenceIdeal Cert.ReferenceIdeal.Gen Cert.ReferenceIdeal.RefRead Cert.AttSpec
open Idealize.ShloMosaic Idealize.ShloMosaic.ValueIdx

variable (x0 : (⟨S8192x128, .f32⟩ : BufTy).Contents (Elt Ideal))

theorem ref_v1 (i : S8192.Idx) : val_main_v1 (F := Ideal) x0 i = dotN (x0 : SX.Idx → EReal) (i 0).val (i 0).val := by
  rw [val_main_v1_apply]
  show Ideal.ofBits .f32 0x00000000#32 + ∑ k : Fin 128, x0 (idx_main_v1 i k) * x0 (idx_main_v1 i k) = _
  rw [Ideal.ofBits_zero_f32, zero_add, ← dot_fin]
  refine Finset.sum_congr rfl fun k _ => ?_
  rw [xN_at (x0 : SX.Idx → EReal) (idx_main_v1 i k)]

theorem ref_v9 (i : S8192x8192.Idx) :
    val_main_v9 (F := Ideal) x0 i = max (Ideal.sqrt (dotN (x0 : SX.Idx → EReal) (i 0).val (i 0).val) * Ideal.sqrt (dotN (x0 : SX.Idx → EReal) (i 1).val (i 1).val)) eps := by
  rw [val_main_v9_apply, val_main_v7_apply, val_main_v5_apply, val_main_v6_apply, val_main_v3_apply, val_main_v4_apply,
    val_main_v2_apply, val_main_v2_apply, ref_v1, ref_v1, val_main_v8_apply, val_main_cst_0_apply]
  rfl

theorem ref_v11 (i : S8192x8192.Idx) : val_main_v11 (F := Ideal) x0 i = dotN (x0 : SX.Idx → EReal) (i 0).val (i 1).val := by
  rw [val_main_v11_apply, ← dot_fin]
  refine Finset.sum_congr rfl fun k _ => ?_
  rw [val_main_v10_apply, xN_at (x0 : SX.Idx → EReal) (lidx_main_v11 i k), xN_at (x0 : SX.Idx → EReal) (idx_main_v10 (ridx_main_v11 i k))]

theorem ref_v13 (i : S8192x128.Idx) : val_main_v13 (F := Ideal) x0 i = accN (x0 : SX.Idx → EReal) (i 0).val (i 1).val := by
  rw [val_main_v13_apply]
  unfold accN
  rw [← sum_fin_range (fun j => termN (x0 : SX.Idx → EReal) (i 0).val (i 1).val j)]
  refine Finset.sum_congr rfl fun j _ => ?_
  rw [val_main_v12_apply, ref_v11, ref_v9, xN_at (x0 : SX.Idx → EReal) (ridx_main_v13 i j)]
  rfl

/-- The reference's attention part is the specification. -/
theorem ref_att : val_main_v19 (F := Ideal) x0 = att (x0 : SX.Idx → EReal) := by
  funext i
  rw [val_main_v19_apply, val_main_v18_apply, val_main_cst_2_apply, val_main_v17_apply, val_main_v16_apply, val_main_cst_1_apply,
    val_main_v15_apply, val_main_v14_apply, ref_v13]
  show Ideal.div (Ideal.ofBits .f32 0x3F800000#32) (Ideal.ofBits .f32 0x3F800000#32 + Ideal.exp (-(accN (x0 : SX.Idx → EReal) (i 0).val (i 1).val))) = _
  rw [Ideal.ofBits_one_f32]
  rfl

end Cert.ReferenceIdeal.RefAtt

end
-- ==== Proof.RefGcn.lean ====
/-
  The graph-convolution factor of the reference's result, as one function of the four argument arrays: the degree
  count of every node by a scatter-add of ones along the edges' targets (self-loops appended), its power -1/2 where the
  degree is positive, gathered along both ends of every edge and multiplied; the projected rows `x · W` gathered along
  the sources, scaled by that product, scatter-added at the targets, and shifted by the bias. The reference's result is
  this factor times its attention part.
-/
import proofs.«130468_j21397527068865_1_alg».proof.Proof.RefRead

noncomputable section

namespace Cert.ReferenceIdeal.RefGcn

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
def gcn (x0 : (⟨S8192x128, .f32⟩ : BufTy).Contents (Elt F)) (x1 : (⟨S2x262144, .i32⟩ : BufTy).Contents (Elt F))
    (x2 : (⟨S128x128, .f32⟩ : BufTy).Contents (Elt F)) (x3 : (⟨S128, .f32⟩ : BufTy).Contents (Elt F)) :
    (⟨S8192x128, .f32⟩ : BufTy).Contents (Elt F) :=
  (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x0 x2) (broadcastInDim S270336x1 ![0] bcast_S270336_S270336x1_0 (select (cmpi .slt (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.powf (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0xBF000000#32))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.powf (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0xBF000000#32))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x3)))

set_option maxRecDepth 8192 in
set_option maxHeartbeats 8000000 in
/-- The reference's result is the graph-convolution factor times the attention part. -/
theorem res_eq (m : (ℓ : Loc nD τ sig) → Buf (Elt F) ℓ) (c : Dev nD) :
    Cert.ReferenceIdeal.RefRun.res_main_v74 m c
      = mulf (gcn (m ((c.tc : Thread nD τ).loc main_arg0)) (m ((c.tc : Thread nD τ).loc main_arg1)) (m ((c.tc : Thread nD τ).loc main_arg2)) (m ((c.tc : Thread nD τ).loc main_arg3)))
          (Cert.ReferenceIdeal.RefRead.val_main_v19 (F := F) (m ((c.tc : Thread nD τ).loc main_arg0))) := by
  unfold Cert.ReferenceIdeal.RefRun.res_main_v74 gcn; rfl

end Cert.ReferenceIdeal.RefGcn

end
-- ==== Proof.lean ====
/-
  The certificate of the cosine-attention × graph-convolution kernel against its jnp reference.

  The kernel computes, over an 8 × 8 grid of (row block, column block) points on x : f32[8192, 128], the attention
  output logistic(Σ_j sim(r, j) · x[j, ·]) with sim(r, j) = ⟨x_r, x_j⟩ / max(‖x_r‖ ‖x_j‖, eps), the sum over j
  accumulated column block by column block in a scratch buffer that is reset at the first column block and read out
  through the logistic at the last; the host then multiplies it with the graph-convolution term. The reference
  computes the same two factors with whole-array operations.

  The three frames: both kernel programs run the region (the body's three cases at every grid point, the
  accumulator carried in the region's invariant, the array `x` read by two windows at half shares) and then the host
  operations; the reference is a straight line of host operations. No rewrite was applied by the ideal pass, so
  `preserves` is trivial.

  The algebraic claim: at the extended reals the casts to bf16 are the identity and every matrix product and lane sum
  is a plain finite sum, so the kernel's accumulator after the last column block is the sum over all 8192 columns —
  the eight blocks of 1024 regroup one sum, by the commutative-monoid law alone, no finiteness needed — and the
  reference's 1 / (1 + exp(-s)) is the logistic of s. The graph-convolution factor is the same host operations of the
  same arguments on both sides.
-/
import proofs.«130468_j21397527068865_1_alg».proof.Defs
import proofs.«130468_j21397527068865_1_alg».proof.Proof.Gen.Kernel
import proofs.«130468_j21397527068865_1_alg».proof.Proof.Gen.KernelIdeal
import proofs.«130468_j21397527068865_1_alg».proof.Proof.Gen.ReferenceIdeal
import proofs.«130468_j21397527068865_1_alg».proof.Proof.Gen.Pre_finite_inputs
import proofs.«130468_j21397527068865_1_alg».proof.Proof.K.Launch
import proofs.«130468_j21397527068865_1_alg».proof.Proof.KI.Launch
import proofs.«130468_j21397527068865_1_alg».proof.Proof.KI.AttValue
import proofs.«130468_j21397527068865_1_alg».proof.Proof.KI.Gcn
import proofs.«130468_j21397527068865_1_alg».proof.Proof.RefRun
import proofs.«130468_j21397527068865_1_alg».proof.Proof.RefAtt
import proofs.«130468_j21397527068865_1_alg».proof.Proof.RefGcn
import Idealize.ShloMosaic.Adequacy
import Idealize.ShloMosaic.Init

noncomputable section

namespace Cert.Proof

open Idealize.ShloMosaic Idealize.SL.Sem

theorem frame_k : Cert.frame_Kernel := fun m ρ _ => Cert.Kernel.Att.frame m ρ
theorem frame_ki : Cert.frame_KernelIdeal := fun m ρ _ => Cert.KernelIdeal.Att.frame m ρ
theorem frame_ri : Cert.frame_ReferenceIdeal := fun m ρ _ =>
  (θ_run Cert.ReferenceIdeal.defs _ _).mono (fun _ h c => (h c).2) (Cert.ReferenceIdeal.RefRun.run (F := Ideal) m ρ)
theorem preserves : Cert.preserves_Kernel_KernelIdeal := trivial

set_option maxRecDepth 8192 in
set_option maxHeartbeats 4000000 in
/-- The graph-convolution factor is the same function of the arguments in both programs: the same operations over the
    same literal shapes. -/
theorem gcn_same (x0 : (⟨Cert.KernelIdeal.S8192x128, .f32⟩ : BufTy).Contents (Elt Ideal))
    (x1 : (⟨Cert.KernelIdeal.S2x262144, .i32⟩ : BufTy).Contents (Elt Ideal))
    (x2 : (⟨Cert.KernelIdeal.S128x128, .f32⟩ : BufTy).Contents (Elt Ideal))
    (x3 : (⟨Cert.KernelIdeal.S128, .f32⟩ : BufTy).Contents (Elt Ideal)) :
    Cert.ReferenceIdeal.RefGcn.gcn (F := Ideal) x0 x1 x2 x3 = Cert.KernelIdeal.Att.gcn (F := Ideal) x0 x1 x2 x3 := rfl

set_option maxHeartbeats 4000000 in
theorem algebraic : Cert.algebraic_KernelIdeal_ReferenceIdeal := by
  intro m ρ m' ρ' _ hagree
  refine ⟨fun c => Cert.KernelIdeal.Att.W4 m c (Proc.devRef .tc Cert.KernelIdeal.main_v49), Cert.KernelIdeal.Att.run_result m ρ, ?_⟩
  refine (θ_run Cert.ReferenceIdeal.defs _ _).mono (fun _ h c => ⟨(h c).1.trans ?_, (h c).2⟩)
    (Cert.ReferenceIdeal.RefRun.run (F := Ideal) m' ρ')
  show _ = Cert.KernelIdeal.Att.W4 m c (Proc.devRef .tc Cert.KernelIdeal.main_v49)
  rw [Cert.ReferenceIdeal.RefGcn.res_eq, Cert.ReferenceIdeal.RefAtt.ref_att, (hagree c).1, (hagree c).2.1, (hagree c).2.2.1, (hagree c).2.2.2,
    Cert.KernelIdeal.Att.W4_result, Cert.KernelIdeal.Att.att_final]
  exact congrArg₂ _ (gcn_same _ _ _ _) rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
